-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1001x128 : Shape := ⟨2, ![1001, 128]⟩
abbrev S_ : Shape := ⟨0, ![]⟩

class Facts : Prop where
  bcast_S_S1001x128 : S_.BroadcastsInDim S1001x128 (![] : Fin 0 → Fin S1001x128.rank)
  reducesTo_S1001x128_S_d0_1 : S1001x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1001x128 .f32) : IVec S_ 1 :=
  let main_v0 : FVec F S1001x128 .f32 := Host.absf main_arg1
  let main_cst : FVec F S_ .f32 := constant S_ .f32 0x7F800000#32
  let main_v1 : FVec F S1001x128 .f32 := broadcastInDim S1001x128 ![] bcast_S_S1001x128 main_cst
  let main_v2 : IVec S1001x128 1 := cmpf .olt main_v0 main_v1
  let main_c : IVec S_ 1 := constantI S_ 1 1#1
  let main_v3 : IVec S_ 1 := (fun x v => Host.reduce IntOp.andi x v reducesTo_S1001x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1001x128 : Shape := ⟨2, ![1001, 128]⟩
abbrev S32x8x64 : Shape := ⟨3, ![32, 8, 64]⟩
abbrev S16384x128 : Shape := ⟨2, ![16384, 128]⟩
abbrev S8x64 : Shape := ⟨2, ![8, 64]⟩
abbrev S512x128 : Shape := ⟨2, ![512, 128]⟩
abbrev S8 : Shape := ⟨1, ![8]⟩
abbrev S_ : Shape := ⟨0, ![]⟩
abbrev S1x8x64 : Shape := ⟨3, ![1, 8, 64]⟩
abbrev S64x128 : Shape := ⟨2, ![64, 128]⟩
abbrev S1x64 : Shape := ⟨2, ![1, 64]⟩
abbrev S64 : Shape := ⟨1, ![64]⟩
abbrev S1 : Shape := ⟨1, ![1]⟩

abbrev nBuf : Table → Nat
  | .hbm => 4
  | .shared => 1
  | .local .scVector .vmem => 2
  | _ => 0

abbrev bufTy : (tb : Table) → Fin (nBuf tb) → BufTy
  | .hbm, ⟨0, _⟩ => ⟨S16384, .i32⟩
  | .hbm, ⟨1, _⟩ => ⟨S1001x128, .f32⟩
  | .hbm, ⟨2, _⟩ => ⟨S32x8x64, .i32⟩
  | .hbm, ⟨3, _⟩ => ⟨S16384x128, .f32⟩
  | .shared, ⟨0, _⟩ => ⟨S1001x128, .f32⟩
  | .local .scVector .vmem, ⟨0, _⟩ => ⟨S8x64, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 5 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_204_r0 : BitVec 32 := 0#32
  let c0_i32_205_r0 : BitVec 32 := 0#32
  ![v1.toNat, 0, 0]
def k0_off2 (i : grid0.Coords) (c0_i32_51 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v60 : BitVec 32 := Scalar.addi v2 c0_i32_51
  let c0_i32_54 : BitVec 32 := 0#32
  ![v60.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384_S32x8x64 : S16384.ShapeCasts S32x8x64
  squeezes_S1x8x64_S8x64 : S1x8x64.Squeezes S8x64
  inb_S512x128_S64x128_0_0 : ∀ a, (![0, 0] : Fin 2 → Nat) a + S64x128.size a ≤ S512x128.size a
  inb_S8x64_S1x64_0_0 : ∀ a, (![0, 0] : Fin 2 → Nat) a + S1x64.size a ≤ S8x64.size a
  squeezes_S1x64_S64 : S1x64.Squeezes S64
  inb_S1001x128_S1001x128_0_0 : ∀ a, (![0, 0] : Fin 2 → Nat) a + S1001x128.size a ≤ S1001x128.size a
  inb_S8_S1_0 : ∀ a, (![0] : Fin 1 → Nat) a + S1.size a ≤ S8.size a
  squeezes_S1_S_ : S1.Squeezes S_
  gathers_S1001x128_S64x128 : S1001x128.Gathers 0 S64x128
  inb_S512x128_S64x128_64_0 : ∀ a, (![64, 0] : Fin 2 → Nat) a + S64x128.size a ≤ S512x128.size a
  inb_S8x64_S1x64_1_0 : ∀ a, (![1, 0] : Fin 2 → Nat) a + S1x64.size a ≤ S8x64.size a
  inb_S8_S1_1 : ∀ a, (![1] : Fin 1 → Nat) a + S1.size a ≤ S8.size a
  inb_S512x128_S64x128_128_0 : ∀ a, (![128, 0] : Fin 2 → Nat) a + S64x128.size a ≤ S512x128.size a
  inb_S8x64_S1x64_2_0 : ∀ a, (![2, 0] : Fin 2 → Nat) a + S1x64.size a ≤ S8x64.size a
  inb_S8_S1_2 : ∀ a, (![2] : Fin 1 → Nat) a + S1.size a ≤ S8.size a
  inb_S512x128_S64x128_192_0 : ∀ a, (![192, 0] : Fin 2 → Nat) a + S64x128.size a ≤ S512x128.size a
  inb_S8x64_S1x64_3_0 : ∀ a, (![3, 0] : Fin 2 → Nat) a + S1x64.size a ≤ S8x64.size a
  inb_S8_S1_3 : ∀ a, (![3] : Fin 1 → Nat) a + S1.size a ≤ S8.size a
  inb_S512x128_S64x128_256_0 : ∀ a, (![256, 0] : Fin 2 → Nat) a + S64x128.size a ≤ S512x128.size a
  inb_S8x64_S1x64_4_0 : ∀ a, (![4, 0] : Fin 2 → Nat) a + S1x64.size a ≤ S8x64.size a
  inb_S8_S1_4 : ∀ a, (![4] : Fin 1 → Nat) a + S1.size a ≤ S8.size a
  inb_S512x128_S64x128_320_0 : ∀ a, (![320, 0] : Fin 2 → Nat) a + S64x128.size a ≤ S512x128.size a
  inb_S8x64_S1x64_5_0 : ∀ a, (![5, 0] : Fin 2 → Nat) a + S1x64.size a ≤ S8x64.size a
  inb_S8_S1_5 : ∀ a, (![5] : Fin 1 → Nat) a + S1.size a ≤ S8.size a
  inb_S512x128_S64x128_384_0 : ∀ a, (![384, 0] : Fin 2 → Nat) a + S64x128.size a ≤ S512x128.size a
  inb_S8x64_S1x64_6_0 : ∀ a, (![6, 0] : Fin 2 → Nat) a + S1x64.size a ≤ S8x64.size a
  inb_S8_S1_6 : ∀ a, (![6] : Fin 1 → Nat) a + S1.size a ≤ S8.size a
  inb_S512x128_S64x128_448_0 : ∀ a, (![448, 0] : Fin 2 → Nat) a + S64x128.size a ≤ S512x128.size a
  inb_S8x64_S1x64_7_0 : ∀ a, (![7, 0] : Fin 2 → Nat) a + S1x64.size a ≤ S8x64.size a
  inb_S8_S1_7 : ∀ a, (![7] : Fin 1 → Nat) a + S1.size a ≤ S8.size a
  hcc0_scratch3 : 0 + S8.numel ≤ 11
  hcc0_scratch4 : 8 + S_.numel ≤ 11
  hcc0_scoped0 : 9 + S_.numel ≤ 11
  hcc0_scoped1 : 10 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x8x64.size a ≤ S32x8x64.size a
  k0_off2_inb : ∀ i : grid0.Coords, ∀ (r : Fin 8), ∀ a, (k0_off2 i (BitVec.ofNat 32 (64 * r.val))) a + S64x128.size a ≤ S16384x128.size a

variable [Facts₀]

abbrev cc0_scratch3 : DmaSems sig S8 := SemArray.consecutive 0 S8 hcc0_scratch3
abbrev cc0_scratch4 : DmaSems sig S_ := SemArray.consecutive 8 S_ hcc0_scratch4
abbrev cc0_scoped0 : DmaSems sig S_ := SemArray.consecutive 9 S_ hcc0_scoped0
abbrev cc0_scoped1 : DmaSems sig S_ := SemArray.consecutive 10 S_ hcc0_scoped1

class Facts : Prop extends Facts₀ where

variable [Facts]
-- ==== ReferenceIdeal.lean ====
abbrev S16384 : Shape := ⟨1, ![16384]⟩
abbrev S1001x128 : Shape := ⟨2, ![1001, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1001x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S1001x128_S16384x1_S16384x128_1_0_n_n_0_1_1128_wf : GatherDims.WF S1001x128 S16384x1 S16384x128 [1] [0] [] [0] [] 1 ![1, 128]

variable [Facts₀]

def gather_S1001x128_S16384x1_S16384x128_1_0_n_n_0_1_1128 : GatherDims S1001x128 S16384x1 S16384x128 where
  offsetDims := [1]
  collapsedSliceDims := [0]
  operandBatchingDims := []
  startIndicesBatchingDims := []
  startIndexMap := [0]
  indexVectorDim := 1
  sliceSizes := ![1, 128]
  wf := gather_S1001x128_S16384x1_S16384x128_1_0_n_n_0_1_1128_wf

class Facts : Prop extends Facts₀ where

variable [Facts]
-- ==== Proof.Spec.lean ====
/-
  The function both programs compute, stated once over plain index types: row `p` of the result is the
  row of the table whose number is the `p`-th index. The index is read as a natural number and, so that the
  function is total, capped at the last row; under `InRange` (every index at most 999) the cap never acts.
-/
import Idealize.ShloMosaic.PureOps.Ideal
import Idealize.ShloMosaic.Lib.ValueIdx

namespace Cert.Spec

open Idealize.ShloMosaic Idealize.ShloMosaic.ValueIdx

/-- The number of the table row that position `p` asks for. -/
def rowOf (idx : (⟨1, ![16384]⟩ : Shape).Idx → BitVec 32) (p : Fin 16384) : Fin 1001 :=
  ⟨min (idx (ix1 p)).toNat 1000, by omega⟩

/-- Row `p` of the result is row `rowOf idx p` of the table, lane by lane. -/
def rows {α : Type} (idx : (⟨1, ![16384]⟩ : Shape).Idx → BitVec 32) (tbl : (⟨2, ![1001, 128]⟩ : Shape).Idx → α) :
    (⟨2, ![16384, 128]⟩ : Shape).Idx → α :=
  fun j => tbl (ix2 (rowOf idx ⟨(j 0).val, (j 0).isLt⟩) (⟨(j 1).val, (j 1).isLt⟩ : Fin 128))

/-- Every index names one of the first thousand rows. -/
def InRange (idx : (⟨1, ![16384]⟩ : Shape).Idx → BitVec 32) : Prop :=
  ∀ p : Fin 16384, (idx (ix1 p)).toNat ≤ 999

theorem rowOf_val {idx : (⟨1, ![16384]⟩ : Shape).Idx → BitVec 32} (h : InRange idx) (p : Fin 16384) :
    (rowOf idx p).val = (idx (ix1 p)).toNat := by
  have := h p
  show min _ 1000 = _
  omega

theorem rows_apply {α : Type} (idx : (⟨1, ![16384]⟩ : Shape).Idx → BitVec 32) (tbl : (⟨2, ![1001, 128]⟩ : Shape).Idx → α)
    (p : Fin 16384) (q : Fin 128) : rows idx tbl (ix2 p q) = tbl (ix2 (rowOf idx p) q) := rfl

end Cert.Spec
-- ==== Proof.PreRange.lean ====
/-
  The precondition read back as a range of the indices. The precondition is one bit: the conjunction of
  "every table entry is finite" and "every index lies in [0, 999]", each a conjunction over all positions of
  the array. When the bit is 1 both conjuncts are 1; the second, a conjunction over the 16384 positions from
  the constant 1, then has a 1 at every position; and at one position the bit is the conjunction of two signed
  comparisons, 0 ≤ idx p and idx p ≤ 999. A 32-bit word that is nonnegative read signed reads the same
  unsigned, so its unsigned value is at most 999.
-/
import proofs.«206951_g4793183502620_cont_8to1_c_898_7_alg».proof.Pre_input_domain
import proofs.«206951_g4793183502620_cont_8to1_c_898_7_alg».proof.Proof.Gen.Pre_input_domain
import proofs.«206951_g4793183502620_cont_8to1_c_898_7_alg».proof.Proof.Spec
import Idealize.ShloMosaic.Lib.ReduceAll
import Idealize.ShloMosaic.Lib.ValueIdx

namespace Cert.PreRange

open Idealize.ShloMosaic Idealize.ShloMosaic.ValueIdx

/-- The scalar shape has one index. -/
instance : Subsingleton Cert.Pre_input_domain.S_.Idx := ⟨fun _ _ => funext fun d => d.elim0⟩

/-- A 32-bit word between 0 and 999 read signed is at most 999 read unsigned. -/
theorem toNat_le_of_signed (w : BitVec 32) (h0 : IntOp.cmpi .sge w 0#32 = 1#1) (h1 : IntOp.cmpi .sle w 999#32 = 1#1) :
    w.toNat ≤ 999 := by
  rw [IntOp.cmpi_sge, show (0#32 : BitVec 32).toInt = 0 from by decide] at h0
  rw [IntOp.cmpi_sle, show (999#32 : BitVec 32).toInt = 999 from by decide] at h1
  have hc := BitVec.toInt_eq_toNat_cond w
  have hlt := w.isLt
  split at hc <;> omega

/-- Under the precondition every index, read unsigned, is at most 999 (only the precondition's second conjunct,
    the one about the indices, is used: the statement holds for any float values). -/
theorem inRange_of_pre {F : FTy → Type} [FloatOps F] [Cert.Pre_input_domain.Facts]
    (idx : IVec Cert.Pre_input_domain.S16384 32) (tbl : FVec F Cert.Pre_input_domain.S1001x128 .f32)
    (h : Cert.Pre_input_domain.fn (F := F) idx tbl = fun _ => 1#1) : Cert.Spec.InRange idx := by
  intro p
  have e := congrFun h ix0
  dsimp only [Cert.Pre_input_domain.fn] at e
  obtain ⟨-, e9⟩ := IntOp.andi_eq_one.1 e
  have e8 := Host.reduce_andi_all _ _ _ _ _ e9 (ix1 p)
  obtain ⟨h5, h7⟩ := IntOp.andi_eq_one.1 e8
  exact toNat_le_of_signed _ h5 h7

end Cert.PreRange
-- ==== Proof.RefTerm.lean ====
/-
  What the reference computes, as one function of its two arguments. `take` along axis 0 first wraps a negative
  index around (index + 1001 where the index is below zero), then tests the wrapped index against the table's
  bounds (0 ≤ index ≤ 1000, a conjunction over a unit axis), gathers the table's rows at the wrapped indices
  (the start index read signed and clamped into the table), and keeps the gathered row where the test passed and
  a fill value elsewhere. Stated for any float values: no float arithmetic occurs.
-/
import proofs.«206951_g4793183502620_cont_8to1_c_898_7_alg».proof.ReferenceIdeal

noncomputable section

namespace Cert.RefSide

open Cert.ReferenceIdeal Cert.ReferenceIdeal.Facts₀ Idealize.ShloMosaic

variable {F : FTy → Type} [FloatOps F] [Cert.ReferenceIdeal.Facts]

/-- The index with a negative value wrapped around: `idx + 1001` where `idx < 0` (signed), else `idx`. -/
def wrapped (idx : IVec S16384 32) : IVec S16384 32 :=
  select (cmpi .slt idx (broadcastInDim S16384 ![] bcast_S_S16384 (constantI S_ 32 0#32)))
    (addi idx (broadcastInDim S16384 ![] bcast_S_S16384 (constantI S_ 32 1001#32))) idx

/-- The wrapped indices as a column: the gather's start indices. -/
def col (idx : IVec S16384 32) : IVec S16384x1 32 :=
  broadcastInDim S16384x1 ![0] bcast_S16384_S16384x1_0 (wrapped idx)

/-- The bounds test on the column, element by element: `0 ≤ col` and `col ≤ 1000`, both signed. -/
def inside (idx : IVec S16384 32) : IVec S16384x1 1 :=
  andi (cmpi .sge (col idx) (broadcastInDim S16384x1 ![] bcast_S_S16384x1 (constantI S_ 32 0#32)))
    (cmpi .sle (col idx)
      (broadcastInDim S16384x1 ![0, 1] bcast_S1x1_S16384x1_0_1 (broadcastInDim S1x1 ![1] bcast_S1_S1x1_1 (constantI S1 32 1000#32))))

/-- The test per position: the conjunction, from 1, over the column's unit axis. -/
def mask (idx : IVec S16384 32) : IVec S16384 1 :=
  Host.reduce IntOp.andi (inside idx) (constantI S_ 1 1#1) reducesTo_S16384x1_S16384_d1 h_S_

/-- The result: the gathered row where the test passed, the fill value elsewhere. -/
def taken (idx : IVec S16384 32) (tbl : FVec F S1001x128 .f32) : FVec F S16384x128 .f32 :=
  select (broadcastInDim S16384x128 ![0] bcast_S16384_S16384x128_0 (mask idx))
    (Host.gather gather_S1001x128_S16384x1_S16384x128_1_0_n_n_0_1_1128 tbl (col idx))
    (broadcastInDim S16384x128 ![] bcast_S_S16384x128 (constant S_ .f32 0x7FC00000#32))

end Cert.RefSide

end
-- ==== Proof.RefRun.lean ====
/-
  The reference's run. Its @main is one call of `take`, which calls `where` once; a call means the callee's body
  on the operands, so with the two definitions unfolded @main is a straight line of twenty-three host operations
  over the calls' buffers. Every weakly fair execution of such a line terminates, and each buffer ends at the
  fold of the operations over the launch contents: the result buffer at `taken` of the two arguments, the
  arguments themselves unchanged (no operation writes them).
-/
import proofs.«206951_g4793183502620_cont_8to1_c_898_7_alg».proof.Proof.Gen.ReferenceIdeal
import proofs.«206951_g4793183502620_cont_8to1_c_898_7_alg».proof.Proof.RefTerm
import Idealize.ShloMosaic.Lib.StableHlo.Run

noncomputable section

namespace Cert.RefSide

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- @main's operations in order, the two calls unfolded: `take`'s six up to the wrap-around, `where`'s select,
    then `take`'s remaining sixteen. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1001#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 1000#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1001x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

set_option maxRecDepth 1024 in
/-- @main is that straight line: the two functions' definitions unfolded at their calls, both sides are one chain
    of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
/-- The fold at the result buffer is `taken` of the arguments' contents, by computation: each operation's result
    decides whether the buffer read is the one it writes. The reduction and the gather are kept folded meanwhile:
    the equation never looks inside them. -/
theorem out_eq (V : Valuation τ sig (Elt F)) :
    after ops V (main_v0 : DevRef τ sig) = taken (V (main_arg0 : DevRef τ sig)) (V (main_arg1 : DevRef τ sig)) := by
  unfold taken mask inside col wrapped
  after_results
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- On every device, for any float values, from any memory with zero counters: every weakly fair execution of
    @main terminates with the result at `taken` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0)
          = taken (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _),
      (h c main_arg0).trans (arg0_eq _), (h c main_arg1).trans (arg1_eq _)⟩)
    (run_seq scopedRefs_eq scopedSems_eq defs main (fun _ => ops) main_eq (fun _ => ops_sub) m ρ)

end Cert.RefSide

end
-- ==== Proof.LibSegmentSum.lean ====
/-
  ROWS GATHERED AND ROWS SCATTER-ADDED, READ AT AN INDEX.

  What \`x[src]\` of a matrix \`x : [N, C]\` at an integer column \`src : [E, 1]\` is: a \`stablehlo.gather\` of whole rows
  (offset axis 1, collapsed axis 0, start index map [0], slice sizes [1, C], index vector axis 1); and what a segment sum
  of rows \`upd : [E, C]\` into \`[N, C]\` at an integer column \`dst : [E, 1]\` is: a \`stablehlo.scatter\` with an \`add\` body
  (update window axis 1, inserted window axis 0, scatter-dims-to-operand-dims [0], index vector axis 1).

  Proved here, for every \`N\`, \`E\`, \`C\` and index width \`w\`, and for ANY dimension-number records with those fields:
  * \`gather_rows_apply\`: element \`(e, c)\` of the gather is the operand at row \`srcRow e\` — the start index \`src[e, 0]\`
    read as a signed integer and clamped into \`[0, N − 1]\` — and column \`c\`;
  * \`scatterAdd_rows_apply\`: element \`(n, c)\` of the exact scatter-add is the operand's element plus the sum, over the
    edges \`e\` whose index \`dst[e, 0]\`, read signed, is \`n\`, of \`upd[e, c]\` (an index outside \`[0, N)\` names no row: its
    update is dropped);
  * \`segsum_apply\`: the two composed.
-/
import Idealize.ShloMosaic.PureOps.Ideal
import Idealize.ShloMosaic.Lib.ValueIdx

noncomputable section

open scoped BigOperators

namespace Cert.Lib.SegmentSum

open Idealize.ShloMosaic Idealize.ShloMosaic.ValueIdx

/-- In \`Fin 2\`, \`1\` is not \`0\`. -/
theorem fin2_one_ne_zero : ¬ ((1 : Fin 2) = 0) := by decide

/-! ## The gather of rows -/

section Gather
variable {α : Type}

/-- The row gather's dimension numbers as a record literal (its conditions \`wf\` arbitrary). -/
abbrev rowsGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge \`e\` reads: its start index \`si[e, 0]\` as a signed integer, clamped into \`[0, N − 1]\`. -/
def srcRow {N E w : Nat} (hN : 0 < N) (si : IVec ⟨2, ![E, 1]⟩ w) (e : Fin E) : Fin N :=
  ⟨min (si (ix2 e 0)).toInt.toNat (N - 1), by omega⟩

/-- Row coordinate of the operand index: the clamped start index. -/
theorem rowsGather_operandIdx_zero {N E C w : Nat}
    (wf : GatherDims.WF ⟨2, ![N, C]⟩ ⟨2, ![E, 1]⟩ ⟨2, ![E, C]⟩ [1] [0] [] [0] [] 1 ![1, C])
    (si : IVec ⟨2, ![E, 1]⟩ w) (e : Fin E) (c : Fin C) :
    ((rowsGather N E C wf).operandIdx (ix2 e c) si 0).val = min (si (ix2 e 0)).toInt.toNat (N - 1) := by
  show (rowsGather N E C wf).start (ix2 e c) si 0 + (rowsGather N E C wf).batchCoord (ix2 e c) 0
    + (rowsGather N E C wf).offCoord (ix2 e c) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsGather N E C wf).startIndexMap from List.mem_singleton.mpr rfl)]
  have hsi : (rowsGather N E C wf).siIdx (ix2 e c) ⟨List.idxOf (0 : Fin 2) (rowsGather N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Column coordinate of the operand index: the result's column. -/
theorem rowsGather_operandIdx_one {N E C w : Nat}
    (wf : GatherDims.WF ⟨2, ![N, C]⟩ ⟨2, ![E, 1]⟩ ⟨2, ![E, C]⟩ [1] [0] [] [0] [] 1 ![1, C])
    (si : IVec ⟨2, ![E, 1]⟩ w) (e : Fin E) (c : Fin C) :
    ((rowsGather N E C wf).operandIdx (ix2 e c) si 1).val = c.val := by
  show (rowsGather N E C wf).start (ix2 e c) si 1 + (rowsGather N E C wf).batchCoord (ix2 e c) 1
    + (rowsGather N E C wf).offCoord (ix2 e c) 1 = _
  rw [GatherDims.batchCoord_eq_zero _ _ _ List.not_mem_nil, Nat.add_zero]
  have hs : (rowsGather N E C wf).start (ix2 e c) si 1 = 0 := by
    unfold GatherDims.start
    rw [dif_neg (show (1 : Fin 2) ∉ (rowsGather N E C wf).startIndexMap from
      fun h => absurd (List.mem_singleton.mp h) fin2_one_ne_zero)]
  rw [hs, Nat.zero_add]
  unfold GatherDims.offCoord
  rw [dif_pos (show (1 : Fin 2) ∈ (rowsGather N E C wf).sKept from (GatherDims.mem_sKept _ _).mpr
    ⟨fun h => absurd (List.mem_singleton.mp h) fin2_one_ne_zero, List.not_mem_nil⟩)]
  rfl

/-- The gather of rows at \`(e, c)\`, for the record literal. -/
theorem rowsGather_apply {N E C w : Nat} (hN : 0 < N)
    (wf : GatherDims.WF ⟨2, ![N, C]⟩ ⟨2, ![E, 1]⟩ ⟨2, ![E, C]⟩ [1] [0] [] [0] [] 1 ![1, C])
    (u : (⟨2, ![N, C]⟩ : Shape).Idx → α) (si : IVec ⟨2, ![E, 1]⟩ w) (e : Fin E) (c : Fin C) :
    Host.gather (rowsGather N E C wf) u si (ix2 e c) = u (ix2 (srcRow hN si e) c) := by
  unfold Host.gather
  congr 1
  funext a
  refine Fin.ext ?_
  match a with
  | ⟨0, _⟩ => exact rowsGather_operandIdx_zero wf si e c
  | ⟨1, _⟩ => exact rowsGather_operandIdx_one wf si e c

end Gather

/-! ## The scatter-add of rows -/

section Scatter

/-- The row scatter's dimension numbers as a record literal (its conditions \`wf\` arbitrary). -/
abbrev rowsScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (di : IVec ⟨2, ![E, 1]⟩ w) (e : Fin E) (c : Fin C)

/-- The window's start on the row axis: the scatter index \`di[e, 0]\`, read signed. -/
theorem rowsScatter_start_zero :
    (rowsScatter N E C wf).start (ix2 e c) di 0 = (di (ix2 e 0)).toInt := by
  unfold ScatterDims.start
  rw [dif_pos (show (0 : Fin 2) ∈ (rowsScatter N E C wf).scatterDimsToOperandDims from List.mem_singleton.mpr rfl)]
  have hsi : (rowsScatter N E C wf).siIdx (ix2 e c) ⟨List.idxOf (0 : Fin 2) (rowsScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The window's start on the column axis: \`0\`. -/
theorem rowsScatter_start_one : (rowsScatter N E C wf).start (ix2 e c) di 1 = 0 := by
  unfold ScatterDims.start
  rw [dif_neg (show (1 : Fin 2) ∉ (rowsScatter N E C wf).scatterDimsToOperandDims from
    fun h => absurd (List.mem_singleton.mp h) fin2_one_ne_zero)]

/-- The window coordinate on the row axis (an inserted axis): \`0\`. -/
theorem rowsScatter_window_zero : (rowsScatter N E C wf).window (ix2 e c) 0 = 0 := by
  unfold ScatterDims.window
  rw [dif_neg (show (0 : Fin 2) ∉ (rowsScatter N E C wf).sKept from
    fun h => of_decide_eq_true (List.mem_filter.mp h).2 (List.mem_singleton.mpr rfl))]

/-- The window coordinate on the column axis: the update's column. -/
theorem rowsScatter_window_one : (rowsScatter N E C wf).window (ix2 e c) 1 = c.val := by
  unfold ScatterDims.window
  rw [dif_pos (show (1 : Fin 2) ∈ (rowsScatter N E C wf).sKept from
    List.mem_filter.mpr ⟨List.mem_finRange _,
      decide_eq_true (fun h => absurd (List.mem_singleton.mp h) fin2_one_ne_zero)⟩)]
  rfl

/-- WHERE AN UPDATE LANDS: update \`(e, c')\` lands on operand element \`(n, c)\` exactly when its scatter index, read
    signed, is \`n\` and its column is \`c\`. -/
theorem rowsScatter_resultIdx?_eq_some_iff (c' : Fin C) (n : Fin N) :
    (rowsScatter N E C wf).resultIdx? (ix2 e c') di = some (ix2 n c) ↔
      (di (ix2 e 0)).toInt = (n.val : ℤ) ∧ c' = c := by
  unfold ScatterDims.resultIdx?
  constructor
  · intro h
    split at h
    · rename_i hh
      have hf := Option.some.inj h
      have e0 : ((rowsScatter N E C wf).start (ix2 e c') di 0 + ((rowsScatter N E C wf).window (ix2 e c') 0 : ℤ)).toNat
          = n.val := congrArg Fin.val (congrFun hf 0)
      have e1 : ((rowsScatter N E C wf).start (ix2 e c') di 1 + ((rowsScatter N E C wf).window (ix2 e c') 1 : ℤ)).toNat
          = c.val := congrArg Fin.val (congrFun hf 1)
      have p0 : 0 ≤ (rowsScatter N E C wf).start (ix2 e c') di 0 + ((rowsScatter N E C wf).window (ix2 e c') 0 : ℤ) :=
        (hh 0).1
      rw [rowsScatter_start_zero, rowsScatter_window_zero] at e0 p0
      rw [rowsScatter_start_one, rowsScatter_window_one] at e1
      refine ⟨by omega, Fin.ext (by omega)⟩
    · exact absurd h (by simp)
  · rintro ⟨ht, rfl⟩
    have hh : ∀ a, 0 ≤ (rowsScatter N E C wf).start (ix2 e c') di a + ((rowsScatter N E C wf).window (ix2 e c') a : ℤ) ∧
        (rowsScatter N E C wf).start (ix2 e c') di a + ((rowsScatter N E C wf).window (ix2 e c') a : ℤ)
          < ((⟨2, ![N, C]⟩ : Shape).size a : ℤ) := by
      refine Fin.forall_fin_two.mpr ⟨?_, ?_⟩
      · rw [rowsScatter_start_zero, rowsScatter_window_zero, ht]
        have := n.isLt
        show _ ∧ _ < (N : ℤ)
        omega
      · rw [rowsScatter_start_one, rowsScatter_window_one]
        have := c'.isLt
        show _ ∧ _ < (C : ℤ)
        omega
    rw [dif_pos hh]
    congr 1
    funext a
    refine Fin.ext ?_
    match a with
    | ⟨0, _⟩ =>
      show ((rowsScatter N E C wf).start (ix2 e c') di 0 + ((rowsScatter N E C wf).window (ix2 e c') 0 : ℤ)).toNat = n.val
      rw [rowsScatter_start_zero, rowsScatter_window_zero, ht]; omega
    | ⟨1, _⟩ =>
      show ((rowsScatter N E C wf).start (ix2 e c') di 1 + ((rowsScatter N E C wf).window (ix2 e c') 1 : ℤ)).toNat = c'.val
      rw [rowsScatter_start_one, rowsScatter_window_one]; omega

/-- THE SCATTER-ADD OF ROWS AT \`(n, c)\`, for the record literal: the operand's element plus the sum of column \`c\` of the
    updates of the edges whose scatter index, read signed, is \`n\`. -/
theorem rowsScatter_add_apply (z : (⟨2, ![N, C]⟩ : Shape).Idx → EReal) (upd : (⟨2, ![E, C]⟩ : Shape).Idx → EReal)
    (n : Fin N) :
    Ideal.hostScatterAdd (rowsScatter N E C wf) z di upd (ix2 n c) =
      z (ix2 n c) + ∑ e ∈ Finset.univ.filter (fun e : Fin E => (di (ix2 e 0)).toInt = (n.val : ℤ)), upd (ix2 e c) := by
  unfold Ideal.hostScatterAdd
  congr 1
  refine Finset.sum_nbij' (fun j => j 0) (fun e => ix2 e c) ?_ ?_ ?_ ?_ ?_
  · intro j hj
    have h := (Finset.mem_filter.mp hj).2
    rw [eq_ix2 j] at h
    exact Finset.mem_filter.mpr ⟨Finset.mem_univ _, ((rowsScatter_resultIdx?_eq_some_iff wf di (j 0) c (j 1) n).mp h).1⟩
  · intro e he
    have h := (Finset.mem_filter.mp he).2
    exact Finset.mem_filter.mpr ⟨Finset.mem_univ _, (rowsScatter_resultIdx?_eq_some_iff wf di e c c n).mpr ⟨h, rfl⟩⟩
  · intro j hj
    have h := (Finset.mem_filter.mp hj).2
    rw [eq_ix2 j] at h
    have hc := ((rowsScatter_resultIdx?_eq_some_iff wf di (j 0) c (j 1) n).mp h).2
    rw [← hc]; exact (eq_ix2 j).symm
  · intro e _; rfl
  · intro j hj
    have h := (Finset.mem_filter.mp hj).2
    rw [eq_ix2 j] at h
    have hc := ((rowsScatter_resultIdx?_eq_some_iff wf di (j 0) c (j 1) n).mp h).2
    rw [← hc]; exact congrArg upd (eq_ix2 j)

end Scatter

/-! ## Any records with those fields, and the two composed -/

section Records
variable {N E C w : Nat}

/-- THE GATHER OF ROWS AT \`(e, c)\`: the operand at row \`srcRow e\` — the start index \`si[e, 0]\` read signed and clamped into
    \`[0, N − 1]\` — and column \`c\`, for any record with the row gather's fields. -/
theorem gather_rows_apply {α : Type} (hN : 0 < N) (g : GatherDims ⟨2, ![N, C]⟩ ⟨2, ![E, 1]⟩ ⟨2, ![E, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C])
    (u : (⟨2, ![N, C]⟩ : Shape).Idx → α) (si : IVec ⟨2, ![E, 1]⟩ w) (e : Fin E) (c : Fin C) :
    Host.gather g u si (ix2 e c) = u (ix2 (srcRow hN si e) c) := by
  obtain ⟨od, cd, ob, sb, sm, iv, ss, wf⟩ := g
  simp only at h1 h2 h3 h4 h5 h6 h7
  subst h1 h2 h3 h4 h5 h6 h7
  exact rowsGather_apply hN wf u si e c

/-- THE SCATTER-ADD OF ROWS AT \`(n, c)\`: the operand's element plus the sum, over the edges \`e\` whose scatter index
    \`di[e, 0]\`, read signed, is \`n\`, of \`upd[e, c]\`, for any record with the row scatter's fields. -/
theorem scatterAdd_rows_apply (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (z : (⟨2, ![N, C]⟩ : Shape).Idx → EReal) (di : IVec ⟨2, ![E, 1]⟩ w) (upd : (⟨2, ![E, C]⟩ : Shape).Idx → EReal)
    (n : Fin N) (c : Fin C) :
    Ideal.hostScatterAdd d z di upd (ix2 n c) =
      z (ix2 n c) + ∑ e ∈ Finset.univ.filter (fun e : Fin E => (di (ix2 e 0)).toInt = (n.val : ℤ)), upd (ix2 e c) := by
  obtain ⟨uw, iw, sd, iv, wf⟩ := d
  simp only at h1 h2 h3 h4
  subst h1 h2 h3 h4
  exact rowsScatter_add_apply wf di c z upd n

/-- THE SEGMENT SUM OF GATHERED ROWS AT \`(n, c)\`: the operand's element plus the sum, over the edges \`e\` whose
    destination index, read signed, is \`n\`, of column \`c\` of the source row of \`e\`. -/
theorem segsum_apply (hN : 0 < N) (d : ScatterDims ⟨2, ![N, C]⟩ ⟨2, ![E, 1]⟩ ⟨2, ![E, C]⟩)
    (g : GatherDims ⟨2, ![N, C]⟩ ⟨2, ![E, 1]⟩ ⟨2, ![E, C]⟩)
    (hd1 : d.updateWindowDims = [1]) (hd2 : d.insertedWindowDims = [0]) (hd3 : d.scatterDimsToOperandDims = [0])
    (hd4 : d.indexVectorDim = 1)
    (hg1 : g.offsetDims = [1]) (hg2 : g.collapsedSliceDims = [0]) (hg3 : g.operandBatchingDims = [])
    (hg4 : g.startIndicesBatchingDims = []) (hg5 : g.startIndexMap = [0]) (hg6 : g.indexVectorDim = 1)
    (hg7 : g.sliceSizes = ![1, C])
    (z u : (⟨2, ![N, C]⟩ : Shape).Idx → EReal) (di si : IVec ⟨2, ![E, 1]⟩ w) (n : Fin N) (c : Fin C) :
    Ideal.hostScatterAdd d z di (Host.gather g u si) (ix2 n c) =
      z (ix2 n c) + ∑ e ∈ Finset.univ.filter (fun e : Fin E => (di (ix2 e 0)).toInt = (n.val : ℤ)),
        u (ix2 (srcRow hN si e) c) := by
  rw [scatterAdd_rows_apply d hd1 hd2 hd3 hd4]
  congr 1
  exact Finset.sum_congr rfl fun e _ => gather_rows_apply hN g hg1 hg2 hg3 hg4 hg5 hg6 hg7 u si e c

end Records

end Cert.Lib.SegmentSum

end
-- ==== Proof.LibBroadcastInDim.lean ====
/-
  THE HOST'S `broadcast_in_dim` BETWEEN A VECTOR AND A MATRIX, READ AT AN INDEX.

  The keepdims steps of a host program, for every extent and element type:
  * `bid_vec_col_apply`: a vector `[a]` placed on axis 0 of a column `[a, 1]` reads, at `(p, 0)`, the vector at `p`;
  * `bid_col_mat_apply`: a column `[a, 1]` placed on axes `(0, 1)` of `[a, b]` reads, at `(p, q)`, the column at `(p, 0)`;
  * `bid_vec_row_apply`: a vector `[b]` placed on axis 1 of a row `[1, b]` reads, at `(0, q)`, the vector at `q`;
  * `bid_row_mat_apply`: a row `[1, b]` placed on axes `(0, 1)` of `[a, b]` reads, at `(p, q)`, the row at `(0, q)`;
  * `bid_scalar_apply`: a rank-0 value broadcast to any shape reads, everywhere, that value.
-/
import Idealize.ShloMosaic.Lib.Pipeline.Value
import Idealize.ShloMosaic.Lib.ValueIdx

noncomputable section

namespace Cert.Lib.BroadcastInDim

open Idealize.ShloMosaic Idealize.ShloMosaic.ValueIdx

variable {α : Type} {a b : Nat}

/-- A vector placed on axis 0 of a column. -/
theorem bid_vec_col_apply (v : (⟨1, ![a]⟩ : Shape).Idx → α)
    (h : (⟨1, ![a]⟩ : Shape).BroadcastsInDim ⟨2, ![a, 1]⟩ ![0]) (p : Fin a) :
    broadcastInDim ⟨2, ![a, 1]⟩ ![0] h v (ix2 p 0) = v (ix1 p) :=
  broadcastInDim_apply _ h v (ix2 p 0) (ix1 p) (fun ax => by
    match ax with
    | ⟨0, _⟩ =>
      show p.val = if a = 1 then 0 else p.val
      by_cases ha : a = 1
      · rw [if_pos ha]; have := p.isLt; omega
      · rw [if_neg ha])

/-- A column placed on axes `(0, 1)` of a matrix. -/
theorem bid_col_mat_apply (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p 0) :=
  broadcastInDim_apply _ h x (ix2 p q) (ix2 p 0) (fun ax => by
    match ax with
    | ⟨0, _⟩ =>
      show p.val = if a = 1 then 0 else p.val
      by_cases ha : a = 1
      · rw [if_pos ha]; have := p.isLt; omega
      · rw [if_neg ha]
    | ⟨1, _⟩ =>
      show 0 = if (1 : Nat) = 1 then 0 else q.val
      rw [if_pos rfl])

/-- A vector placed on axis 1 of a row. -/
theorem bid_vec_row_apply (v : (⟨1, ![b]⟩ : Shape).Idx → α)
    (h : (⟨1, ![b]⟩ : Shape).BroadcastsInDim ⟨2, ![1, b]⟩ ![1]) (q : Fin b) :
    broadcastInDim ⟨2, ![1, b]⟩ ![1] h v (ix2 0 q) = v (ix1 q) :=
  broadcastInDim_apply _ h v (ix2 0 q) (ix1 q) (fun ax => by
    match ax with
    | ⟨0, _⟩ =>
      show q.val = if b = 1 then 0 else q.val
      by_cases hb : b = 1
      · rw [if_pos hb]; have := q.isLt; omega
      · rw [if_neg hb])

/-- A row placed on axes `(0, 1)` of a matrix. -/
theorem bid_row_mat_apply (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 0 q) :=
  broadcastInDim_apply _ h x (ix2 p q) (ix2 0 q) (fun ax => by
    match ax with
    | ⟨0, _⟩ =>
      show 0 = if (1 : Nat) = 1 then 0 else p.val
      rw [if_pos rfl]
    | ⟨1, _⟩ =>
      show q.val = if b = 1 then 0 else q.val
      by_cases hb : b = 1
      · rw [if_pos hb]; have := q.isLt; omega
      · rw [if_neg hb])

/-- A rank-0 value broadcast to any shape. -/
theorem bid_scalar_apply {t : Shape} (x : (⟨0, ![]⟩ : Shape).Idx → α)
    (h : (⟨0, ![]⟩ : Shape).BroadcastsInDim t ![]) (j : t.Idx) :
    broadcastInDim t ![] h x j = x (fun ax => ax.elim0) :=
  broadcastInDim_apply _ h x j (fun ax => ax.elim0) (fun ax => ax.elim0)

end Cert.Lib.BroadcastInDim

end
-- ==== Proof.RefRead.lean ====
/-
  The reference's result read at one element, when every index lies in [0, 999]. Such an index is nonnegative read
  signed, so the wrap-around leaves it alone; it passes the bounds test 0 ≤ index ≤ 1000, at the one element of the
  unit axis the test is folded over, so the test's bit is 1 and the select keeps the gathered row; and the gather's
  start index, read signed and clamped into [0, 1000], is the index read unsigned and capped at 1000. Element (p, q)
  of the result is therefore the table at row `rowOf idx p` and lane `q`: the result is `rows idx tbl`.
-/
import proofs.«206951_g4793183502620_cont_8to1_c_898_7_alg».proof.ReferenceIdeal
import proofs.«206951_g4793183502620_cont_8to1_c_898_7_alg».proof.Proof.RefTerm
import proofs.«206951_g4793183502620_cont_8to1_c_898_7_alg».proof.Proof.Spec
import proofs.«206951_g4793183502620_cont_8to1_c_898_7_alg».proof.Proof.LibSegmentSum
import proofs.«206951_g4793183502620_cont_8to1_c_898_7_alg».proof.Proof.LibBroadcastInDim
import Idealize.ShloMosaic.Lib.ReduceAll
import Idealize.ShloMosaic.Lib.ValueIdx
import Idealize.ShloMosaic.Lib.Pipeline.Value

noncomputable section

namespace Cert.RefSide

open Cert.ReferenceIdeal Cert.ReferenceIdeal.Facts₀ Idealize.ShloMosaic Idealize.ShloMosaic.ValueIdx

variable {F : FTy → Type} [FloatOps F] [Cert.ReferenceIdeal.Facts]

/-- A 32-bit word at most 999 reads the same signed and unsigned. -/
theorem toInt_of_le {w : BitVec 32} (h : w.toNat ≤ 999) : w.toInt = (w.toNat : Int) :=
  BitVec.toInt_eq_toNat_of_lt (by omega)

/-- A conjunction of ones, from one, is one. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- Every index of the column is `(p, 0)`. -/
theorem idx_col (i : S16384x1.Idx) : ∃ p : Fin 16384, i = ix2 p (0 : Fin 1) := by
  refine ⟨i 0, (eq_ix2 i).trans (congrArg (ix2 (i 0)) (Fin.ext ?_))⟩
  have := idx2_lt1 i
  show (i 1).val = 0
  omega

section InRange
variable (idx : IVec S16384 32) (h : Cert.Spec.InRange idx)
include h

/-- A nonnegative index is not wrapped. -/
theorem wrapped_apply (p : Fin 16384) : wrapped idx (ix1 p) = idx (ix1 p) := by
  have hlt : ¬ IntOp.cmpi .slt (idx (ix1 p)) 0#32 = 1#1 := by
    rw [IntOp.cmpi_slt, toInt_of_le (h p), show (0#32 : BitVec 32).toInt = 0 from by decide]; omega
  show Scalar.select (IntOp.cmpi .slt (idx (ix1 p)) 0#32) _ _ = _
  rw [eq_zero_of_ne_one hlt, select_zero]

omit h in
/-- The column at `(p, 0)` is the wrapped index at `p`. -/
theorem col_apply (p : Fin 16384) : col idx (ix2 p (0 : Fin 1)) = wrapped idx (ix1 p) :=
  Cert.Lib.BroadcastInDim.bid_vec_col_apply (wrapped idx) bcast_S16384_S16384x1_0 p

/-- Every element of the column passes the bounds test. -/
theorem inside_apply (i : S16384x1.Idx) : inside idx i = 1#1 := by
  obtain ⟨p, rfl⟩ := idx_col i
  have hw := h p
  show IntOp.andi (IntOp.cmpi .sge (col idx (ix2 p (0 : Fin 1))) 0#32)
    (IntOp.cmpi .sle (col idx (ix2 p (0 : Fin 1))) 1000#32) = 1#1
  rw [col_apply, wrapped_apply idx h p]
  refine IntOp.andi_eq_one.2 ⟨?_, ?_⟩
  · rw [IntOp.cmpi_sge, toInt_of_le hw, show (0#32 : BitVec 32).toInt = 0 from by decide]; omega
  · rw [IntOp.cmpi_sle, toInt_of_le hw, show (1000#32 : BitVec 32).toInt = 1000 from by decide]; omega

/-- So the test's bit is 1 at every position. -/
theorem mask_apply (p : Fin 16384) : mask idx (ix1 p) = 1#1 := by
  unfold mask
  rw [Host.reduce_eq_foldl]
  exact foldl_andi_one (inside idx) _ fun i _ => inside_apply idx h i

/-- The gather's row for position `p` — the start index read signed and clamped — is `rowOf idx p`. -/
theorem srcRow_eq (p : Fin 16384) :
    Cert.Lib.SegmentSum.srcRow (N := 1001) (by decide) (col idx) p = Cert.Spec.rowOf idx p := by
  have e : (col idx (ix2 p (0 : Fin 1))).toInt.toNat = (idx (ix1 p)).toNat := by
    rw [col_apply, wrapped_apply idx h p, toInt_of_le (h p)]; exact Int.toNat_natCast _
  refine Fin.ext ?_
  show min (col idx (ix2 p (0 : Fin 1))).toInt.toNat (1001 - 1) = min (idx (ix1 p)).toNat 1000
  rw [e]

/-- THE RESULT AT `(p, q)`: the table at row `rowOf idx p`, lane `q`. -/
theorem taken_apply (tbl : FVec F S1001x128 .f32) (p : Fin 16384) (q : Fin 128) :
    taken idx tbl (ix2 p q) = tbl (ix2 (Cert.Spec.rowOf idx p) q) := by
  have hm : broadcastInDim S16384x128 ![0] bcast_S16384_S16384x128_0 (mask idx) (ix2 p q) = 1#1 := by
    rw [broadcastInDim_apply ![0] bcast_S16384_S16384x128_0 (mask idx) (ix2 p q) (ix1 p) (fun a => by
      match a with
      | ⟨0, _⟩ =>
        show p.val = if (16384 : Nat) = 1 then 0 else p.val
        rw [if_neg (by decide)])]
    exact mask_apply idx h p
  unfold taken
  rw [select_apply, hm, select_one,
    Cert.Lib.SegmentSum.gather_rows_apply (N := 1001) (by decide) _ rfl rfl rfl rfl rfl rfl rfl tbl (col idx) p q,
    srcRow_eq idx h p]

/-- The reference's result is `rows` of its arguments. -/
theorem taken_eq_rows (tbl : FVec F S1001x128 .f32) : taken idx tbl = Cert.Spec.rows idx tbl := by
  funext j
  obtain ⟨p, q, rfl⟩ : ∃ (p : Fin 16384) (q : Fin 128), j = ix2 p q := ⟨j 0, j 1, eq_ix2 j⟩
  rw [taken_apply idx h tbl p q]
  rfl

end InRange

end Cert.RefSide

end
-- ==== Proof.RefSide.lean ====
/-
  The reference's side of the claim: under the precondition, the reference runs to the end with its result at
  `rows` of its two arguments and the arguments unchanged. The run leaves the result at `taken` of the arguments for
  any contents; the precondition puts every index in [0, 999]; and for such indices `taken` is `rows`.
-/
import proofs.«206951_g4793183502620_cont_8to1_c_898_7_alg».proof.Defs
import proofs.«206951_g4793183502620_cont_8to1_c_898_7_alg».proof.Proof.Gen.ReferenceIdeal
import proofs.«206951_g4793183502620_cont_8to1_c_898_7_alg».proof.Proof.Gen.Pre_input_domain
import proofs.«206951_g4793183502620_cont_8to1_c_898_7_alg».proof.Proof.Spec
import proofs.«206951_g4793183502620_cont_8to1_c_898_7_alg».proof.Proof.PreRange
import proofs.«206951_g4793183502620_cont_8to1_c_898_7_alg».proof.Proof.RefTerm
import proofs.«206951_g4793183502620_cont_8to1_c_898_7_alg».proof.Proof.RefRun
import proofs.«206951_g4793183502620_cont_8to1_c_898_7_alg».proof.Proof.RefRead

noncomputable section

namespace Cert.RefSide

open Idealize.ShloMosaic Idealize.SL.Sem

/-- Under the precondition every weakly fair execution of the reference terminates with its result at `rows` of
    the index array and the table, both unchanged. -/
theorem run_rows [Cert.ReferenceIdeal.Facts] [Cert.Pre_input_domain.Facts]
    (m : (ℓ : Loc Cert.ReferenceIdeal.nD Cert.ReferenceIdeal.τ Cert.ReferenceIdeal.sig) → Buf (Elt Ideal) ℓ)
    (ρ : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal)))
      ⟨m, fun _ => 0, ρ⟩
      (fun r => ∀ c : Dev Cert.ReferenceIdeal.nD,
        r.2.mem ((c.tc : Thread Cert.ReferenceIdeal.nD Cert.ReferenceIdeal.τ).loc Cert.ReferenceIdeal.main_v0)
            = Cert.Spec.rows (m ((c.tc : Thread _ _).loc Cert.ReferenceIdeal.main_arg0))
                (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run Cert.ReferenceIdeal.defs _ _).mono
    (fun _ h c => ⟨(h c).1.trans (taken_eq_rows _ (Cert.PreRange.inRange_of_pre _ _ (hpre c)) _), (h c).2⟩)
    (run (F := Ideal) m ρ)

end Cert.RefSide

end
-- ==== Proof.KernelIdeal.Common.lean ====
/-
  The lookup kernel as the launch theorem for vector-subcore programs sees it, and what its handshakes carry.
  Thirty-two tasks (two SparseCores of sixteen tiles): task `w = 2·tile + core` fetches row `w` of the index
  array (eight lists of sixty-four indices), tile 0 of each SparseCore copies the whole table into the SparseCore's
  shared memory, all sixteen tiles meet at the subcore barrier, then each gathers, list by list, the table rows
  its indices name out of the shared copy and writes them to rows `512·w + 64·r …` of the result.
  The barrier carries the table: tile 0's arrival in tile `j`'s round hands over the `j`-th read share of the
  shared copy at the table's contents, so what a tile gathers from after the barrier it holds, at contents it knows.
-/
import proofs.«206951_g4793183502620_cont_8to1_c_898_7_alg».proof.KernelIdeal
import proofs.«206951_g4793183502620_cont_8to1_c_898_7_alg».proof.Proof.Gen.KernelIdeal
import proofs.«206951_g4793183502620_cont_8to1_c_898_7_alg».proof.Proof.Gen.KernelIdeal.Skeleton
import proofs.«206951_g4793183502620_cont_8to1_c_898_7_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and their contents -/

variable (m : (ℓ : Loc nD τ sig) → Buf (Elt F) ℓ) (ρ : Dev nD → PrngReg)

/-- The index vector, the index array the reshape makes of it, the table, the result. -/
abbrev aLoc (d : Dev nD) : Loc nD τ sig := (SparseCore.T d).loc main_arg0
abbrev ixLoc (d : Dev nD) : Loc nD τ sig := (SparseCore.T d).loc main_v0
abbrev tbLoc (d : Dev nD) : Loc nD τ sig := (SparseCore.T d).loc main_arg1
abbrev oLoc (d : Dev nD) : Loc nD τ sig := (SparseCore.T d).loc main_v1

/-- SparseCore `c`'s shared copy of the table, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The index array's contents once @main has reshaped the index vector into it. -/
abbrev ixC (d : Dev nD) : Buf (Elt F) (ixLoc d) := fun i => shapeCast S32x8x64 (m (aLoc d)) shapeCasts_S16384_S32x8x64 i
/-- The table's contents, and the same as the shared copy's. -/
abbrev tbC (d : Dev nD) : Buf (Elt F) (tbLoc d) := m (tbLoc d)
abbrev shC (d : Dev nD) (c : Fin τ.nSC) : Buf (Elt F) (shLoc d c) := m (tbLoc d)
/-- What the result array holds in the end: the rows the indices name. -/
abbrev G (d : Dev nD) : Buf (Elt F) (oLoc d) := Cert.Spec.rows (m (aLoc d)) (m (tbLoc d))

/-! ## Tasks, lists and the pieces of the arrays they own -/

/-- Task number of tile `s` of SparseCore `c`. -/
def wid (c : Fin 2) (s : Fin 16) : Fin 32 := ⟨2 * s.val + c.val, by omega⟩
/-- The number, among the 256 blocks of 64 result rows, of list `r` of task `w`. -/
def chunk (w : Fin 32) (r : Fin 8) : Fin 256 := ⟨8 * w.val + r.val, by omega⟩

theorem hdiv32 : 32 ∣ S32x8x64.size 0 := ⟨1, rfl⟩
theorem hdiv256 : 256 ∣ S16384x128.size 0 := ⟨64, rfl⟩

local notation "ixV" => (Memref.whole Cert.KernelIdeal.main_v0_scv : Memref Cert.KernelIdeal.sig Kind.scVector Space.hbm Cert.KernelIdeal.S32x8x64 EltTy.i32)
local notation "oV" => (Memref.whole Cert.KernelIdeal.main_v1_scv : Memref Cert.KernelIdeal.sig Kind.scVector Space.hbm Cert.KernelIdeal.S16384x128 EltTy.f32)

/-- Row `w` of the index array: task `w`'s eight lists. -/
abbrev ixRect (w : Fin 32) : Rect S32x8x64 := Rect.part (s := S32x8x64) (a₀ := 0) hdiv32 w
abbrev ixSet (w : Fin 32) : Finset S32x8x64.Idx := ((ixV).view.slice (ixRect w)).set
/-- Block `k` of 64 rows of the result. -/
abbrev oRect (k : Fin 256) : Rect S16384x128 := Rect.part (s := S16384x128) (a₀ := 0) hdiv256 k
abbrev oSet (k : Fin 256) : Finset S16384x128.Idx := ((oV).view.slice (oRect k)).set

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `j`'s read share of the shared copy, at the table's contents. -/
abbrev shTok (d : Dev nD) (c : Fin τ.nSC) (j : ℕ) : sProp 𝕄 := shLoc d c ↦{shareTokN fullShare j} shC m d c
/-- What is left of the shared copy's full share once the sixteen read shares are split off. -/
abbrev shRest (d : Dev nD) (c : Fin τ.nSC) : sProp 𝕄 := shLoc d c ↦{shareDrop fullShare 16} shC m d c

/-- What a duty in tile `j`'s round hands over: tile 0's, tile `j`'s read share of the shared copy at the table's
    contents; the others', nothing. -/
def bPay (g : GSem nD τ sig) (n : ℕ) : sProp 𝕄 :=
  match g with
  | ((d, .scVector c j), _) => if n = 0 then shTok m d c j.val else iprop(emp)
  | _ => iprop(emp)

/-- The barrier cells' schedule: one round on each, of one unit duty per tile of the SparseCore (named by its number),
    tile 0's handing over the round's owner's read share. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore and that each has reached round 0, its
    own position at the origin of round 0, its duty token in every tile's round 0, and the credit for the sixteen units
    of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- Task `w`'s lists of indices, read-only in effect (held whole, given back unchanged). -/
abbrev ixPts (d : Dev nD) (w : Fin 32) : sProp 𝕄 := ixLoc d ↦[ixSet w]{fullShare} ixC m d
/-- Block `k` of the result, at contents `f`. -/
abbrev oPts (d : Dev nD) (k : Fin 256) (f : Buf (Elt F) (oLoc d)) : sProp 𝕄 := oLoc d ↦[oSet k]{fullShare} f
/-- SparseCore `c`'s read share of the table in HBM. -/
abbrev tbTok (d : Dev nD) (c : ℕ) : sProp 𝕄 := tbLoc d ↦{shareTokN fullShare c} tbC m d

/-- What task `(c, i)` is handed: its lists, its eight blocks of the result as the launch left them; tile 0 also the
    SparseCore's read share of the table and the shared memory whole. -/
def goRes (d : Dev nD) (c : Fin 2) (i : Fin 16) : sProp 𝕄 :=
  iprop(ixPts m d (wid c i) ∗ (bigSep Finset.univ fun r : Fin 8 => oPts d (chunk (wid c i) r) (m (oLoc d)))
    ∗ (if i.val = 0 then iprop(tbTok m d c.val ∗ ∃ f, shLoc d (c.castLE (le_of_eq nSC_eq.symm)) ↦{fullShare} f) else iprop(emp)))
/-- What it hands back: its lists, its blocks at the rows the indices name, its read share of the shared copy; tile 0
    also the table's read share and what it kept of the shared copy. -/
def tdRes (d : Dev nD) (c : Fin 2) (i : Fin 16) : sProp 𝕄 :=
  iprop(ixPts m d (wid c i) ∗ (bigSep Finset.univ fun r : Fin 8 => oPts d (chunk (wid c i) r) (G m d))
    ∗ shTok m d (c.castLE (le_of_eq nSC_eq.symm)) i.val
    ∗ (if i.val = 0 then iprop(tbTok m d c.val ∗ shRest m d (c.castLE (le_of_eq nSC_eq.symm))) else iprop(emp)))
/-- A SparseCore's operands: its sixteen tasks' lists and blocks, and its read share of the table. -/
def stRes (d : Dev nD) (c : Fin 2) : sProp 𝕄 :=
  iprop((bigSep Finset.univ fun i : Fin 16 => iprop(ixPts m d (wid c i) ∗ bigSep Finset.univ fun r : Fin 8 => oPts d (chunk (wid c i) r) (m (oLoc d))))
    ∗ tbTok m d c.val)
/-- Its results: the same, the blocks at the rows the indices name. -/
def dnRes (d : Dev nD) (c : Fin 2) : sProp 𝕄 :=
  iprop((bigSep Finset.univ fun i : Fin 16 => iprop(ixPts m d (wid c i) ∗ bigSep Finset.univ fun r : Fin 8 => oPts d (chunk (wid c i) r) (G m d)))
    ∗ tbTok m d c.val)

/-- The one call: each SparseCore takes its tasks' pieces and a read share of the table, each task its pieces, and
    they come back with the result's blocks written; each task's proof consumes its barrier kit; each tile owes its
    arrivals at the barrier. -/
def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

end Cert.Proof.KernelIdeal

end
-- ==== Proof.KernelIdeal.LaunchSplit.lean ====
/-
  The lookup kernel's launch, first part: what the handshakes carry can be stored, and how a SparseCore's operands
  split among its sixteen tasks and their results are gathered (the shared copy of the table rejoined from its read shares).
-/
import proofs.«206951_g4793183502620_cont_8to1_c_898_7_alg».proof.Proof.KernelIdeal.Common

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry can be stored -/

theorem stRes_storable (d : Dev nD) (c : Fin 2) : BI.Storable (upEmb : UEmb _ 𝕄) (stRes m d c) := by
  unfold stRes; infer_instance
theorem dnRes_storable (d : Dev nD) (c : Fin 2) : BI.Storable (upEmb : UEmb _ 𝕄) (dnRes m d c) := by
  unfold dnRes; infer_instance
theorem goRes_storable (d : Dev nD) (c : Fin 2) (i : Fin 16) : BI.Storable (upEmb : UEmb _ 𝕄) (goRes m d c i) := by
  unfold goRes; split <;> infer_instance
theorem tdRes_storable (d : Dev nD) (c : Fin 2) (i : Fin 16) : BI.Storable (upEmb : UEmb _ 𝕄) (tdRes m d c i) := by
  unfold tdRes; split <;> infer_instance

instance P_storable : (P (F := F) m).IsStorable where
  st q d c := match q with
    | 0 => stRes_storable m d (Fin.cast nCore_zero c)
  dn q d c := match q with
    | 0 => dnRes_storable m d (Fin.cast nCore_zero c)
  go q d c i := match q with
    | 0 => goRes_storable m d (Fin.cast nCore_zero c) (Fin.cast nSub_zero i)
  td q d c i := match q with
    | 0 => tdRes_storable m d (Fin.cast nCore_zero c) (Fin.cast nSub_zero i)

/-! ## A SparseCore's operands split among its sixteen tasks, and their results gathered -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- What only the first of sixteen carries is carried once. -/
theorem bigSep_first (X : sProp 𝕄) :
    (bigSep Finset.univ fun i : Fin 16 => if i.val = 0 then X else iprop(emp)) = X := by
  have h : (bigSep ((Finset.univ : Finset (Fin 16)).erase 0) fun i : Fin 16 => if i.val = 0 then X else iprop(emp))
      = bigSep ((Finset.univ : Finset (Fin 16)).erase 0) fun _ => (iprop(emp) : sProp 𝕄) :=
    bigSep_congr fun i hi => if_neg fun h => Finset.ne_of_mem_erase hi (Fin.ext h)
  rw [SparseCore.bigSep_erase' (Finset.mem_univ (0 : Fin 16)), if_pos (show ((0 : Fin 16) : ℕ) = 0 from rfl), h, bigSep_emp']
  exact equiv_iff.mp Idealize.SL.BI.sep_emp

omit [FloatOps F] in
/-- The shared copy is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- SparseCore `c`: its operands and the shared memory to the tasks (tile 0 takes the table's read share and the shared
    memory whole); back from them, the sixteen read shares of the shared copy and what tile 0 kept rejoin to the
    whole. -/
theorem split_core (d : Dev nD) (c : Fin 2) :
    iprop(stRes m d c ∗ ownBufs (S d (c.castLE (le_of_eq nSC_eq.symm)))) ⊢ |={Set.univ}=> iprop(
      (bigSep Finset.univ fun i : Fin 16 => goRes m d c i)
      ∗ ((bigSep Finset.univ fun i : Fin 16 => tdRes m d c i)
          -∗ iprop(dnRes m d c ∗ ownBufs (S d (c.castLE (le_of_eq nSC_eq.symm)))))) := by
  unfold stRes goRes tdRes dnRes
  rw [ownBufs_S]
  repeat rw [bigSep_sep']
  rw [bigSep_first, bigSep_first]
  iintro ⟨⟨⟨HA, HB⟩, Htb⟩, Hsh, Hrest⟩; imodintro
  isplitl [HA HB Htb Hsh]
  · isplitl [HA]; · iexact HA
    isplitl [HB]; · iexact HB
    isplitl [Htb]; · iexact Htb
    iexact Hsh
  iintro ⟨HA, HB, HT, Htb, Hr⟩
  isplitl [HA HB Htb]
  · isplitl [HA HB]
    · isplitl [HA]; · iexact HA
      iexact HB
    iexact Htb
  isplitl [HT Hr]
  · iexists (shC m d (c.castLE (le_of_eq nSC_eq.symm)))
    iapply (Transfers.pointsTo_toks_join fullShare 16)
    isplitl [Hr]; · iexact Hr
    iexact HT
  iexact Hrest

theorem vecSplit : (K (F := F)).VecSplit (P m) 0 := by
  intro d c
  show iprop(stRes m d (Fin.cast nCore_zero c) ∗ ownBufs (S d (coreOf c))) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ iprop(dnRes m d (Fin.cast nCore_zero c) ∗ ownBufs (S d (coreOf c)))))
  rw [bigSep_tasks (F := F) (fun i => goRes m d (Fin.cast nCore_zero c) i), bigSep_tasks (F := F) (fun i => tdRes m d (Fin.cast nCore_zero c) i)]
  exact split_core m d (Fin.cast nCore_zero c)

end Cert.Proof.KernelIdeal

end
-- ==== Proof.KernelIdeal.LaunchElem.lean ====
/-
  The lookup kernel's launch, second part: the launch element of the ghost state. The barrier cells' rounds are funded,
  their invariants allocated for every tile at once from the free semaphores the launch hands over, and each tile is
  dealt its kit: every cell's invariant of its SparseCore, its duty token in each tile's round, its own position and
  the credit for the sixteen units of its own cell.
-/
import proofs.«206951_g4793183502620_cont_8to1_c_898_7_alg».proof.Proof.KernelIdeal.Common

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

end Cert.Proof.KernelIdeal

end
-- ==== Proof.KernelIdeal.LaunchMain.lean ====
/-
  The lookup kernel's launch, third part: @main on the TensorCore. The reshape of the index vector into the index
  array; the index array split into the thirty-two tasks' rows, the result into the 256 blocks of sixty-four rows the
  tasks write, and two read shares of the table split off, one per SparseCore; the call; the pieces rejoined, every
  block of the result at the rows the indices name.
-/
import proofs.«206951_g4793183502620_cont_8to1_c_898_7_alg».proof.Proof.KernelIdeal.Common

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

open Idealize.ShloMosaic.StableHlo (held held_split held_sdiff_result wp_hlo_within)

variable [FloatOps F]

/-! ## Tasks and blocks renumbered -/

/-- Tile `s` of SparseCore `c` runs task `2 s + c`: every task is run once. -/
def widE : Fin 2 × Fin 16 ≃ Fin 32 where
  toFun p := wid p.1 p.2
  invFun w := (⟨w.val % 2, Nat.mod_lt _ (by decide)⟩, ⟨w.val / 2, by omega⟩)
  left_inv := by
    rintro ⟨c, s⟩
    refine Prod.ext (Fin.ext ?_) (Fin.ext ?_) <;> simp only [wid] <;> omega
  right_inv := by
    intro w; refine Fin.ext ?_; simp only [wid]; omega

/-- List `r` of task `w` is block `8 w + r` of the result: every block is written once. -/
def chunkE : Fin 32 × Fin 8 ≃ Fin 256 where
  toFun p := chunk p.1 p.2
  invFun k := (⟨k.val / 8, by omega⟩, ⟨k.val % 8, Nat.mod_lt _ (by decide)⟩)
  left_inv := by
    rintro ⟨w, r⟩
    refine Prod.ext (Fin.ext ?_) (Fin.ext ?_) <;> simp only [chunk] <;> omega
  right_inv := by
    intro k; refine Fin.ext ?_; simp only [chunk]; omega

omit [FloatOps F] in
theorem bigSep_wid (Φ : Fin 32 → sProp 𝕄) :
    (bigSep Finset.univ fun c : Fin 2 => bigSep Finset.univ fun i : Fin 16 => Φ (wid c i)) = bigSep Finset.univ Φ := by
  rw [bigSep_univ_equiv widE Φ, bigSep_univ_prod]; rfl
omit [FloatOps F] in
theorem bigSep_chunk (Φ : Fin 256 → sProp 𝕄) :
    (bigSep Finset.univ fun w : Fin 32 => bigSep Finset.univ fun r : Fin 8 => Φ (chunk w r)) = bigSep Finset.univ Φ := by
  rw [bigSep_univ_equiv chunkE Φ, bigSep_univ_prod]; rfl
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The index array is its thirty-two rows, the result its 256 blocks -/

omit [FloatOps F] in
theorem ixSet_eq (w : Fin 32) : ixSet w = (ixRect w).set := by
  show ((View.whole (main_v0_scv : Ref sig .scVector)).slice (ixRect w)).set = _
  rw [View.set_slice]; exact Finset.map_refl
omit [FloatOps F] in
theorem ix_disjoint : ∀ i ∈ (Finset.univ : Finset (Fin 32)), ∀ j ∈ (Finset.univ : Finset (Fin 32)), i ≠ j → Disjoint (ixSet i) (ixSet j) :=
  fun i _ j _ h => by rw [ixSet_eq, ixSet_eq]; exact Rect.part_disjoint hdiv32 h
omit [FloatOps F] in
theorem ix_cover : (Finset.univ : Finset (Fin 32)).biUnion ixSet = Finset.univ :=
  (Finset.biUnion_congr rfl fun i _ => ixSet_eq i).trans (Rect.biUnion_part hdiv32)

omit [FloatOps F] in
theorem oSet_eq (k : Fin 256) : oSet k = (oRect k).set := by
  show ((View.whole (main_v1_scv : Ref sig .scVector)).slice (oRect k)).set = _
  rw [View.set_slice]; exact Finset.map_refl
omit [FloatOps F] in
theorem o_disjoint : ∀ i ∈ (Finset.univ : Finset (Fin 256)), ∀ j ∈ (Finset.univ : Finset (Fin 256)), i ≠ j → Disjoint (oSet i) (oSet j) :=
  fun i _ j _ h => by rw [oSet_eq, oSet_eq]; exact Rect.part_disjoint hdiv256 h
omit [FloatOps F] in
theorem o_cover : (Finset.univ : Finset (Fin 256)).biUnion oSet = Finset.univ :=
  (Finset.biUnion_congr rfl fun i _ => oSet_eq i).trans (Rect.biUnion_part hdiv256)

omit [FloatOps F] in
theorem ixPts_rows (d : Dev nD) (f : Buf (Elt F) (ixLoc d)) :
    (ixLoc d ↦{fullShare} f : sProp 𝕄) = bigSep Finset.univ fun w : Fin 32 => ixLoc d ↦[ixSet w]{fullShare} f := by
  rw [← pointsTo_biUnion Finset.univ (ℓ := ixLoc d) ixSet ix_disjoint, ix_cover]; try rfl
omit [FloatOps F] in
theorem oPts_blocks (d : Dev nD) (f : Buf (Elt F) (oLoc d)) :
    (oLoc d ↦{fullShare} f : sProp 𝕄) = bigSep Finset.univ fun k : Fin 256 => oLoc d ↦[oSet k]{fullShare} f := by
  rw [← pointsTo_biUnion Finset.univ (ℓ := oLoc d) oSet o_disjoint, o_cover]; try rfl

/-! ## What the call takes for the two SparseCores, and what it hands back -/

/-- The pieces of both SparseCores' thirty-two tasks are the index array and an array of the result's type whole,
    and the two read shares of the table. -/
theorem cores_eq (d : Dev nD) (f : Buf (Elt F) (oLoc d)) :
    (bigSep Finset.univ fun c : Fin 2 =>
        iprop((bigSep Finset.univ fun i : Fin 16 => iprop(ixPts m d (wid c i) ∗ bigSep Finset.univ fun r : Fin 8 => oPts d (chunk (wid c i) r) f))
          ∗ tbTok m d c.val))
      = iprop(((ixLoc d ↦{fullShare} ixC m d) ∗ oLoc d ↦{fullShare} f) ∗ bigSep Finset.univ fun c : Fin 2 => tbTok m d c.val) := by
  rw [bigSep_sep', bigSep_wid (F := F) (fun w => iprop(ixPts m d w ∗ bigSep Finset.univ fun r : Fin 8 => oPts d (chunk w r) f)), bigSep_sep',
    bigSep_chunk (F := F) (fun k => oPts d k f), ← ixPts_rows, ← oPts_blocks]

theorem st0_eq (d : Dev nD) :
    (bigSep Finset.univ fun c : Fin ((K (F := F)).nCore 0) => (P m).st 0 d c)
      = iprop(((ixLoc d ↦{fullShare} ixC m d) ∗ oLoc d ↦{fullShare} m (oLoc d)) ∗ bigSep Finset.univ fun c : Fin 2 => tbTok m d c.val) := by
  show (bigSep Finset.univ fun c : Fin ((K (F := F)).nCore 0) => stRes m d (Fin.cast nCore_zero c)) = _
  rw [bigSep_cores (F := F) (fun c => stRes m d c)]
  unfold stRes
  exact cores_eq m d _
theorem dn0_eq (d : Dev nD) :
    (bigSep Finset.univ fun c : Fin ((K (F := F)).nCore 0) => (P m).dn 0 d c)
      = iprop(((ixLoc d ↦{fullShare} ixC m d) ∗ oLoc d ↦{fullShare} G m d) ∗ bigSep Finset.univ fun c : Fin 2 => tbTok m d c.val) := by
  show (bigSep Finset.univ fun c : Fin ((K (F := F)).nCore 0) => dnRes m d (Fin.cast nCore_zero c)) = _
  rw [bigSep_cores (F := F) (fun c => dnRes m d c)]
  unfold dnRes
  exact cores_eq m d _

/-! ## @main on the TensorCore -/

abbrev a' : DevRef τ sig := Proc.devRef .tc (main_arg0 : Ref sig .tc)
abbrev tb' : DevRef τ sig := Proc.devRef .tc (main_arg1 : Ref sig .tc)
abbrev ix' : DevRef τ sig := Proc.devRef .tc (main_v0 : Ref sig .tc)
abbrev o' : DevRef τ sig := Proc.devRef .tc (main_v1 : Ref sig .tc)
/-- @main's one host operation: the index vector reshaped into the index array. -/
abbrev opR : HloOp τ sig (Elt F) := StableHlo.reshape main_arg0 main_v0 rfl shapeCasts_S16384_S32x8x64

/-- The TensorCore's arrays, all unscoped: the index vector, the table, the index array, the result. -/
abbrev S4 : Finset (DevRef τ sig) := {a', tb', ix', o'}

omit [FloatOps F] in
theorem held_S4 (d : Dev nD) (W : Valuation τ sig (Elt F)) :
    (held (T d) S4 W : sProp 𝕄)
      = iprop((aLoc d ↦{fullShare} W a') ∗ (tbLoc d ↦{fullShare} W tb') ∗ (ixLoc d ↦{fullShare} W ix') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (tbLoc d ↦{fullShare} W main_arg1) ∗ (ixLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hR : (opR (F := F)).bufs ⊆ S4 := show ({a', ix'} : Finset (DevRef τ sig)) ⊆ S4 by decide

/-- After the reshape: the index array at the index vector's elements in row-major order, the others as launched. -/
theorem held_after (d : Dev nD) :
    (held (T d) S4 ((opR (F := F)).result (V0 m d)) : sProp 𝕄)
      = iprop((aLoc d ↦{fullShare} m (aLoc d)) ∗ (tbLoc d ↦{fullShare} m (tbLoc d)) ∗ (ixLoc d ↦{fullShare} ixC m d) ∗ oLoc d ↦{fullShare} m (oLoc d)) := by
  rw [held_S4,
    (opR (F := F)).result_of_not_mem (V0 m d) (b := a') (show a' ∉ ({ix'} : Finset (DevRef τ sig)) by decide),
    (opR (F := F)).result_of_not_mem (V0 m d) (b := tb') (show tb' ∉ ({ix'} : Finset (DevRef τ sig)) by decide),
    (opR (F := F)).result_of_not_mem (V0 m d) (b := o') (show o' ∉ ({ix'} : Finset (DevRef τ sig)) by decide),
    show (opR (F := F)).result (V0 m d) ix' = ixC m d from StableHlo.reshape_result main_arg0 main_v0 rfl shapeCasts_S16384_S32x8x64 ⟨by decide, rfl⟩ ⟨by decide, rfl⟩ (V0 m d)]
  rfl

/-- What @main leaves the claim: the index vector and the table at their launch contents, the result at the rows the
    indices name. -/
abbrev FIN (d : Dev nD) : sProp 𝕄 := iprop((aLoc d ↦{fullShare} m (aLoc d)) ∗ (tbLoc d ↦{fullShare} m (tbLoc d)) ∗ oLoc d ↦{fullShare} G m d)

/-- @main on device `d`'s TensorCore: the reshape over the four arrays held whole; the index array and the result split
    into the tasks' pieces and two read shares of the table split off for the call; afterwards the pieces rejoined. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape, over the four arrays
  iapply (wp_hlo_within 𝒱 (SparseCore.T d) none Set.univ (op := opR) (S := S4) hR (V := V0 m d)) $$ [Hb Hheld]
  · isplitl [Hb]; · iexact Hb
    iexact Hheld
  iintro ⟨Hb, Hheld⟩
  ihave Hh := (Entails.of_eq (held_after (F := F) m d)) $$ Hheld
  icases Hh with ⟨Ha, Htb, Hix, Ho⟩
  rw [wp_ret]; imodintro
  -- the table's two read shares
  ihave Htb' := (Transfers.pointsTo_toks_split fullShare 2) $$ Htb
  icases Htb' with ⟨Htb0, Htoks⟩
  -- the call
  iapply ((K (F := F)).wp_run (D (F := F)) 𝒱 (EH := EH) (P := P m) κ d 0) $$ [Hst Hix Ho Htoks Ha Htb0 Hb]
  isplitr; · iexact Hctx
  isplitl [Hst]; · iexact Hst
  isplitl [Hix Ho Htoks]
  · rw [st0_eq]
    isplitl [Hix Ho]
    · isplitl [Hix]; · iexact Hix
      iexact Ho
    iexact Htoks
  iintro ⟨Hst, Hdn⟩
  ihave Hdn' := (Entails.of_eq (dn0_eq m d)) $$ Hdn
  icases Hdn' with ⟨⟨-, Ho⟩, Htoks⟩
  imodintro
  isplitl [Hst]; · iexact Hst
  isplitl [Ha]; · iexact Ha
  isplitl [Htb0 Htoks]
  · iapply (Transfers.pointsTo_toks_join fullShare 2)
    isplitl [Htb0]; · iexact Htb0
    iexact Htoks
  iexact Ho

def fq (d : Dev nD) (s' : Phys nD τ sig (Elt F)) : Prop :=
  s'.mem.mem (oLoc d) = G m d ∧ s'.mem.mem (aLoc d) = m (aLoc d) ∧ s'.mem.mem (tbLoc d) = m (tbLoc d)

theorem hfin (d : Dev nD) (s' : Phys nD τ sig (Elt F)) : iprop(FIN m d ∗ SI s') ⊢ (⌜fq m d s'⌝ : sProp 𝕄) := by
  iintro ⟨⟨Ha, Htb, Ho⟩, HSI⟩
  icombine HSI Ho gives %h1
  icombine HSI Ha gives %h2
  icombine HSI Htb gives %h3
  ipureintro
  exact ⟨funext fun i => h1 i (Finset.mem_univ i), funext fun i => h2 i (Finset.mem_univ i), funext fun i => h3 i (Finset.mem_univ i)⟩

end Cert.Proof.KernelIdeal

end
-- ==== Proof.KernelIdeal.Launch.lean ====
/-
  The lookup kernel's launch, assembled: from the one tile's task, proved at a symbolic place, the run of the whole
  program — the TensorCore's @main, the two sequencers and the thirty-two tiles.
-/
import proofs.«206951_g4793183502620_cont_8to1_c_898_7_alg».proof.Proof.KernelIdeal.LaunchSplit
import proofs.«206951_g4793183502620_cont_8to1_c_898_7_alg».proof.Proof.KernelIdeal.LaunchElem
import proofs.«206951_g4793183502620_cont_8to1_c_898_7_alg».proof.Proof.KernelIdeal.LaunchMain

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The program's run -/

def QC : PUnit × MemSt nD τ sig (Elt F) → Prop := fun r =>
  ∀ c : Dev nD, r.2.mem (oLoc c) = G m c ∧ r.2.mem (aLoc c) = m (aLoc c) ∧ r.2.mem (tbLoc c) = m (tbLoc c)

/-- Every weakly fair execution of the device's threads from the launch memory terminates, the result at the rows the
    indices name, the index vector and the table unchanged — given the one tile's task at a symbolic place. -/
theorem run_main [∀ e, Nonempty (Elt F e)] (hobl : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => vecSplit m)
    m ρ main (fun _ => iprop(emp)) (FIN m) (u₀ (F := F)) (hu₀ m) (hmain m ρ) (fq m) (hfin m) (QC m) (fun _ h => h)

end Cert.Proof.KernelIdeal

end
-- ==== Proof.KernelIdeal.TileSets.lean ====
/-
  One task of the lookup kernel at a symbolic tile of a symbolic SparseCore: the pieces of the arrays it addresses are
  the pieces the launch deals it, its semaphores and scratch buffers one by one, and what its arrivals at the barrier
  hand over and collect.
-/
import proofs.«206951_g4793183502620_cont_8to1_c_898_7_alg».proof.Proof.KernelIdeal.Common
import Idealize.ShloMosaic.Lib.Batch

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

local notation "ixV" => (Memref.whole Cert.KernelIdeal.main_v0_scv : Memref Cert.KernelIdeal.sig Kind.scVector Space.hbm Cert.KernelIdeal.S32x8x64 EltTy.i32)
local notation "tbV" => (Memref.whole Cert.KernelIdeal.main_arg1_scv : Memref Cert.KernelIdeal.sig Kind.scVector Space.hbm Cert.KernelIdeal.S1001x128 EltTy.f32)
local notation "oV" => (Memref.whole Cert.KernelIdeal.main_v1_scv : Memref Cert.KernelIdeal.sig Kind.scVector Space.hbm Cert.KernelIdeal.S16384x128 EltTy.f32)
local notation "i5V" => (Memref.whole Cert.KernelIdeal.cc0_scratch0 : Memref Cert.KernelIdeal.sig Kind.scVector Space.vmem Cert.KernelIdeal.S8x64 EltTy.i32)
local notation "r6V" => (Memref.whole Cert.KernelIdeal.cc0_scratch1 : Memref Cert.KernelIdeal.sig Kind.scVector Space.vmem Cert.KernelIdeal.S512x128 EltTy.f32)
local notation "shV" => (Memref.whole Cert.KernelIdeal.cc0_scratch2 : Memref Cert.KernelIdeal.sig Kind.scVector Space.shared Cert.KernelIdeal.S1001x128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
omit [FloatOps F] in
theorem bound_zero : grid0.bound 0 = 2 := rfl
abbrev cL (L : grid0.Coords) : Fin 2 := Fin.cast bound_zero (L 0)
abbrev jL (L : grid0.Coords) : Fin 16 := Fin.cast bound_one (L 1)

/-- The task's row of the index array, squeezed, as the task addresses it. -/
abbrev ixRowK (L : grid0.Coords) : Memref sig .scVector .hbm S8x64 .i32 :=
  ((ixV).slice (Rect.unit (s := S32x8x64) (k0_off1 L) S1x8x64.size (k0_off1_inb L)) (fun _ => rfl)).squeeze S8x64 squeezes_S1x8x64_S8x64
/-- The shared copy, as the gathers address it (the whole of it, through a slice). -/
abbrev shSl : Memref sig .scVector .shared S1001x128 .f32 :=
  (shV).slice (Rect.unit (s := S1001x128) ![0, 0] S1001x128.size inb_S1001x128_S1001x128_0_0) (fun _ => rfl)
abbrev rCh0 : Memref sig .scVector .vmem S64x128 .f32 := (r6V).slice (Rect.unit (s := S512x128) ![0, 0] S64x128.size inb_S512x128_S64x128_0_0) (fun _ => rfl)
abbrev iRow0 : Memref sig .scVector .vmem S64 .i32 := ((i5V).slice (Rect.unit (s := S8x64) ![0, 0] S1x64.size inb_S8x64_S1x64_0_0) (fun _ => rfl)).squeeze S64 squeezes_S1x64_S64
abbrev gSem0 : DmaSems sig S_ := SemArray.squeeze (SemArray.slice cc0_scratch3 (Rect.unit (s := S8) ![0] S1.size inb_S8_S1_0)) S_ squeezes_S1_S_
abbrev oCh0 (L : grid0.Coords) : Memref sig .scVector .hbm S64x128 .f32 := (oV).slice (Rect.unit (s := S16384x128) (k0_off2 L 0#32) S64x128.size (k0_off2_inb L 0)) (fun _ => rfl)
abbrev rCh1 : Memref sig .scVector .vmem S64x128 .f32 := (r6V).slice (Rect.unit (s := S512x128) ![64, 0] S64x128.size inb_S512x128_S64x128_64_0) (fun _ => rfl)
abbrev iRow1 : Memref sig .scVector .vmem S64 .i32 := ((i5V).slice (Rect.unit (s := S8x64) ![1, 0] S1x64.size inb_S8x64_S1x64_1_0) (fun _ => rfl)).squeeze S64 squeezes_S1x64_S64
abbrev gSem1 : DmaSems sig S_ := SemArray.squeeze (SemArray.slice cc0_scratch3 (Rect.unit (s := S8) ![1] S1.size inb_S8_S1_1)) S_ squeezes_S1_S_
abbrev oCh1 (L : grid0.Coords) : Memref sig .scVector .hbm S64x128 .f32 := (oV).slice (Rect.unit (s := S16384x128) (k0_off2 L 64#32) S64x128.size (k0_off2_inb L 1)) (fun _ => rfl)
abbrev rCh2 : Memref sig .scVector .vmem S64x128 .f32 := (r6V).slice (Rect.unit (s := S512x128) ![128, 0] S64x128.size inb_S512x128_S64x128_128_0) (fun _ => rfl)
abbrev iRow2 : Memref sig .scVector .vmem S64 .i32 := ((i5V).slice (Rect.unit (s := S8x64) ![2, 0] S1x64.size inb_S8x64_S1x64_2_0) (fun _ => rfl)).squeeze S64 squeezes_S1x64_S64
abbrev gSem2 : DmaSems sig S_ := SemArray.squeeze (SemArray.slice cc0_scratch3 (Rect.unit (s := S8) ![2] S1.size inb_S8_S1_2)) S_ squeezes_S1_S_
abbrev oCh2 (L : grid0.Coords) : Memref sig .scVector .hbm S64x128 .f32 := (oV).slice (Rect.unit (s := S16384x128) (k0_off2 L 128#32) S64x128.size (k0_off2_inb L 2)) (fun _ => rfl)
abbrev rCh3 : Memref sig .scVector .vmem S64x128 .f32 := (r6V).slice (Rect.unit (s := S512x128) ![192, 0] S64x128.size inb_S512x128_S64x128_192_0) (fun _ => rfl)
abbrev iRow3 : Memref sig .scVector .vmem S64 .i32 := ((i5V).slice (Rect.unit (s := S8x64) ![3, 0] S1x64.size inb_S8x64_S1x64_3_0) (fun _ => rfl)).squeeze S64 squeezes_S1x64_S64
abbrev gSem3 : DmaSems sig S_ := SemArray.squeeze (SemArray.slice cc0_scratch3 (Rect.unit (s := S8) ![3] S1.size inb_S8_S1_3)) S_ squeezes_S1_S_
abbrev oCh3 (L : grid0.Coords) : Memref sig .scVector .hbm S64x128 .f32 := (oV).slice (Rect.unit (s := S16384x128) (k0_off2 L 192#32) S64x128.size (k0_off2_inb L 3)) (fun _ => rfl)
abbrev rCh4 : Memref sig .scVector .vmem S64x128 .f32 := (r6V).slice (Rect.unit (s := S512x128) ![256, 0] S64x128.size inb_S512x128_S64x128_256_0) (fun _ => rfl)
abbrev iRow4 : Memref sig .scVector .vmem S64 .i32 := ((i5V).slice (Rect.unit (s := S8x64) ![4, 0] S1x64.size inb_S8x64_S1x64_4_0) (fun _ => rfl)).squeeze S64 squeezes_S1x64_S64
abbrev gSem4 : DmaSems sig S_ := SemArray.squeeze (SemArray.slice cc0_scratch3 (Rect.unit (s := S8) ![4] S1.size inb_S8_S1_4)) S_ squeezes_S1_S_
abbrev oCh4 (L : grid0.Coords) : Memref sig .scVector .hbm S64x128 .f32 := (oV).slice (Rect.unit (s := S16384x128) (k0_off2 L 256#32) S64x128.size (k0_off2_inb L 4)) (fun _ => rfl)
abbrev rCh5 : Memref sig .scVector .vmem S64x128 .f32 := (r6V).slice (Rect.unit (s := S512x128) ![320, 0] S64x128.size inb_S512x128_S64x128_320_0) (fun _ => rfl)
abbrev iRow5 : Memref sig .scVector .vmem S64 .i32 := ((i5V).slice (Rect.unit (s := S8x64) ![5, 0] S1x64.size inb_S8x64_S1x64_5_0) (fun _ => rfl)).squeeze S64 squeezes_S1x64_S64
abbrev gSem5 : DmaSems sig S_ := SemArray.squeeze (SemArray.slice cc0_scratch3 (Rect.unit (s := S8) ![5] S1.size inb_S8_S1_5)) S_ squeezes_S1_S_
abbrev oCh5 (L : grid0.Coords) : Memref sig .scVector .hbm S64x128 .f32 := (oV).slice (Rect.unit (s := S16384x128) (k0_off2 L 320#32) S64x128.size (k0_off2_inb L 5)) (fun _ => rfl)
abbrev rCh6 : Memref sig .scVector .vmem S64x128 .f32 := (r6V).slice (Rect.unit (s := S512x128) ![384, 0] S64x128.size inb_S512x128_S64x128_384_0) (fun _ => rfl)
abbrev iRow6 : Memref sig .scVector .vmem S64 .i32 := ((i5V).slice (Rect.unit (s := S8x64) ![6, 0] S1x64.size inb_S8x64_S1x64_6_0) (fun _ => rfl)).squeeze S64 squeezes_S1x64_S64
abbrev gSem6 : DmaSems sig S_ := SemArray.squeeze (SemArray.slice cc0_scratch3 (Rect.unit (s := S8) ![6] S1.size inb_S8_S1_6)) S_ squeezes_S1_S_
abbrev oCh6 (L : grid0.Coords) : Memref sig .scVector .hbm S64x128 .f32 := (oV).slice (Rect.unit (s := S16384x128) (k0_off2 L 384#32) S64x128.size (k0_off2_inb L 6)) (fun _ => rfl)
abbrev rCh7 : Memref sig .scVector .vmem S64x128 .f32 := (r6V).slice (Rect.unit (s := S512x128) ![448, 0] S64x128.size inb_S512x128_S64x128_448_0) (fun _ => rfl)
abbrev iRow7 : Memref sig .scVector .vmem S64 .i32 := ((i5V).slice (Rect.unit (s := S8x64) ![7, 0] S1x64.size inb_S8x64_S1x64_7_0) (fun _ => rfl)).squeeze S64 squeezes_S1x64_S64
abbrev gSem7 : DmaSems sig S_ := SemArray.squeeze (SemArray.slice cc0_scratch3 (Rect.unit (s := S8) ![7] S1.size inb_S8_S1_7)) S_ squeezes_S1_S_
abbrev oCh7 (L : grid0.Coords) : Memref sig .scVector .hbm S64x128 .f32 := (oV).slice (Rect.unit (s := S16384x128) (k0_off2 L 448#32) S64x128.size (k0_off2_inb L 7)) (fun _ => rfl)

/-! ## The pieces a task addresses are the pieces the launch deals -/

omit [FloatOps F] in
theorem ixRect_eq : Rect.unit (s := S32x8x64) (k0_off1 L) S1x8x64.size (k0_off1_inb L) = ixRect (wid (cL L) (jL L)) := by
  unfold ixRect Rect.part Rect.block
  congr 1 <;> funext a
  · rw [k0_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_ixRowK : (ixRowK L).view.set = ixSet (wid (cL L) (jL L)) := by
  show (((ixV).view.slice (Rect.unit (s := S32x8x64) (k0_off1 L) S1x8x64.size (k0_off1_inb L))).reshape S8x64 squeezes_S1x8x64_S8x64.numel_eq).set
    = ((ixV).view.slice (ixRect (wid (cL L) (jL L)))).set
  rw [View.set_reshape]
  exact ixRect_eq L ▸ rfl

omit [FloatOps F] in
theorem pts_ixRowK (f : Buf (Elt F) (ixLoc d)) :
    ((ixRowK L).view.loc (V d (cV L) (jV L)) ↦[(ixRowK L).view.set]{fullShare} f : sProp 𝕄) = ixLoc d ↦[ixSet (wid (cL L) (jL L))]{fullShare} f := by
  rw [set_ixRowK]

/-- Block `r` of the task's result rows, as the task addresses it, for a variable `r`. -/
abbrev oChK (L : grid0.Coords) (r : Fin 8) : Memref sig .scVector .hbm S64x128 .f32 :=
  (oV).slice (Rect.unit (s := S16384x128) (k0_off2 L (BitVec.ofNat 32 (64 * r.val))) S64x128.size (k0_off2_inb L r)) (fun _ => rfl)

omit [FloatOps F] in
theorem oRect_eq (r : Fin 8) :
    Rect.unit (s := S16384x128) (k0_off2 L (BitVec.ofNat 32 (64 * r.val))) S64x128.size (k0_off2_inb L r) = oRect (chunk (wid (cL L) (jL L)) r) := by
  unfold oRect Rect.part Rect.block
  congr 1 <;> funext a
  · rw [k0_off2_eq]
    match a with
    | 0 => simp [Shape.partIx, Shape.partSize, wid, chunk]; omega
    | 1 => simp [Shape.partIx, Shape.partSize]
  · match a with
    | 0 => simp [Shape.partSize]
    | 1 => simp [Shape.partSize]

omit [FloatOps F] in
theorem set_oChK (r : Fin 8) : (oChK L r).view.set = oSet (chunk (wid (cL L) (jL L)) r) := by
  show ((oV).view.slice (Rect.unit (s := S16384x128) (k0_off2 L (BitVec.ofNat 32 (64 * r.val))) S64x128.size (k0_off2_inb L r))).set
    = ((oV).view.slice (oRect (chunk (wid (cL L) (jL L)) r))).set
  rw [oRect_eq]

omit [FloatOps F] in
theorem pts_oChK (r : Fin 8) (f : Buf (Elt F) (oLoc d)) :
    ((oChK L r).view.loc (V d (cV L) (jV L)) ↦[(oChK L r).view.set]{fullShare} f : sProp 𝕄) = oLoc d ↦[oSet (chunk (wid (cL L) (jL L)) r)]{fullShare} f := by
  rw [set_oChK]
omit [FloatOps F] in
theorem oCh0_eq : oCh0 L = oChK L 0 := rfl
omit [FloatOps F] in
theorem oCh1_eq : oCh1 L = oChK L 1 := rfl
omit [FloatOps F] in
theorem oCh2_eq : oCh2 L = oChK L 2 := rfl
omit [FloatOps F] in
theorem oCh3_eq : oCh3 L = oChK L 3 := rfl
omit [FloatOps F] in
theorem oCh4_eq : oCh4 L = oChK L 4 := rfl
omit [FloatOps F] in
theorem oCh5_eq : oCh5 L = oChK L 5 := rfl
omit [FloatOps F] in
theorem oCh6_eq : oCh6 L = oChK L 6 := rfl
omit [FloatOps F] in
theorem oCh7_eq : oCh7 L = oChK L 7 := rfl

/-! ## The tile's own semaphores and buffers, one by one -/

omit [FloatOps F] in
theorem ownCells_V (c : Fin τ.nSC) (j : Fin τ.nSub) :
    (ownCells (V d c j) : Finset (GSem nD τ sig)) = (Finset.univ : Finset (Fin 11)).image fun k => ((V d c j, SemLoc.dma k) : GSem nD τ sig) := by
  ext ⟨t, sm⟩
  simp only [mem_ownCells, Finset.mem_image, Finset.mem_univ, true_and]
  constructor
  · rintro ⟨rfl, h⟩
    cases sm with
    | reg r => exact absurd h ((by decide : ∀ r : Fin 5, ¬ ((SemLoc.reg r : SemLoc sig).isScoped .scVector = true)) r)
    | dma k => exact ⟨k, rfl⟩
  · rintro ⟨k, e⟩
    obtain ⟨rfl, rfl⟩ := Prod.mk.inj e
    exact ⟨rfl, (by decide : ∀ k : Fin 11, (SemLoc.dma k : SemLoc sig).isScoped .scVector = true) k⟩

omit [FloatOps F] in
theorem ownSems0_V :
    (ownSems0 (V d (cV L) (jV L)) : sProp 𝕄)
      = iprop(semVal (V d (cV L) (jV L), .dma gSem0.sem) 0
          ∗ semVal (V d (cV L) (jV L), .dma gSem1.sem) 0
          ∗ semVal (V d (cV L) (jV L), .dma gSem2.sem) 0
          ∗ semVal (V d (cV L) (jV L), .dma gSem3.sem) 0
          ∗ semVal (V d (cV L) (jV L), .dma gSem4.sem) 0
          ∗ semVal (V d (cV L) (jV L), .dma gSem5.sem) 0
          ∗ semVal (V d (cV L) (jV L), .dma gSem6.sem) 0
          ∗ semVal (V d (cV L) (jV L), .dma gSem7.sem) 0
          ∗ semVal (V d (cV L) (jV L), .dma cc0_scratch4.sem) 0
          ∗ semVal (V d (cV L) (jV L), .dma cc0_scoped0.sem) 0
          ∗ semVal (V d (cV L) (jV L), .dma cc0_scoped1.sem) 0
          ∗ bigSep Finset.univ fun k : Fin 0 => semVal (V d (cV L) (jV L), SemLoc.dma (k.succ.succ.succ.succ.succ.succ.succ.succ.succ.succ.succ : Fin 11)) 0) := by
  unfold SparseCore.Cfg.ownSems0
  rw [ownCells_V, SparseCore.bigSep_image_of_injOn (fun a _ b _ e => SemLoc.dma.inj (Prod.mk.inj e).2)]
  rw [bigSep_univ_succ, bigSep_univ_succ, bigSep_univ_succ, bigSep_univ_succ, bigSep_univ_succ, bigSep_univ_succ,
    bigSep_univ_succ, bigSep_univ_succ, bigSep_univ_succ, bigSep_univ_succ, bigSep_univ_succ]
  rfl

omit [FloatOps F] in
/-- The two scratch buffers are the tile's own: each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase ((Proc.scVector (cV L) (jV L)).devRef cc0_scratch1))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨by simp [Proc.devRef], SparseCore.Cfg.mem_ownRefs_of_owner (p := Proc.scVector (cV L) (jV L)) (b := (Proc.scVector (cV L) (jV L)).devRef cc0_scratch1) rfl⟩)]

omit [FloatOps F] in
theorem pts_i5V (f : Buf (Elt F) ((V d (cV L) (jV L)).loc cc0_scratch0)) :
    ((i5V).view.loc (V d (cV L) (jV L)) ↦{fullShare} f : sProp 𝕄) = (V d (cV L) (jV L)).loc cc0_scratch0 ↦{fullShare} f := rfl
omit [FloatOps F] in
theorem pts_r6V (f : Buf (Elt F) ((V d (cV L) (jV L)).loc cc0_scratch1)) :
    ((r6V).view.loc (V d (cV L) (jV L)) ↦{fullShare} f : sProp 𝕄) = (V d (cV L) (jV L)).loc cc0_scratch1 ↦{fullShare} f := rfl
omit [FloatOps F] in
theorem pts_tbV (q : PosShare TreeShare) (f : Buf (Elt F) (tbLoc d)) :
    ((tbV).view.loc (V d (cV L) (jV L)) ↦{q} f : sProp 𝕄) = tbLoc d ↦{q} f := rfl
omit [FloatOps F] in
theorem pts_shV (q : PosShare TreeShare) (f : Buf (Elt F) (shLoc d (cV L))) :
    ((shV).view.loc (V d (cV L) (jV L)) ↦{q} f : sProp 𝕄) = shLoc d (cV L) ↦{q} f := rfl

omit [FloatOps F] in
theorem set_shSl : (shSl).view.set = Finset.univ := by
  show ((shV).view.slice (Rect.unit (s := S1001x128) ![0, 0] S1001x128.size inb_S1001x128_S1001x128_0_0)).set = Finset.univ
  rw [View.set_slice_whole]
  ext i
  rw [Rect.mem_set_unit]
  simp only [Finset.mem_univ, iff_true]
  intro a
  match a with
  | 0 => refine ⟨Nat.zero_le _, ?_⟩; show (i 0).val < 1001; exact (i 0).isLt
  | 1 => refine ⟨Nat.zero_le _, ?_⟩; show (i 1).val < 128; exact (i 1).isLt

omit [FloatOps F] in
theorem pts_shSl (q : PosShare TreeShare) (f : Buf (Elt F) (shLoc d (cV L))) :
    ((shSl).view.loc (V d (cV L) (jV L)) ↦[(shSl).view.set]{q} f : sProp 𝕄) = shLoc d (cV L) ↦{q} f := by
  rw [set_shSl]; rfl

omit [FloatOps F] in
theorem pts_oCh0 (f : Buf (Elt F) (oLoc d)) :
    ((oCh0 L).view.loc (V d (cV L) (jV L)) ↦[(oCh0 L).view.set]{fullShare} f : sProp 𝕄) = oLoc d ↦[oSet (chunk (wid (cL L) (jL L)) 0)]{fullShare} f :=
  pts_oChK d L 0 f
omit [FloatOps F] in
theorem pts_oCh1 (f : Buf (Elt F) (oLoc d)) :
    ((oCh1 L).view.loc (V d (cV L) (jV L)) ↦[(oCh1 L).view.set]{fullShare} f : sProp 𝕄) = oLoc d ↦[oSet (chunk (wid (cL L) (jL L)) 1)]{fullShare} f :=
  pts_oChK d L 1 f
omit [FloatOps F] in
theorem pts_oCh2 (f : Buf (Elt F) (oLoc d)) :
    ((oCh2 L).view.loc (V d (cV L) (jV L)) ↦[(oCh2 L).view.set]{fullShare} f : sProp 𝕄) = oLoc d ↦[oSet (chunk (wid (cL L) (jL L)) 2)]{fullShare} f :=
  pts_oChK d L 2 f
omit [FloatOps F] in
theorem pts_oCh3 (f : Buf (Elt F) (oLoc d)) :
    ((oCh3 L).view.loc (V d (cV L) (jV L)) ↦[(oCh3 L).view.set]{fullShare} f : sProp 𝕄) = oLoc d ↦[oSet (chunk (wid (cL L) (jL L)) 3)]{fullShare} f :=
  pts_oChK d L 3 f
omit [FloatOps F] in
theorem pts_oCh4 (f : Buf (Elt F) (oLoc d)) :
    ((oCh4 L).view.loc (V d (cV L) (jV L)) ↦[(oCh4 L).view.set]{fullShare} f : sProp 𝕄) = oLoc d ↦[oSet (chunk (wid (cL L) (jL L)) 4)]{fullShare} f :=
  pts_oChK d L 4 f
omit [FloatOps F] in
theorem pts_oCh5 (f : Buf (Elt F) (oLoc d)) :
    ((oCh5 L).view.loc (V d (cV L) (jV L)) ↦[(oCh5 L).view.set]{fullShare} f : sProp 𝕄) = oLoc d ↦[oSet (chunk (wid (cL L) (jL L)) 5)]{fullShare} f :=
  pts_oChK d L 5 f
omit [FloatOps F] in
theorem pts_oCh6 (f : Buf (Elt F) (oLoc d)) :
    ((oCh6 L).view.loc (V d (cV L) (jV L)) ↦[(oCh6 L).view.set]{fullShare} f : sProp 𝕄) = oLoc d ↦[oSet (chunk (wid (cL L) (jL L)) 6)]{fullShare} f :=
  pts_oChK d L 6 f
omit [FloatOps F] in
theorem pts_oCh7 (f : Buf (Elt F) (oLoc d)) :
    ((oCh7 L).view.loc (V d (cV L) (jV L)) ↦[(oCh7 L).view.set]{fullShare} f : sProp 𝕄) = oLoc d ↦[oSet (chunk (wid (cL L) (jL L)) 7)]{fullShare} f :=
  pts_oChK d L 7 f

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7 ∗ bigSep Finset.univ fun k : Fin 0 => Φ k.succ.succ.succ.succ.succ.succ.succ.succ) := by
  rw [bigSep_univ_succ, bigSep_univ_succ, bigSep_univ_succ, bigSep_univ_succ, bigSep_univ_succ, bigSep_univ_succ, bigSep_univ_succ, bigSep_univ_succ]
  rfl

/-! ## What the barrier hands over -/

/-- Tile 0 cuts the shared copy's full share into the sixteen read shares, one per round, and keeps the rest. -/
theorem pays_zero (h0 : (L 1).val = 0) : (shLoc d (cV L) ↦{fullShare} shC m d (cV L) : sProp 𝕄)
    ⊢ iprop(shRest m d (cV L) ∗ bigSep Finset.univ fun j : Fin (grid0.bound 1) => (bRd (F := F) m).payload (bcell d (cV L) (j.castLE hsub0)) 0 (jV L).val) := by
  have hv : (jV L).val = 0 := h0
  refine (Transfers.pointsTo_toks (ℓ := shLoc d (cV L)) (f := shC m d (cV L)) fullShare 16).1.trans ?_
  refine sep_mono_right (bigSep_mono fun j _ => ?_)
  show _ ⊢ bPay m (bcell d (cV L) (j.castLE hsub0)) (jV L).val
  unfold bPay; dsimp only
  rw [if_pos hv]; exact .rfl

/-- Another tile hands over nothing. -/
theorem pays_pos (h0 : (L 1).val ≠ 0) : (iprop(emp) : sProp 𝕄)
    ⊢ bigSep Finset.univ fun j : Fin (grid0.bound 1) => (bRd (F := F) m).payload (bcell d (cV L) (j.castLE hsub0)) 0 (jV L).val := by
  have hv : (jV L).val ≠ 0 := h0
  rw [show (bigSep Finset.univ fun j : Fin (grid0.bound 1) => (bRd (F := F) m).payload (bcell d (cV L) (j.castLE hsub0)) 0 (jV L).val)
      = bigSep Finset.univ fun _ : Fin (grid0.bound 1) => (iprop(emp) : sProp 𝕄) from bigSep_congr fun j _ => if_neg hv, bigSep_emp']

/-- What a tile's own round collected holds its read share of the shared copy. -/
theorem pays_elim : (bigSep ((bRd (F := F) m).duties (bcell d (cV L) (jV L)) 0 \ ∅) fun n => (bRd (F := F) m).payload (bcell d (cV L) (jV L)) 0 n)
    ⊢ (shTok m d (cV L) (jV L).val : sProp 𝕄) := by
  rw [Finset.sdiff_empty, bRd_duties₀]
  refine (bigSep_elim (i := 0) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]

end Tile

end Cert.Proof.KernelIdeal

end
-- ==== Proof.KernelIdeal.TileFacts.lean ====
/-
  What a task's lists hold once its first copy has landed — its row of the index array, every entry a table row's
  number — and what the shared copy holds once tile 0 has filled it: the table.
-/
import proofs.«206951_g4793183502620_cont_8to1_c_898_7_alg».proof.Proof.KernelIdeal.TileSets

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

local notation "ixV" => (Memref.whole Cert.KernelIdeal.main_v0_scv : Memref Cert.KernelIdeal.sig Kind.scVector Space.hbm Cert.KernelIdeal.S32x8x64 EltTy.i32)
local notation "tbV" => (Memref.whole Cert.KernelIdeal.main_arg1_scv : Memref Cert.KernelIdeal.sig Kind.scVector Space.hbm Cert.KernelIdeal.S1001x128 EltTy.f32)
local notation "oV" => (Memref.whole Cert.KernelIdeal.main_v1_scv : Memref Cert.KernelIdeal.sig Kind.scVector Space.hbm Cert.KernelIdeal.S16384x128 EltTy.f32)
local notation "i5V" => (Memref.whole Cert.KernelIdeal.cc0_scratch0 : Memref Cert.KernelIdeal.sig Kind.scVector Space.vmem Cert.KernelIdeal.S8x64 EltTy.i32)
local notation "r6V" => (Memref.whole Cert.KernelIdeal.cc0_scratch1 : Memref Cert.KernelIdeal.sig Kind.scVector Space.vmem Cert.KernelIdeal.S512x128 EltTy.f32)
local notation "shV" => (Memref.whole Cert.KernelIdeal.cc0_scratch2 : Memref Cert.KernelIdeal.sig Kind.scVector Space.shared Cert.KernelIdeal.S1001x128 EltTy.f32)

variable [FloatOps F]

section Tile

variable (d : Dev nD) (L : grid0.Coords)

/-! ## What the task's lists hold -/

/-- The task's eight lists as the first copy delivers them: its row of the index array. -/
abbrev idxPay : S8x64.Idx → Elt F .i32 := ReadAs.same.apply ((ixRowK L).view.read (Elt F) (ixC m d))

omit [FloatOps F] in
theorem idxPay_le (hr : Cert.Spec.InRange (m (aLoc d))) (y : S8x64.Idx) : (idxPay m d L y).toNat ≤ 999 := by
  have key : ∀ j : S16384.Idx, (m (aLoc d) j).toNat ≤ 999 := fun j => by rw [ValueIdx.eq_ix1 j]; exact hr _
  show (m (aLoc d) (Shape.reshapeEquiv shapeCasts_S16384_S32x8x64 ((ixRowK L).view.emb y))).toNat ≤ 999
  exact key _

omit [FloatOps F] in
theorem i5_written_le (hr : Cert.Spec.InRange (m (aLoc d))) (g : Buf (Elt F) ((i5V).view.loc (V d (cV L) (jV L)))) (i : S8x64.Idx) :
    ((View.write (Elt F) (i5V).view g (idxPay m d L) Finset.univ) i).toNat ≤ 999 := by
  have e : (i5V).view.emb i = i := rfl
  rw [← e, View.write_emb_of_mem _ _ (Finset.mem_univ i)]
  exact idxPay_le m d L hr i

omit [FloatOps F] in
theorem hin0 (hr : Cert.Spec.InRange (m (aLoc d))) (g : Buf (Elt F) ((i5V).view.loc (V d (cV L) (jV L)))) :
    ∀ x, ((iRow0).view.read (Elt F) (View.write (Elt F) (i5V).view g (idxPay m d L) Finset.univ) x).toNat < S1001x128.size gathers_S1001x128_S64x128.axis := by
  intro x
  show ((View.write (Elt F) (i5V).view g (idxPay m d L) Finset.univ) ((iRow0).view.emb x)).toNat < 1001
  exact Nat.lt_of_le_of_lt (i5_written_le m d L hr g _) (by decide)
omit [FloatOps F] in
theorem hin1 (hr : Cert.Spec.InRange (m (aLoc d))) (g : Buf (Elt F) ((i5V).view.loc (V d (cV L) (jV L)))) :
    ∀ x, ((iRow1).view.read (Elt F) (View.write (Elt F) (i5V).view g (idxPay m d L) Finset.univ) x).toNat < S1001x128.size gathers_S1001x128_S64x128.axis := by
  intro x
  show ((View.write (Elt F) (i5V).view g (idxPay m d L) Finset.univ) ((iRow1).view.emb x)).toNat < 1001
  exact Nat.lt_of_le_of_lt (i5_written_le m d L hr g _) (by decide)
omit [FloatOps F] in
theorem hin2 (hr : Cert.Spec.InRange (m (aLoc d))) (g : Buf (Elt F) ((i5V).view.loc (V d (cV L) (jV L)))) :
    ∀ x, ((iRow2).view.read (Elt F) (View.write (Elt F) (i5V).view g (idxPay m d L) Finset.univ) x).toNat < S1001x128.size gathers_S1001x128_S64x128.axis := by
  intro x
  show ((View.write (Elt F) (i5V).view g (idxPay m d L) Finset.univ) ((iRow2).view.emb x)).toNat < 1001
  exact Nat.lt_of_le_of_lt (i5_written_le m d L hr g _) (by decide)
omit [FloatOps F] in
theorem hin3 (hr : Cert.Spec.InRange (m (aLoc d))) (g : Buf (Elt F) ((i5V).view.loc (V d (cV L) (jV L)))) :
    ∀ x, ((iRow3).view.read (Elt F) (View.write (Elt F) (i5V).view g (idxPay m d L) Finset.univ) x).toNat < S1001x128.size gathers_S1001x128_S64x128.axis := by
  intro x
  show ((View.write (Elt F) (i5V).view g (idxPay m d L) Finset.univ) ((iRow3).view.emb x)).toNat < 1001
  exact Nat.lt_of_le_of_lt (i5_written_le m d L hr g _) (by decide)
omit [FloatOps F] in
theorem hin4 (hr : Cert.Spec.InRange (m (aLoc d))) (g : Buf (Elt F) ((i5V).view.loc (V d (cV L) (jV L)))) :
    ∀ x, ((iRow4).view.read (Elt F) (View.write (Elt F) (i5V).view g (idxPay m d L) Finset.univ) x).toNat < S1001x128.size gathers_S1001x128_S64x128.axis := by
  intro x
  show ((View.write (Elt F) (i5V).view g (idxPay m d L) Finset.univ) ((iRow4).view.emb x)).toNat < 1001
  exact Nat.lt_of_le_of_lt (i5_written_le m d L hr g _) (by decide)
omit [FloatOps F] in
theorem hin5 (hr : Cert.Spec.InRange (m (aLoc d))) (g : Buf (Elt F) ((i5V).view.loc (V d (cV L) (jV L)))) :
    ∀ x, ((iRow5).view.read (Elt F) (View.write (Elt F) (i5V).view g (idxPay m d L) Finset.univ) x).toNat < S1001x128.size gathers_S1001x128_S64x128.axis := by
  intro x
  show ((View.write (Elt F) (i5V).view g (idxPay m d L) Finset.univ) ((iRow5).view.emb x)).toNat < 1001
  exact Nat.lt_of_le_of_lt (i5_written_le m d L hr g _) (by decide)
omit [FloatOps F] in
theorem hin6 (hr : Cert.Spec.InRange (m (aLoc d))) (g : Buf (Elt F) ((i5V).view.loc (V d (cV L) (jV L)))) :
    ∀ x, ((iRow6).view.read (Elt F) (View.write (Elt F) (i5V).view g (idxPay m d L) Finset.univ) x).toNat < S1001x128.size gathers_S1001x128_S64x128.axis := by
  intro x
  show ((View.write (Elt F) (i5V).view g (idxPay m d L) Finset.univ) ((iRow6).view.emb x)).toNat < 1001
  exact Nat.lt_of_le_of_lt (i5_written_le m d L hr g _) (by decide)
omit [FloatOps F] in
theorem hin7 (hr : Cert.Spec.InRange (m (aLoc d))) (g : Buf (Elt F) ((i5V).view.loc (V d (cV L) (jV L)))) :
    ∀ x, ((iRow7).view.read (Elt F) (View.write (Elt F) (i5V).view g (idxPay m d L) Finset.univ) x).toNat < S1001x128.size gathers_S1001x128_S64x128.axis := by
  intro x
  show ((View.write (Elt F) (i5V).view g (idxPay m d L) Finset.univ) ((iRow7).view.emb x)).toNat < 1001
  exact Nat.lt_of_le_of_lt (i5_written_le m d L hr g _) (by decide)

omit [FloatOps F] in
/-- The shared copy, once tile 0 has copied the table into it, holds the table. -/
theorem shared_written (g : Buf (Elt F) (shLoc d (cV L))) :
    View.write (Elt F) (shV).view g (ReadAs.same.apply ((tbV).view.read (Elt F) (m (tbLoc d)))) Finset.univ = shC m d (cV L) := by
  funext i
  have e : (shV).view.emb i = i := rfl
  rw [← e, View.write_emb_of_mem _ _ (Finset.mem_univ i)]
  rfl

end Tile

end Cert.Proof.KernelIdeal

end
-- ==== Proof.KernelIdeal.TileValue.lean ====
/-
  The value a task writes. Task `w` holds row `w` of the index array in its list scratch: entry `(k, x)` is index number
  `512·w + 64·k + x` of the index vector. Gather `k` fills rows `64·k …` of the rows scratch with the table rows its
  list names, so row `z` of the rows scratch is the table row that index number `512·w + z` names: the function the
  result holds at row `512·w + z`. Block `j` of the rows scratch is copied to rows `512·w + 64·j …` of the result.
-/
import proofs.«206951_g4793183502620_cont_8to1_c_898_7_alg».proof.Proof.KernelIdeal.TileFacts

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

local notation "ixV" => (Memref.whole Cert.KernelIdeal.main_v0_scv : Memref Cert.KernelIdeal.sig Kind.scVector Space.hbm Cert.KernelIdeal.S32x8x64 EltTy.i32)
local notation "tbV" => (Memref.whole Cert.KernelIdeal.main_arg1_scv : Memref Cert.KernelIdeal.sig Kind.scVector Space.hbm Cert.KernelIdeal.S1001x128 EltTy.f32)
local notation "oV" => (Memref.whole Cert.KernelIdeal.main_v1_scv : Memref Cert.KernelIdeal.sig Kind.scVector Space.hbm Cert.KernelIdeal.S16384x128 EltTy.f32)
local notation "i5V" => (Memref.whole Cert.KernelIdeal.cc0_scratch0 : Memref Cert.KernelIdeal.sig Kind.scVector Space.vmem Cert.KernelIdeal.S8x64 EltTy.i32)
local notation "r6V" => (Memref.whole Cert.KernelIdeal.cc0_scratch1 : Memref Cert.KernelIdeal.sig Kind.scVector Space.vmem Cert.KernelIdeal.S512x128 EltTy.f32)
local notation "shV" => (Memref.whole Cert.KernelIdeal.cc0_scratch2 : Memref Cert.KernelIdeal.sig Kind.scVector Space.shared Cert.KernelIdeal.S1001x128 EltTy.f32)

variable [FloatOps F]

section Tile

variable (d : Dev nD) (L : grid0.Coords)

open Idealize.ShloMosaic.ValueIdx

/-! ## The memrefs of list `k`, for a variable `k` -/

omit [FloatOps F] in
theorem inbI (k : Fin 8) : ∀ a, (![k.val, 0] : Fin 2 → Nat) a + S1x64.size a ≤ S8x64.size a := by
  intro a
  match a with
  | 0 => show k.val + 1 ≤ 8; omega
  | 1 => show 0 + 64 ≤ 64; omega
omit [FloatOps F] in
theorem inbR (k : Fin 8) : ∀ a, (![64 * k.val, 0] : Fin 2 → Nat) a + S64x128.size a ≤ S512x128.size a := by
  intro a
  match a with
  | 0 => show 64 * k.val + 64 ≤ 512; omega
  | 1 => show 0 + 128 ≤ 128; omega

/-- List `k` of the list scratch, squeezed, as gather `k` addresses it. -/
abbrev iRowK (k : Fin 8) : Memref sig .scVector .vmem S64 .i32 :=
  ((i5V).slice (Rect.unit (s := S8x64) ![k.val, 0] S1x64.size (inbI k)) (fun _ => rfl)).squeeze S64 squeezes_S1x64_S64
/-- Block `k` of the rows scratch. -/
abbrev rRectK (k : Fin 8) : Rect S512x128 := Rect.unit (s := S512x128) ![64 * k.val, 0] S64x128.size (inbR k)
abbrev rChK (k : Fin 8) : Memref sig .scVector .vmem S64x128 .f32 := (r6V).slice (rRectK k) (fun _ => rfl)

omit [FloatOps F] in
theorem iRow0_eq : iRow0 = iRowK 0 := rfl
omit [FloatOps F] in
theorem iRow3_eq : iRow3 = iRowK 3 := rfl
omit [FloatOps F] in
theorem rCh5_eq : rCh5 = rChK 5 := rfl

/-! ## What the lists hold, by index number -/

omit [FloatOps F] in
/-- Squeezing the leading unit axis: the index behind the coordinate `0`. -/
theorem squeeze_S8x64 (h : S8x64.numel = S1x8x64.numel) (y : S8x64.Idx) (a : Fin 3) :
    (Shape.reshapeEquiv h y a).val = match a with | 0 => 0 | 1 => (y 0).val | 2 => (y 1).val := by
  rw [Shape.reshapeEquiv_cons_one (n := 2) (d := ![8, 64]) h y]
  match a with
  | 0 => rfl
  | 1 => rfl
  | 2 => rfl

omit [FloatOps F] in
/-- Where entry `y` of the task's row sits in the index array: row `w`, list `y₀`, place `y₁`. -/
theorem ixRowK_emb (y : S8x64.Idx) (a : Fin 3) :
    (((ixRowK L).view.emb y : S32x8x64.Idx) a).val = match a with | 0 => (wid (cL L) (jL L)).val | 1 => (y 0).val | 2 => (y 1).val := by
  show ((Rect.unit (s := S32x8x64) (k0_off1 L) S1x8x64.size (k0_off1_inb L)).emb (Shape.reshapeEquiv squeezes_S1x8x64_S8x64.numel_eq y) a).val = _
  rw [Rect.emb_apply, squeeze_S8x64, Rect.off_unit, Rect.stride_unit, k0_off1_eq]
  match a with
  | 0 => simp [wid]
  | 1 => simp
  | 2 => simp

omit [FloatOps F] in
/-- Entry `y` of the task's lists is index number `512·w + 64·y₀ + y₁` of the index vector. -/
theorem idxPay_eq (y : S8x64.Idx) (p : Fin 16384) (hp : p.val = 512 * (wid (cL L) (jL L)).val + 64 * (y 0).val + (y 1).val) :
    idxPay m d L y = m (aLoc d) (ix1 p) := by
  show m (aLoc d) (Shape.reshapeEquiv shapeCasts_S16384_S32x8x64 ((ixRowK L).view.emb y)) = _
  congr 1
  apply Shape.reshapeEquiv_eq_of_rowMajor
  rw [Shape.rowMajor_val_one, Shape.rowMajor_val_three, ixRowK_emb, ixRowK_emb, ixRowK_emb]
  show p.val = ((wid (cL L) (jL L)).val * 8 + (y 0).val) * 64 + (y 1).val
  omega

omit [FloatOps F] in
/-- Squeezing the leading unit axis of a list. -/
theorem squeeze_S64 (h : S64.numel = S1x64.numel) (x : S64.Idx) (a : Fin 2) :
    (Shape.reshapeEquiv h x a).val = match a with | 0 => 0 | 1 => (x 0).val := by
  rw [Shape.reshapeEquiv_cons_one (n := 1) (d := ![64]) h x]
  match a with
  | 0 => rfl
  | 1 => rfl

omit [FloatOps F] in
/-- Where entry `x` of list `k` sits in the list scratch: row `k`, place `x`. -/
theorem iRowK_emb (k : Fin 8) (x : S64.Idx) (a : Fin 2) :
    (((iRowK k).view.emb x : S8x64.Idx) a).val = match a with | 0 => k.val | 1 => (x 0).val := by
  show ((Rect.unit (s := S8x64) ![k.val, 0] S1x64.size (inbI k)).emb (Shape.reshapeEquiv squeezes_S1x64_S64.numel_eq x) a).val = _
  rw [Rect.emb_apply, squeeze_S64, Rect.off_unit, Rect.stride_unit]
  match a with
  | 0 => simp
  | 1 => simp

omit [FloatOps F] in
/-- Entry `x` of list `k`, read from the list scratch once the task's row has landed in it: index number
    `512·w + 64·k + x` of the index vector. -/
theorem iRowK_read (k : Fin 8) (g5 : Buf (Elt F) ((i5V).view.loc (V d (cV L) (jV L)))) (x : S64.Idx)
    (p : Fin 16384) (hp : p.val = 512 * (wid (cL L) (jL L)).val + 64 * k.val + (x 0).val) :
    (iRowK k).view.read (Elt F) (View.write (Elt F) (i5V).view g5 (idxPay m d L) Finset.univ) x = m (aLoc d) (ix1 p) := by
  show (View.write (Elt F) (i5V).view g5 (idxPay m d L) Finset.univ) ((iRowK k).view.emb x) = _
  have e : (i5V).view.emb ((iRowK k).view.emb x) = (iRowK k).view.emb x := rfl
  rw [← e, View.write_emb_of_mem _ _ (Finset.mem_univ _)]
  refine idxPay_eq m d L _ p ?_
  rw [iRowK_emb, iRowK_emb]
  exact hp

omit [FloatOps F] in
/-- The index of a list at row-major position `j` has coordinate `j`. -/
theorem rowMajor_symm_S64 (j : Fin S64.numel) : ((S64.rowMajor.symm j) 0).val = j.val := by
  have h := Shape.rowMajor_val_one (S64.rowMajor.symm j)
  rw [Equiv.apply_symm_apply] at h
  exact h.symm

/-! ## What a gather writes -/

/-- Gather `k`'s payload, for a variable `k`. -/
abbrev gathK (k : Fin 8) (g5 : Buf (Elt F) ((i5V).view.loc (V d (cV L) (jV L))))
    (h : ∀ x, ((iRowK k).view.read (Elt F) (View.write (Elt F) (i5V).view g5 (idxPay m d L) Finset.univ) x).toNat < S1001x128.size gathers_S1001x128_S64x128.axis) :
    S64x128.Idx → Elt F .f32 :=
  SparseCore.gatherPayload gathers_S1001x128_S64x128 ((shSl).view.read (Elt F) (m (tbLoc d)))
    (SparseCore.rows ((iRowK k).view.read (Elt F) (View.write (Elt F) (i5V).view g5 (idxPay m d L) Finset.univ)) rfl h)

/-- Gather `k`'s payload at `x` is the result's value at row `512·w + 64·k + x₀`, lane `x₁`. -/
theorem gathK_eq (hr : Cert.Spec.InRange (m (aLoc d))) (k : Fin 8) (g5 : Buf (Elt F) ((i5V).view.loc (V d (cV L) (jV L))))
    (h : ∀ x, ((iRowK k).view.read (Elt F) (View.write (Elt F) (i5V).view g5 (idxPay m d L) Finset.univ) x).toNat < S1001x128.size gathers_S1001x128_S64x128.axis)
    (x : S64x128.Idx) (q : S16384x128.Idx) (hq0 : (q 0).val = 512 * (wid (cL L) (jL L)).val + 64 * k.val + (x 0).val) (hq1 : (q 1).val = (x 1).val) :
    gathK m d L k g5 h x = G m d q := by
  show m (tbLoc d) ((shSl).view.emb (gathers_S1001x128_S64x128.idx
      (SparseCore.rows ((iRowK k).view.read (Elt F) (View.write (Elt F) (i5V).view g5 (idxPay m d L) Finset.univ)) rfl h) x))
    = m (tbLoc d) (ix2 (Cert.Spec.rowOf (m (aLoc d)) ⟨(q 0).val, (q 0).isLt⟩) (⟨(q 1).val, (q 1).isLt⟩ : Fin 128))
  congr 1
  funext a
  apply Fin.ext
  match a with
  | 0 =>
    show 0 + 1 * (gathers_S1001x128_S64x128.idx (SparseCore.rows ((iRowK k).view.read (Elt F) (View.write (Elt F) (i5V).view g5 (idxPay m d L) Finset.univ)) rfl h) x (0 : Fin 2)).val
      = (Cert.Spec.rowOf (m (aLoc d)) ⟨(q 0).val, (q 0).isLt⟩).val
    have h0 : (gathers_S1001x128_S64x128.idx (SparseCore.rows ((iRowK k).view.read (Elt F) (View.write (Elt F) (i5V).view g5 (idxPay m d L) Finset.univ)) rfl h) x (0 : Fin 2)).val = (SparseCore.rows ((iRowK k).view.read (Elt F) (View.write (Elt F) (i5V).view g5 (idxPay m d L) Finset.univ)) rfl h (x 0)).val :=
      congrArg Fin.val (gathers_S1001x128_S64x128.idx_axis (SparseCore.rows ((iRowK k).view.read (Elt F) (View.write (Elt F) (i5V).view g5 (idxPay m d L) Finset.univ)) rfl h) x)
    rw [h0, Cert.Spec.rowOf_val hr, Nat.zero_add, Nat.one_mul]
    show ((iRowK k).view.read (Elt F) (View.write (Elt F) (i5V).view g5 (idxPay m d L) Finset.univ) (S64.rowMajor.symm (Fin.cast _ (x 0)))).toNat = _
    rw [iRowK_read m d L k g5 _ ⟨(q 0).val, (q 0).isLt⟩ (by rw [rowMajor_symm_S64]; exact hq0)]
  | 1 =>
    show 0 + 1 * (gathers_S1001x128_S64x128.idx (SparseCore.rows ((iRowK k).view.read (Elt F) (View.write (Elt F) (i5V).view g5 (idxPay m d L) Finset.univ)) rfl h) x (1 : Fin 2)).val = (q 1).val
    have h1 := gathers_S1001x128_S64x128.idx_of_ne (SparseCore.rows ((iRowK k).view.read (Elt F) (View.write (Elt F) (i5V).view g5 (idxPay m d L) Finset.univ)) rfl h) x (1 : Fin 2) (by decide)
    rw [h1, hq1, Nat.zero_add, Nat.one_mul]
    rfl

/-- Row `z` of the rows scratch once the eight gathers have landed: the result's row `512·w + z`. -/
def rowsG : S512x128.Idx → Elt F .f32 := fun z =>
  G m d (ix2 (⟨512 * (wid (cL L) (jL L)).val + (z 0).val, by have := idx2_lt0 z; have := (wid (cL L) (jL L)).isLt; omega⟩ : Fin 16384)
    (⟨(z 1).val, idx2_lt1 z⟩ : Fin 128))

/-- Gather `k`'s payload is that function on block `k` of the rows scratch. -/
theorem gathK_piece (hr : Cert.Spec.InRange (m (aLoc d))) (k : Fin 8) (g5 : Buf (Elt F) ((i5V).view.loc (V d (cV L) (jV L))))
    (h : ∀ x, ((iRowK k).view.read (Elt F) (View.write (Elt F) (i5V).view g5 (idxPay m d L) Finset.univ) x).toNat < S1001x128.size gathers_S1001x128_S64x128.axis)
    (x : S64x128.Idx) : gathK m d L k g5 h x = rowsG m d L ((rRectK k).emb x) := by
  unfold rowsG
  refine gathK_eq m d L hr k g5 h x _ ?_ ?_
  · show 512 * (wid (cL L) (jL L)).val + (64 * k.val + 1 * (x 0).val) = 512 * (wid (cL L) (jL L)).val + 64 * k.val + (x 0).val
    omega
  · show 0 + 1 * (x 1).val = (x 1).val
    omega

/-! ## The eight gathers, in the program's spelling -/

abbrev gath0 (g5 : Buf (Elt F) ((i5V).view.loc (V d (cV L) (jV L)))) (h : ∀ x, ((iRow0).view.read (Elt F) (View.write (Elt F) (i5V).view g5 (idxPay m d L) Finset.univ) x).toNat < S1001x128.size gathers_S1001x128_S64x128.axis) : S64x128.Idx → Elt F .f32 :=
  SparseCore.gatherPayload gathers_S1001x128_S64x128 ((shSl).view.read (Elt F) (m (tbLoc d)))
    (SparseCore.rows ((iRow0).view.read (Elt F) (View.write (Elt F) (i5V).view g5 (idxPay m d L) Finset.univ)) rfl h)
abbrev gath1 (g5 : Buf (Elt F) ((i5V).view.loc (V d (cV L) (jV L)))) (h : ∀ x, ((iRow1).view.read (Elt F) (View.write (Elt F) (i5V).view g5 (idxPay m d L) Finset.univ) x).toNat < S1001x128.size gathers_S1001x128_S64x128.axis) : S64x128.Idx → Elt F .f32 :=
  SparseCore.gatherPayload gathers_S1001x128_S64x128 ((shSl).view.read (Elt F) (m (tbLoc d)))
    (SparseCore.rows ((iRow1).view.read (Elt F) (View.write (Elt F) (i5V).view g5 (idxPay m d L) Finset.univ)) rfl h)
abbrev gath2 (g5 : Buf (Elt F) ((i5V).view.loc (V d (cV L) (jV L)))) (h : ∀ x, ((iRow2).view.read (Elt F) (View.write (Elt F) (i5V).view g5 (idxPay m d L) Finset.univ) x).toNat < S1001x128.size gathers_S1001x128_S64x128.axis) : S64x128.Idx → Elt F .f32 :=
  SparseCore.gatherPayload gathers_S1001x128_S64x128 ((shSl).view.read (Elt F) (m (tbLoc d)))
    (SparseCore.rows ((iRow2).view.read (Elt F) (View.write (Elt F) (i5V).view g5 (idxPay m d L) Finset.univ)) rfl h)
abbrev gath3 (g5 : Buf (Elt F) ((i5V).view.loc (V d (cV L) (jV L)))) (h : ∀ x, ((iRow3).view.read (Elt F) (View.write (Elt F) (i5V).view g5 (idxPay m d L) Finset.univ) x).toNat < S1001x128.size gathers_S1001x128_S64x128.axis) : S64x128.Idx → Elt F .f32 :=
  SparseCore.gatherPayload gathers_S1001x128_S64x128 ((shSl).view.read (Elt F) (m (tbLoc d)))
    (SparseCore.rows ((iRow3).view.read (Elt F) (View.write (Elt F) (i5V).view g5 (idxPay m d L) Finset.univ)) rfl h)
abbrev gath4 (g5 : Buf (Elt F) ((i5V).view.loc (V d (cV L) (jV L)))) (h : ∀ x, ((iRow4).view.read (Elt F) (View.write (Elt F) (i5V).view g5 (idxPay m d L) Finset.univ) x).toNat < S1001x128.size gathers_S1001x128_S64x128.axis) : S64x128.Idx → Elt F .f32 :=
  SparseCore.gatherPayload gathers_S1001x128_S64x128 ((shSl).view.read (Elt F) (m (tbLoc d)))
    (SparseCore.rows ((iRow4).view.read (Elt F) (View.write (Elt F) (i5V).view g5 (idxPay m d L) Finset.univ)) rfl h)
abbrev gath5 (g5 : Buf (Elt F) ((i5V).view.loc (V d (cV L) (jV L)))) (h : ∀ x, ((iRow5).view.read (Elt F) (View.write (Elt F) (i5V).view g5 (idxPay m d L) Finset.univ) x).toNat < S1001x128.size gathers_S1001x128_S64x128.axis) : S64x128.Idx → Elt F .f32 :=
  SparseCore.gatherPayload gathers_S1001x128_S64x128 ((shSl).view.read (Elt F) (m (tbLoc d)))
    (SparseCore.rows ((iRow5).view.read (Elt F) (View.write (Elt F) (i5V).view g5 (idxPay m d L) Finset.univ)) rfl h)
abbrev gath6 (g5 : Buf (Elt F) ((i5V).view.loc (V d (cV L) (jV L)))) (h : ∀ x, ((iRow6).view.read (Elt F) (View.write (Elt F) (i5V).view g5 (idxPay m d L) Finset.univ) x).toNat < S1001x128.size gathers_S1001x128_S64x128.axis) : S64x128.Idx → Elt F .f32 :=
  SparseCore.gatherPayload gathers_S1001x128_S64x128 ((shSl).view.read (Elt F) (m (tbLoc d)))
    (SparseCore.rows ((iRow6).view.read (Elt F) (View.write (Elt F) (i5V).view g5 (idxPay m d L) Finset.univ)) rfl h)
abbrev gath7 (g5 : Buf (Elt F) ((i5V).view.loc (V d (cV L) (jV L)))) (h : ∀ x, ((iRow7).view.read (Elt F) (View.write (Elt F) (i5V).view g5 (idxPay m d L) Finset.univ) x).toNat < S1001x128.size gathers_S1001x128_S64x128.axis) : S64x128.Idx → Elt F .f32 :=
  SparseCore.gatherPayload gathers_S1001x128_S64x128 ((shSl).view.read (Elt F) (m (tbLoc d)))
    (SparseCore.rows ((iRow7).view.read (Elt F) (View.write (Elt F) (i5V).view g5 (idxPay m d L) Finset.univ)) rfl h)

/-- What the run leaves in the rows scratch: the eight gathers' payloads, the last issued first. -/
abbrev gathList (g5 : Buf (Elt F) ((i5V).view.loc (V d (cV L) (jV L)))) (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis) : List (View.Piece (Elt F) S512x128 .f32) :=
  [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩]

/-- Every piece is the one function `rowsG` on its block. -/
theorem gathList_ok (hr : Cert.Spec.InRange (m (aLoc d))) (g5 : Buf (Elt F) ((i5V).view.loc (V d (cV L) (jV L)))) (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis) :
    ∀ p ∈ gathList m d L g5 h0 h1 h2 h3 h4 h5 h6 h7, ∀ x : p.1.shape.Idx, p.2 x = rowsG m d L (p.1.emb x) :=
  List.forall_mem_cons.mpr ⟨fun x => gathK_piece m d L hr 7 g5 h7 x,
  List.forall_mem_cons.mpr ⟨fun x => gathK_piece m d L hr 6 g5 h6 x,
  List.forall_mem_cons.mpr ⟨fun x => gathK_piece m d L hr 5 g5 h5 x,
  List.forall_mem_cons.mpr ⟨fun x => gathK_piece m d L hr 4 g5 h4 x,
  List.forall_mem_cons.mpr ⟨fun x => gathK_piece m d L hr 3 g5 h3 x,
  List.forall_mem_cons.mpr ⟨fun x => gathK_piece m d L hr 2 g5 h2 x,
  List.forall_mem_cons.mpr ⟨fun x => gathK_piece m d L hr 1 g5 h1 x,
  List.forall_mem_cons.mpr ⟨fun x => gathK_piece m d L hr 0 g5 h0 x,
  fun _ hp => absurd hp List.not_mem_nil⟩⟩⟩⟩⟩⟩⟩⟩

/-! ## What the copy out of block `j` carries -/

/-- Block `j` of the rows scratch, read after the gathers, is the result on rows `512·w + 64·j …`. -/
theorem pay_valueK (hr : Cert.Spec.InRange (m (aLoc d))) (g5 : Buf (Elt F) ((i5V).view.loc (V d (cV L) (jV L)))) (f6 : Buf (Elt F) ((r6V).view.loc (V d (cV L) (jV L)))) (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (j : Fin 8) (y : S64x128.Idx) (hmem : ∃ p ∈ gathList m d L g5 h0 h1 h2 h3 h4 h5 h6 h7, p.1 = rRectK j) :
    ReadAs.same.apply ((rChK j).view.read (Elt F) ((r6V).view.writes (Elt F) f6 (gathList m d L g5 h0 h1 h2 h3 h4 h5 h6 h7))) y
      = G m d ((oChK L j).view.emb y) := by
  obtain ⟨p, hp, e⟩ := hmem
  have hcov : ∃ p ∈ gathList m d L g5 h0 h1 h2 h3 h4 h5 h6 h7, (rRectK j).emb y ∈ p.1.set :=
    ⟨p, hp, by rw [e]; exact LoadRect.idx_mem (rRectK j).toLoadRect y⟩
  show (r6V).view.read (Elt F) ((r6V).view.writes (Elt F) f6 (gathList m d L g5 h0 h1 h2 h3 h4 h5 h6 h7)) ((rRectK j).emb y) = _
  rw [View.read_writes_apply_of_pieces (r6V).view f6 (rowsG m d L) _ (gathList_ok m d L hr g5 h0 h1 h2 h3 h4 h5 h6 h7) _ hcov]
  unfold rowsG
  congr 1
  funext a
  apply Fin.ext
  match a with
  | 0 =>
    show 512 * (wid (cL L) (jL L)).val + (64 * j.val + 1 * (y 0).val) = k0_off2 L (BitVec.ofNat 32 (64 * j.val)) 0 + 1 * (y 0).val
    rw [k0_off2_eq]
    show 512 * (2 * (L 1).val + (L 0).val) + (64 * j.val + 1 * (y 0).val) = 1024 * (L 1).val + 512 * (L 0).val + 64 * j.val + 1 * (y 0).val
    omega
  | 1 =>
    show 0 + 1 * (y 1).val = k0_off2 L (BitVec.ofNat 32 (64 * j.val)) 1 + 1 * (y 1).val
    rw [k0_off2_eq]
    rfl

theorem pay_value0 (hr : Cert.Spec.InRange (m (aLoc d))) (g5 : Buf (Elt F) ((i5V).view.loc (V d (cV L) (jV L)))) (f6 : Buf (Elt F) ((r6V).view.loc (V d (cV L) (jV L))))
    (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (y : S64x128.Idx) :
    ReadAs.same.apply ((rCh0).view.read (Elt F) ((r6V).view.writes (Elt F) f6
      [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩])) y
      = G m d ((oCh0 L).view.emb y) :=
  pay_valueK m d L hr g5 f6 h0 h1 h2 h3 h4 h5 h6 h7 0 y ⟨_, (List.mem_cons_of_mem _ (List.mem_cons_of_mem _ (List.mem_cons_of_mem _ (List.mem_cons_of_mem _ (List.mem_cons_of_mem _ (List.mem_cons_of_mem _ (List.mem_cons_of_mem _ List.mem_cons_self))))))), rfl⟩
theorem pay_value1 (hr : Cert.Spec.InRange (m (aLoc d))) (g5 : Buf (Elt F) ((i5V).view.loc (V d (cV L) (jV L)))) (f6 : Buf (Elt F) ((r6V).view.loc (V d (cV L) (jV L))))
    (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (y : S64x128.Idx) :
    ReadAs.same.apply ((rCh1).view.read (Elt F) ((r6V).view.writes (Elt F) f6
      [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩])) y
      = G m d ((oCh1 L).view.emb y) :=
  pay_valueK m d L hr g5 f6 h0 h1 h2 h3 h4 h5 h6 h7 1 y ⟨_, (List.mem_cons_of_mem _ (List.mem_cons_of_mem _ (List.mem_cons_of_mem _ (List.mem_cons_of_mem _ (List.mem_cons_of_mem _ (List.mem_cons_of_mem _ List.mem_cons_self)))))), rfl⟩
theorem pay_value2 (hr : Cert.Spec.InRange (m (aLoc d))) (g5 : Buf (Elt F) ((i5V).view.loc (V d (cV L) (jV L)))) (f6 : Buf (Elt F) ((r6V).view.loc (V d (cV L) (jV L))))
    (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (y : S64x128.Idx) :
    ReadAs.same.apply ((rCh2).view.read (Elt F) ((r6V).view.writes (Elt F) f6
      [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩])) y
      = G m d ((oCh2 L).view.emb y) :=
  pay_valueK m d L hr g5 f6 h0 h1 h2 h3 h4 h5 h6 h7 2 y ⟨_, (List.mem_cons_of_mem _ (List.mem_cons_of_mem _ (List.mem_cons_of_mem _ (List.mem_cons_of_mem _ (List.mem_cons_of_mem _ List.mem_cons_self))))), rfl⟩
theorem pay_value3 (hr : Cert.Spec.InRange (m (aLoc d))) (g5 : Buf (Elt F) ((i5V).view.loc (V d (cV L) (jV L)))) (f6 : Buf (Elt F) ((r6V).view.loc (V d (cV L) (jV L))))
    (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (y : S64x128.Idx) :
    ReadAs.same.apply ((rCh3).view.read (Elt F) ((r6V).view.writes (Elt F) f6
      [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩])) y
      = G m d ((oCh3 L).view.emb y) :=
  pay_valueK m d L hr g5 f6 h0 h1 h2 h3 h4 h5 h6 h7 3 y ⟨_, (List.mem_cons_of_mem _ (List.mem_cons_of_mem _ (List.mem_cons_of_mem _ (List.mem_cons_of_mem _ List.mem_cons_self)))), rfl⟩
theorem pay_value4 (hr : Cert.Spec.InRange (m (aLoc d))) (g5 : Buf (Elt F) ((i5V).view.loc (V d (cV L) (jV L)))) (f6 : Buf (Elt F) ((r6V).view.loc (V d (cV L) (jV L))))
    (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (y : S64x128.Idx) :
    ReadAs.same.apply ((rCh4).view.read (Elt F) ((r6V).view.writes (Elt F) f6
      [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩])) y
      = G m d ((oCh4 L).view.emb y) :=
  pay_valueK m d L hr g5 f6 h0 h1 h2 h3 h4 h5 h6 h7 4 y ⟨_, (List.mem_cons_of_mem _ (List.mem_cons_of_mem _ (List.mem_cons_of_mem _ List.mem_cons_self))), rfl⟩
theorem pay_value5 (hr : Cert.Spec.InRange (m (aLoc d))) (g5 : Buf (Elt F) ((i5V).view.loc (V d (cV L) (jV L)))) (f6 : Buf (Elt F) ((r6V).view.loc (V d (cV L) (jV L))))
    (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (y : S64x128.Idx) :
    ReadAs.same.apply ((rCh5).view.read (Elt F) ((r6V).view.writes (Elt F) f6
      [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩])) y
      = G m d ((oCh5 L).view.emb y) :=
  pay_valueK m d L hr g5 f6 h0 h1 h2 h3 h4 h5 h6 h7 5 y ⟨_, (List.mem_cons_of_mem _ (List.mem_cons_of_mem _ List.mem_cons_self)), rfl⟩
theorem pay_value6 (hr : Cert.Spec.InRange (m (aLoc d))) (g5 : Buf (Elt F) ((i5V).view.loc (V d (cV L) (jV L)))) (f6 : Buf (Elt F) ((r6V).view.loc (V d (cV L) (jV L))))
    (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (y : S64x128.Idx) :
    ReadAs.same.apply ((rCh6).view.read (Elt F) ((r6V).view.writes (Elt F) f6
      [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩])) y
      = G m d ((oCh6 L).view.emb y) :=
  pay_valueK m d L hr g5 f6 h0 h1 h2 h3 h4 h5 h6 h7 6 y ⟨_, (List.mem_cons_of_mem _ List.mem_cons_self), rfl⟩
theorem pay_value7 (hr : Cert.Spec.InRange (m (aLoc d))) (g5 : Buf (Elt F) ((i5V).view.loc (V d (cV L) (jV L)))) (f6 : Buf (Elt F) ((r6V).view.loc (V d (cV L) (jV L))))
    (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (y : S64x128.Idx) :
    ReadAs.same.apply ((rCh7).view.read (Elt F) ((r6V).view.writes (Elt F) f6
      [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩])) y
      = G m d ((oCh7 L).view.emb y) :=
  pay_valueK m d L hr g5 f6 h0 h1 h2 h3 h4 h5 h6 h7 7 y ⟨_, List.mem_cons_self, rfl⟩

/-! ## The result's blocks once written -/

omit [FloatOps F] in
/-- The whole rectangle places an index at itself. -/
theorem whole_emb_S64x128 (y : S64x128.Idx) : (Rect.whole S64x128).emb y = y := by
  funext a
  apply Fin.ext
  rw [Rect.emb_apply]
  show 0 + 1 * (y a).val = (y a).val
  omega

omit [FloatOps F] in
/-- Block `r` of the task's result rows, written whole with a payload that is the result there, holds the result. -/
theorem out_ptsK (r : Fin 8) (pay : S64x128.Idx → Elt F .f32) (hpay : ∀ y, pay y = G m d ((oChK L r).view.emb y)) :
    ((oChK L r).view.loc (V d (cV L) (jV L)) ↦[(oChK L r).view.set]{fullShare} (oChK L r).view.writes (Elt F) (m (oLoc d)) [⟨Rect.whole S64x128, pay⟩] : sProp 𝕄)
      = oLoc d ↦[oSet (chunk (wid (cL L) (jL L)) r)]{fullShare} G m d := by
  rw [← pts_oChK d L r (G m d)]
  refine pointsTo_congr fun i hi => ?_
  obtain ⟨y, -, rfl⟩ := Finset.mem_map.mp hi
  have h := View.read_writes_cons_emb (oChK L r).view (m (oLoc d)) (Rect.whole S64x128) pay [] y
  rw [whole_emb_S64x128, View.read_apply] at h
  rw [← hpay y, ← h]
  rfl

omit [FloatOps F] in
theorem out_pts0 (pay : S64x128.Idx → Elt F .f32) (hpay : ∀ y, pay y = G m d ((oCh0 L).view.emb y)) :
    ((oCh0 L).view.loc (V d (cV L) (jV L)) ↦[(oCh0 L).view.set]{fullShare} (oCh0 L).view.writes (Elt F) (m (oLoc d)) [⟨Rect.whole S64x128, pay⟩] : sProp 𝕄)
      = oLoc d ↦[oSet (chunk (wid (cL L) (jL L)) 0)]{fullShare} G m d :=
  out_ptsK m d L 0 pay hpay
omit [FloatOps F] in
theorem out_pts1 (pay : S64x128.Idx → Elt F .f32) (hpay : ∀ y, pay y = G m d ((oCh1 L).view.emb y)) :
    ((oCh1 L).view.loc (V d (cV L) (jV L)) ↦[(oCh1 L).view.set]{fullShare} (oCh1 L).view.writes (Elt F) (m (oLoc d)) [⟨Rect.whole S64x128, pay⟩] : sProp 𝕄)
      = oLoc d ↦[oSet (chunk (wid (cL L) (jL L)) 1)]{fullShare} G m d :=
  out_ptsK m d L 1 pay hpay
omit [FloatOps F] in
theorem out_pts2 (pay : S64x128.Idx → Elt F .f32) (hpay : ∀ y, pay y = G m d ((oCh2 L).view.emb y)) :
    ((oCh2 L).view.loc (V d (cV L) (jV L)) ↦[(oCh2 L).view.set]{fullShare} (oCh2 L).view.writes (Elt F) (m (oLoc d)) [⟨Rect.whole S64x128, pay⟩] : sProp 𝕄)
      = oLoc d ↦[oSet (chunk (wid (cL L) (jL L)) 2)]{fullShare} G m d :=
  out_ptsK m d L 2 pay hpay
omit [FloatOps F] in
theorem out_pts3 (pay : S64x128.Idx → Elt F .f32) (hpay : ∀ y, pay y = G m d ((oCh3 L).view.emb y)) :
    ((oCh3 L).view.loc (V d (cV L) (jV L)) ↦[(oCh3 L).view.set]{fullShare} (oCh3 L).view.writes (Elt F) (m (oLoc d)) [⟨Rect.whole S64x128, pay⟩] : sProp 𝕄)
      = oLoc d ↦[oSet (chunk (wid (cL L) (jL L)) 3)]{fullShare} G m d :=
  out_ptsK m d L 3 pay hpay
omit [FloatOps F] in
theorem out_pts4 (pay : S64x128.Idx → Elt F .f32) (hpay : ∀ y, pay y = G m d ((oCh4 L).view.emb y)) :
    ((oCh4 L).view.loc (V d (cV L) (jV L)) ↦[(oCh4 L).view.set]{fullShare} (oCh4 L).view.writes (Elt F) (m (oLoc d)) [⟨Rect.whole S64x128, pay⟩] : sProp 𝕄)
      = oLoc d ↦[oSet (chunk (wid (cL L) (jL L)) 4)]{fullShare} G m d :=
  out_ptsK m d L 4 pay hpay
omit [FloatOps F] in
theorem out_pts5 (pay : S64x128.Idx → Elt F .f32) (hpay : ∀ y, pay y = G m d ((oCh5 L).view.emb y)) :
    ((oCh5 L).view.loc (V d (cV L) (jV L)) ↦[(oCh5 L).view.set]{fullShare} (oCh5 L).view.writes (Elt F) (m (oLoc d)) [⟨Rect.whole S64x128, pay⟩] : sProp 𝕄)
      = oLoc d ↦[oSet (chunk (wid (cL L) (jL L)) 5)]{fullShare} G m d :=
  out_ptsK m d L 5 pay hpay
omit [FloatOps F] in
theorem out_pts6 (pay : S64x128.Idx → Elt F .f32) (hpay : ∀ y, pay y = G m d ((oCh6 L).view.emb y)) :
    ((oCh6 L).view.loc (V d (cV L) (jV L)) ↦[(oCh6 L).view.set]{fullShare} (oCh6 L).view.writes (Elt F) (m (oLoc d)) [⟨Rect.whole S64x128, pay⟩] : sProp 𝕄)
      = oLoc d ↦[oSet (chunk (wid (cL L) (jL L)) 6)]{fullShare} G m d :=
  out_ptsK m d L 6 pay hpay
omit [FloatOps F] in
theorem out_pts7 (pay : S64x128.Idx → Elt F .f32) (hpay : ∀ y, pay y = G m d ((oCh7 L).view.emb y)) :
    ((oCh7 L).view.loc (V d (cV L) (jV L)) ↦[(oCh7 L).view.set]{fullShare} (oCh7 L).view.writes (Elt F) (m (oLoc d)) [⟨Rect.whole S64x128, pay⟩] : sProp 𝕄)
      = oLoc d ↦[oSet (chunk (wid (cL L) (jL L)) 7)]{fullShare} G m d :=
  out_ptsK m d L 7 pay hpay

end Tile

end Cert.Proof.KernelIdeal

end
-- ==== Proof.KernelIdeal.TileZero.lean ====
/-
  The lookup task on tile 0 of a SparseCore, proved once at a symbolic SparseCore: the tile that also stages the table
  in the shared memory and deals the read shares at the barrier.
-/
import proofs.«206951_g4793183502620_cont_8to1_c_898_7_alg».proof.Proof.KernelIdeal.TileValue

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

local notation "ixV" => (Memref.whole Cert.KernelIdeal.main_v0_scv : Memref Cert.KernelIdeal.sig Kind.scVector Space.hbm Cert.KernelIdeal.S32x8x64 EltTy.i32)
local notation "tbV" => (Memref.whole Cert.KernelIdeal.main_arg1_scv : Memref Cert.KernelIdeal.sig Kind.scVector Space.hbm Cert.KernelIdeal.S1001x128 EltTy.f32)
local notation "oV" => (Memref.whole Cert.KernelIdeal.main_v1_scv : Memref Cert.KernelIdeal.sig Kind.scVector Space.hbm Cert.KernelIdeal.S16384x128 EltTy.f32)
local notation "i5V" => (Memref.whole Cert.KernelIdeal.cc0_scratch0 : Memref Cert.KernelIdeal.sig Kind.scVector Space.vmem Cert.KernelIdeal.S8x64 EltTy.i32)
local notation "r6V" => (Memref.whole Cert.KernelIdeal.cc0_scratch1 : Memref Cert.KernelIdeal.sig Kind.scVector Space.vmem Cert.KernelIdeal.S512x128 EltTy.f32)
local notation "shV" => (Memref.whole Cert.KernelIdeal.cc0_scratch2 : Memref Cert.KernelIdeal.sig Kind.scVector Space.shared Cert.KernelIdeal.S1001x128 EltTy.f32)

variable [FloatOps F]

section Tile

variable (d : Dev nD) (L : grid0.Coords)

set_option maxRecDepth 100000 in
set_option maxHeartbeats 16000000 in
/-- The task on tile 0 of a SparseCore: its lists fetched, the table copied into the shared memory and cut into the sixteen read shares,
    the barrier (a read share handed to each tile's round, its own read share collected), the eight gathers out of the shared copy, each
    block of gathered rows written to its place in the result once its gather has landed, and the eight writes drained. -/
theorem tile_body_zero (hr : Cert.Spec.InRange (m (aLoc d))) (h0 : (L 1).val = 0) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (ixPts m d (wid (cL L) (jL L)) ∗ (bigSep Finset.univ fun r : Fin 8 => oPts d (chunk (wid (cL L) (jL L)) r) (m (oLoc d)))
            ∗ tbTok m d (cL L).val ∗ ∃ f, shLoc d (cV L) ↦{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__embed_gather L ixV (Memref.isWhole_whole _) tbV (Memref.isWhole_whole _) oV (Memref.isWhole_whole _) i5V (Memref.isWhole_whole _) r6V (Memref.isWhole_whole _) shV (Memref.isWhole_whole _) cc0_scratch3 cc0_scratch4 cc0_scoped0 cc0_scoped1)
          fun _ => iprop((ixPts m d (wid (cL L) (jL L)) ∗ (bigSep Finset.univ fun r : Fin 8 => oPts d (chunk (wid (cL L) (jL L)) r) (G m d))
              ∗ shTok m d (cV L) (jV L).val ∗ tbTok m d (cL L).val ∗ shRest m d (cV L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc0__embed_gather_eq_skeleton]; unfold cc0__embed_gather_skel
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  rw [(K (F := F)).scopedBufs_V hF d (cV L) (jV L), SparseCore.Cfg.scopedSems0_V (Val := Elt F) d (cV L) (jV L), ownSems0_V, ownBufs_V,
    bigSep_fin8 (fun r => oPts d (chunk (wid (cL L) (jL L)) r) (m (oLoc d))), bigSep_fin8 (fun r => oPts d (chunk (wid (cL L) (jL L)) r) (G m d))]
  unfold bkit
  iintro ⟨#Hlv, ⟨⟨%κ, #Hinv⟩, Htoks, #Hrch, Hat, Hcred⟩, ⟨Hix, ⟨Ho0, Ho1, Ho2, Ho3, Ho4, Ho5, Ho6, Ho7, Ho8⟩, Htb, %fsh, Hsh⟩, ⟨⟨%f5, H5⟩, ⟨%f6, H6⟩, Hbufs⟩,
    ⟨Hg0, Hg1, Hg2, Hg3, Hg4, Hg5, Hg6, Hg7, Hw, HsA, HsB, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := (V d (cV L) (jV L))) hO') $$ Hlv
  ihave Hmw2 := (show levAts (K (F := F)).L (K (F := F)).lev ⊢ Transfers.MayWaits (V d (cV L) (jV L)) (default : HIx 1) O from
    (K (F := F)).mayWaits_none (thr := (V d (cV L) (jV L))) hO) $$ Hlv
  ihave Hix' := (Entails.of_eq (pts_ixRowK (F := F) d L _).symm) $$ Hix
  ihave Ho0' := (Entails.of_eq (pts_oCh0 (F := F) d L _).symm) $$ Ho0
  ihave Ho1' := (Entails.of_eq (pts_oCh1 (F := F) d L _).symm) $$ Ho1
  ihave Ho2' := (Entails.of_eq (pts_oCh2 (F := F) d L _).symm) $$ Ho2
  ihave Ho3' := (Entails.of_eq (pts_oCh3 (F := F) d L _).symm) $$ Ho3
  ihave Ho4' := (Entails.of_eq (pts_oCh4 (F := F) d L _).symm) $$ Ho4
  ihave Ho5' := (Entails.of_eq (pts_oCh5 (F := F) d L _).symm) $$ Ho5
  ihave Ho6' := (Entails.of_eq (pts_oCh6 (F := F) d L _).symm) $$ Ho6
  ihave Ho7' := (Entails.of_eq (pts_oCh7 (F := F) d L _).symm) $$ Ho7
  ihave H5' := (Entails.of_eq (pts_i5V (F := F) d L _).symm) $$ H5
  ihave H6' := (Entails.of_eq (pts_r6V (F := F) d L _).symm) $$ H6
  ihave Htb' := (Entails.of_eq (pts_tbV (F := F) d L _ _).symm) $$ Htb
  ihave Hsh' := (Entails.of_eq (pts_shV (F := F) d L _ _).symm) $$ Hsh
  have hc : Scalar.cmpi .ne (Scalar.extui (Scalar.cmpi .eq (BitVec.ofNat 32 (L 1).val) 0#32)) 0#32 = 1#1 := by rw [h0]; decide
  -- the lists fetched, the table copied
  sl_exec
  -- the shared copy now holds the table; cut in sixteen read shares, one per round, the rest kept
  ihave Hsh2 := (Entails.of_eq (show ((shV).view.loc (V d (cV L) (jV L)) ↦{fullShare} View.write (Elt F) (shV).view fsh (tile_body_zero.sl.dma0_1 m d) Finset.univ : sProp 𝕄)
      = shLoc d (cV L) ↦{fullShare} shC m d (cV L) from by
        rw [show tile_body_zero.sl.dma0_1 m d = ReadAs.same.apply ((tbV).view.read (Elt F) (m (tbLoc d))) from rfl, shared_written]; rfl)) $$ Hsh'
  ihave Hcut := (pays_zero (F := F) m d L h0) $$ Hsh2
  icases Hcut with ⟨Hrest, Hpays⟩
  -- the barrier
  rw [Prog.bind_assoc]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := (V d (cV L) (jV L))) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmine := (pays_elim (F := F) m d L) $$ Hgot
  -- the tile's read share of the shared copy, cut in eight for the eight gathers
  ihave Hcut8 := ((Transfers.pointsTo_toks (ℓ := shLoc d (cV L)) (f := shC m d (cV L)) (shareTokN fullShare (jV L).val) 8).1) $$ Hmine
  icases Hcut8 with ⟨Hmrest, Hm8⟩
  ihave Hm8' := (Entails.of_eq (bigSep_fin8 (F := F) (fun i : Fin 8 => (shLoc d (cV L) ↦{Transfers.shareTok (shareTokN fullShare (jV L).val) 8 i} shC m d (cV L) : sProp 𝕄)))) $$ Hm8
  icases Hm8' with ⟨Hm0, Hm1, Hm2, Hm3, Hm4, Hm5, Hm6, Hm7, Hm9⟩
  ihave Hm0' := (Entails.of_eq (pts_shSl (F := F) d L _ _).symm) $$ Hm0
  ihave Hm1' := (Entails.of_eq (pts_shSl (F := F) d L _ _).symm) $$ Hm1
  ihave Hm2' := (Entails.of_eq (pts_shSl (F := F) d L _ _).symm) $$ Hm2
  ihave Hm3' := (Entails.of_eq (pts_shSl (F := F) d L _ _).symm) $$ Hm3
  ihave Hm4' := (Entails.of_eq (pts_shSl (F := F) d L _ _).symm) $$ Hm4
  ihave Hm5' := (Entails.of_eq (pts_shSl (F := F) d L _ _).symm) $$ Hm5
  ihave Hm6' := (Entails.of_eq (pts_shSl (F := F) d L _ _).symm) $$ Hm6
  ihave Hm7' := (Entails.of_eq (pts_shSl (F := F) d L _ _).symm) $$ Hm7
  have hi0 := hin0 m d L hr f5
  have hi1 := hin1 m d L hr f5
  have hi2 := hin2 m d L hr f5
  have hi3 := hin3 m d L hr f5
  have hi4 := hin4 m d L hr f5
  have hi5 := hin5 m d L hr f5
  have hi6 := hin6 m d L hr f5
  have hi7 := hin7 m d L hr f5
  have _plan : Transfers.BatchOf (V d (cV L) (jV L)) (SemLoc.dma cc0_scratch4.sem) 8 := trivial
  -- the gathers, their waits, the writes and their drain
  sl_exec
  sl_step
  isplitl [Hix' Ho0' Ho1' Ho2' Ho3' Ho4' Ho5' Ho6' Ho7' Ho8 Hm0' Hm1' Hm2' Hm3' Hm4' Hm5' Hm6' Hm7' Hmrest Hm9 Htb' Hrest]
  · isplitl [Hix']; · iapply (Entails.of_eq (pts_ixRowK (F := F) d L _)); iexact Hix'
    isplitl [Ho0' Ho1' Ho2' Ho3' Ho4' Ho5' Ho6' Ho7' Ho8]
    · isplitl [Ho0']; · iapply (Entails.of_eq (out_pts0 (F := F) m d L _ (fun y => pay_value0 m d L hr f5 f6 hi0 hi1 hi2 hi3 hi4 hi5 hi6 hi7 y))); iexact Ho0'
      isplitl [Ho1']; · iapply (Entails.of_eq (out_pts1 (F := F) m d L _ (fun y => pay_value1 m d L hr f5 f6 hi0 hi1 hi2 hi3 hi4 hi5 hi6 hi7 y))); iexact Ho1'
      isplitl [Ho2']; · iapply (Entails.of_eq (out_pts2 (F := F) m d L _ (fun y => pay_value2 m d L hr f5 f6 hi0 hi1 hi2 hi3 hi4 hi5 hi6 hi7 y))); iexact Ho2'
      isplitl [Ho3']; · iapply (Entails.of_eq (out_pts3 (F := F) m d L _ (fun y => pay_value3 m d L hr f5 f6 hi0 hi1 hi2 hi3 hi4 hi5 hi6 hi7 y))); iexact Ho3'
      isplitl [Ho4']; · iapply (Entails.of_eq (out_pts4 (F := F) m d L _ (fun y => pay_value4 m d L hr f5 f6 hi0 hi1 hi2 hi3 hi4 hi5 hi6 hi7 y))); iexact Ho4'
      isplitl [Ho5']; · iapply (Entails.of_eq (out_pts5 (F := F) m d L _ (fun y => pay_value5 m d L hr f5 f6 hi0 hi1 hi2 hi3 hi4 hi5 hi6 hi7 y))); iexact Ho5'
      isplitl [Ho6']; · iapply (Entails.of_eq (out_pts6 (F := F) m d L _ (fun y => pay_value6 m d L hr f5 f6 hi0 hi1 hi2 hi3 hi4 hi5 hi6 hi7 y))); iexact Ho6'
      isplitl [Ho7']; · iapply (Entails.of_eq (out_pts7 (F := F) m d L _ (fun y => pay_value7 m d L hr f5 f6 hi0 hi1 hi2 hi3 hi4 hi5 hi6 hi7 y))); iexact Ho7'
      iapply (Entails.of_eq (bigSep_congr fun k _ => k.elim0)); iexact Ho8
    isplitl [Hm0' Hm1' Hm2' Hm3' Hm4' Hm5' Hm6' Hm7' Hmrest Hm9]
    · iapply ((Transfers.pointsTo_toks (ℓ := shLoc d (cV L)) (f := shC m d (cV L)) (shareTokN fullShare (jV L).val) 8).2)
      isplitl [Hmrest]; · iexact Hmrest
      iapply (Entails.of_eq (bigSep_fin8 (F := F) (fun i : Fin 8 => (shLoc d (cV L) ↦{Transfers.shareTok (shareTokN fullShare (jV L).val) 8 i} shC m d (cV L) : sProp 𝕄))).symm)
      isplitl [Hm0']; · iapply (Entails.of_eq (pts_shSl (F := F) d L _ _)); iexact Hm0'
      isplitl [Hm1']; · iapply (Entails.of_eq (pts_shSl (F := F) d L _ _)); iexact Hm1'
      isplitl [Hm2']; · iapply (Entails.of_eq (pts_shSl (F := F) d L _ _)); iexact Hm2'
      isplitl [Hm3']; · iapply (Entails.of_eq (pts_shSl (F := F) d L _ _)); iexact Hm3'
      isplitl [Hm4']; · iapply (Entails.of_eq (pts_shSl (F := F) d L _ _)); iexact Hm4'
      isplitl [Hm5']; · iapply (Entails.of_eq (pts_shSl (F := F) d L _ _)); iexact Hm5'
      isplitl [Hm6']; · iapply (Entails.of_eq (pts_shSl (F := F) d L _ _)); iexact Hm6'
      isplitl [Hm7']; · iapply (Entails.of_eq (pts_shSl (F := F) d L _ _)); iexact Hm7'
      iexact Hm9
    isplitl [Htb']; · iapply (Entails.of_eq (pts_tbV (F := F) d L _ _)); iexact Htb'
    iexact Hrest
  isplitl [H5' H6' Hbufs]
  · isplitl [H5']; · iexists _; iapply (Entails.of_eq (pts_i5V (F := F) d L _)); iexact H5'
    isplitl [H6']; · iexists _; iapply (Entails.of_eq (pts_r6V (F := F) d L _)); iexact H6'
    iexact Hbufs
  isplitl [Hg0 Hg1 Hg2 Hg3 Hg4 Hg5 Hg6 Hg7 Hw HsA HsB Hsems]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hw]; · iexact Hw
    isplitl [HsA]; · iexact HsA
    isplitl [HsB]; · iexact HsB
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  rcases Finset.mem_insert.mp hp with hp | hp; · exact .inr (.inl (hp ▸ rfl))
  exact .inl hp

end Tile

end Cert.Proof.KernelIdeal

end
-- ==== Proof.KernelIdeal.TilePos.lean ====
/-
  The lookup task on a tile other than tile 0, proved once at a symbolic tile of a symbolic SparseCore: it hands over
  nothing at the barrier and collects its read share of the staged table there.
-/
import proofs.«206951_g4793183502620_cont_8to1_c_898_7_alg».proof.Proof.KernelIdeal.TileValue

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

local notation "ixV" => (Memref.whole Cert.KernelIdeal.main_v0_scv : Memref Cert.KernelIdeal.sig Kind.scVector Space.hbm Cert.KernelIdeal.S32x8x64 EltTy.i32)
local notation "tbV" => (Memref.whole Cert.KernelIdeal.main_arg1_scv : Memref Cert.KernelIdeal.sig Kind.scVector Space.hbm Cert.KernelIdeal.S1001x128 EltTy.f32)
local notation "oV" => (Memref.whole Cert.KernelIdeal.main_v1_scv : Memref Cert.KernelIdeal.sig Kind.scVector Space.hbm Cert.KernelIdeal.S16384x128 EltTy.f32)
local notation "i5V" => (Memref.whole Cert.KernelIdeal.cc0_scratch0 : Memref Cert.KernelIdeal.sig Kind.scVector Space.vmem Cert.KernelIdeal.S8x64 EltTy.i32)
local notation "r6V" => (Memref.whole Cert.KernelIdeal.cc0_scratch1 : Memref Cert.KernelIdeal.sig Kind.scVector Space.vmem Cert.KernelIdeal.S512x128 EltTy.f32)
local notation "shV" => (Memref.whole Cert.KernelIdeal.cc0_scratch2 : Memref Cert.KernelIdeal.sig Kind.scVector Space.shared Cert.KernelIdeal.S1001x128 EltTy.f32)

variable [FloatOps F]

section Tile

variable (d : Dev nD) (L : grid0.Coords)

set_option maxRecDepth 100000 in
set_option maxHeartbeats 16000000 in
/-- The task on a tile other than 0 of a SparseCore: its lists fetched,
    the barrier (nothing handed over, its own read share collected), the eight gathers out of the shared copy, each
    block of gathered rows written to its place in the result once its gather has landed, and the eight writes drained. -/
theorem tile_body_pos (hr : Cert.Spec.InRange (m (aLoc d))) (h0 : (L 1).val ≠ 0) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (ixPts m d (wid (cL L) (jL L)) ∗ (bigSep Finset.univ fun r : Fin 8 => oPts d (chunk (wid (cL L) (jL L)) r) (m (oLoc d)))
            ∗ iprop(emp))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__embed_gather L ixV (Memref.isWhole_whole _) tbV (Memref.isWhole_whole _) oV (Memref.isWhole_whole _) i5V (Memref.isWhole_whole _) r6V (Memref.isWhole_whole _) shV (Memref.isWhole_whole _) cc0_scratch3 cc0_scratch4 cc0_scoped0 cc0_scoped1)
          fun _ => iprop((ixPts m d (wid (cL L) (jL L)) ∗ (bigSep Finset.univ fun r : Fin 8 => oPts d (chunk (wid (cL L) (jL L)) r) (G m d))
              ∗ shTok m d (cV L) (jV L).val ∗ iprop(emp))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc0__embed_gather_eq_skeleton]; unfold cc0__embed_gather_skel
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  rw [(K (F := F)).scopedBufs_V hF d (cV L) (jV L), SparseCore.Cfg.scopedSems0_V (Val := Elt F) d (cV L) (jV L), ownSems0_V, ownBufs_V,
    bigSep_fin8 (fun r => oPts d (chunk (wid (cL L) (jL L)) r) (m (oLoc d))), bigSep_fin8 (fun r => oPts d (chunk (wid (cL L) (jL L)) r) (G m d))]
  unfold bkit
  iintro ⟨#Hlv, ⟨⟨%κ, #Hinv⟩, Htoks, #Hrch, Hat, Hcred⟩, ⟨Hix, ⟨Ho0, Ho1, Ho2, Ho3, Ho4, Ho5, Ho6, Ho7, Ho8⟩, Hemp⟩, ⟨⟨%f5, H5⟩, ⟨%f6, H6⟩, Hbufs⟩,
    ⟨Hg0, Hg1, Hg2, Hg3, Hg4, Hg5, Hg6, Hg7, Hw, HsA, HsB, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := (V d (cV L) (jV L))) hO') $$ Hlv
  ihave Hmw2 := (show levAts (K (F := F)).L (K (F := F)).lev ⊢ Transfers.MayWaits (V d (cV L) (jV L)) (default : HIx 1) O from
    (K (F := F)).mayWaits_none (thr := (V d (cV L) (jV L))) hO) $$ Hlv
  ihave Hix' := (Entails.of_eq (pts_ixRowK (F := F) d L _).symm) $$ Hix
  ihave Ho0' := (Entails.of_eq (pts_oCh0 (F := F) d L _).symm) $$ Ho0
  ihave Ho1' := (Entails.of_eq (pts_oCh1 (F := F) d L _).symm) $$ Ho1
  ihave Ho2' := (Entails.of_eq (pts_oCh2 (F := F) d L _).symm) $$ Ho2
  ihave Ho3' := (Entails.of_eq (pts_oCh3 (F := F) d L _).symm) $$ Ho3
  ihave Ho4' := (Entails.of_eq (pts_oCh4 (F := F) d L _).symm) $$ Ho4
  ihave Ho5' := (Entails.of_eq (pts_oCh5 (F := F) d L _).symm) $$ Ho5
  ihave Ho6' := (Entails.of_eq (pts_oCh6 (F := F) d L _).symm) $$ Ho6
  ihave Ho7' := (Entails.of_eq (pts_oCh7 (F := F) d L _).symm) $$ Ho7
  ihave H5' := (Entails.of_eq (pts_i5V (F := F) d L _).symm) $$ H5
  ihave H6' := (Entails.of_eq (pts_r6V (F := F) d L _).symm) $$ H6
  have hc : ¬ (Scalar.cmpi .ne (Scalar.extui (Scalar.cmpi .eq (BitVec.ofNat 32 (L 1).val) 0#32)) 0#32 = 1#1) :=
    (by decide : ∀ v : Fin (grid0.bound 1), v.val ≠ 0 → ¬ (Scalar.cmpi .ne (Scalar.extui (Scalar.cmpi .eq (BitVec.ofNat 32 v.val) 0#32)) 0#32 = 1#1)) (L 1) h0
  -- the lists fetched
  sl_exec
  -- this tile hands over nothing
  ihave Hpays := (pays_pos (F := F) m d L h0) $$ Hemp
  -- the barrier
  rw [Prog.bind_assoc]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := (V d (cV L) (jV L))) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmine := (pays_elim (F := F) m d L) $$ Hgot
  -- the tile's read share of the shared copy, cut in eight for the eight gathers
  ihave Hcut8 := ((Transfers.pointsTo_toks (ℓ := shLoc d (cV L)) (f := shC m d (cV L)) (shareTokN fullShare (jV L).val) 8).1) $$ Hmine
  icases Hcut8 with ⟨Hmrest, Hm8⟩
  ihave Hm8' := (Entails.of_eq (bigSep_fin8 (F := F) (fun i : Fin 8 => (shLoc d (cV L) ↦{Transfers.shareTok (shareTokN fullShare (jV L).val) 8 i} shC m d (cV L) : sProp 𝕄)))) $$ Hm8
  icases Hm8' with ⟨Hm0, Hm1, Hm2, Hm3, Hm4, Hm5, Hm6, Hm7, Hm9⟩
  ihave Hm0' := (Entails.of_eq (pts_shSl (F := F) d L _ _).symm) $$ Hm0
  ihave Hm1' := (Entails.of_eq (pts_shSl (F := F) d L _ _).symm) $$ Hm1
  ihave Hm2' := (Entails.of_eq (pts_shSl (F := F) d L _ _).symm) $$ Hm2
  ihave Hm3' := (Entails.of_eq (pts_shSl (F := F) d L _ _).symm) $$ Hm3
  ihave Hm4' := (Entails.of_eq (pts_shSl (F := F) d L _ _).symm) $$ Hm4
  ihave Hm5' := (Entails.of_eq (pts_shSl (F := F) d L _ _).symm) $$ Hm5
  ihave Hm6' := (Entails.of_eq (pts_shSl (F := F) d L _ _).symm) $$ Hm6
  ihave Hm7' := (Entails.of_eq (pts_shSl (F := F) d L _ _).symm) $$ Hm7
  have hi0 := hin0 m d L hr f5
  have hi1 := hin1 m d L hr f5
  have hi2 := hin2 m d L hr f5
  have hi3 := hin3 m d L hr f5
  have hi4 := hin4 m d L hr f5
  have hi5 := hin5 m d L hr f5
  have hi6 := hin6 m d L hr f5
  have hi7 := hin7 m d L hr f5
  have _plan : Transfers.BatchOf (V d (cV L) (jV L)) (SemLoc.dma cc0_scratch4.sem) 8 := trivial
  -- the gathers, their waits, the writes and their drain
  sl_exec
  sl_step
  isplitl [Hix' Ho0' Ho1' Ho2' Ho3' Ho4' Ho5' Ho6' Ho7' Ho8 Hm0' Hm1' Hm2' Hm3' Hm4' Hm5' Hm6' Hm7' Hmrest Hm9]
  · isplitl [Hix']; · iapply (Entails.of_eq (pts_ixRowK (F := F) d L _)); iexact Hix'
    isplitl [Ho0' Ho1' Ho2' Ho3' Ho4' Ho5' Ho6' Ho7' Ho8]
    · isplitl [Ho0']; · iapply (Entails.of_eq (out_pts0 (F := F) m d L _ (fun y => pay_value0 m d L hr f5 f6 hi0 hi1 hi2 hi3 hi4 hi5 hi6 hi7 y))); iexact Ho0'
      isplitl [Ho1']; · iapply (Entails.of_eq (out_pts1 (F := F) m d L _ (fun y => pay_value1 m d L hr f5 f6 hi0 hi1 hi2 hi3 hi4 hi5 hi6 hi7 y))); iexact Ho1'
      isplitl [Ho2']; · iapply (Entails.of_eq (out_pts2 (F := F) m d L _ (fun y => pay_value2 m d L hr f5 f6 hi0 hi1 hi2 hi3 hi4 hi5 hi6 hi7 y))); iexact Ho2'
      isplitl [Ho3']; · iapply (Entails.of_eq (out_pts3 (F := F) m d L _ (fun y => pay_value3 m d L hr f5 f6 hi0 hi1 hi2 hi3 hi4 hi5 hi6 hi7 y))); iexact Ho3'
      isplitl [Ho4']; · iapply (Entails.of_eq (out_pts4 (F := F) m d L _ (fun y => pay_value4 m d L hr f5 f6 hi0 hi1 hi2 hi3 hi4 hi5 hi6 hi7 y))); iexact Ho4'
      isplitl [Ho5']; · iapply (Entails.of_eq (out_pts5 (F := F) m d L _ (fun y => pay_value5 m d L hr f5 f6 hi0 hi1 hi2 hi3 hi4 hi5 hi6 hi7 y))); iexact Ho5'
      isplitl [Ho6']; · iapply (Entails.of_eq (out_pts6 (F := F) m d L _ (fun y => pay_value6 m d L hr f5 f6 hi0 hi1 hi2 hi3 hi4 hi5 hi6 hi7 y))); iexact Ho6'
      isplitl [Ho7']; · iapply (Entails.of_eq (out_pts7 (F := F) m d L _ (fun y => pay_value7 m d L hr f5 f6 hi0 hi1 hi2 hi3 hi4 hi5 hi6 hi7 y))); iexact Ho7'
      iapply (Entails.of_eq (bigSep_congr fun k _ => k.elim0)); iexact Ho8
    isplitl [Hm0' Hm1' Hm2' Hm3' Hm4' Hm5' Hm6' Hm7' Hmrest Hm9]
    · iapply ((Transfers.pointsTo_toks (ℓ := shLoc d (cV L)) (f := shC m d (cV L)) (shareTokN fullShare (jV L).val) 8).2)
      isplitl [Hmrest]; · iexact Hmrest
      iapply (Entails.of_eq (bigSep_fin8 (F := F) (fun i : Fin 8 => (shLoc d (cV L) ↦{Transfers.shareTok (shareTokN fullShare (jV L).val) 8 i} shC m d (cV L) : sProp 𝕄))).symm)
      isplitl [Hm0']; · iapply (Entails.of_eq (pts_shSl (F := F) d L _ _)); iexact Hm0'
      isplitl [Hm1']; · iapply (Entails.of_eq (pts_shSl (F := F) d L _ _)); iexact Hm1'
      isplitl [Hm2']; · iapply (Entails.of_eq (pts_shSl (F := F) d L _ _)); iexact Hm2'
      isplitl [Hm3']; · iapply (Entails.of_eq (pts_shSl (F := F) d L _ _)); iexact Hm3'
      isplitl [Hm4']; · iapply (Entails.of_eq (pts_shSl (F := F) d L _ _)); iexact Hm4'
      isplitl [Hm5']; · iapply (Entails.of_eq (pts_shSl (F := F) d L _ _)); iexact Hm5'
      isplitl [Hm6']; · iapply (Entails.of_eq (pts_shSl (F := F) d L _ _)); iexact Hm6'
      isplitl [Hm7']; · iapply (Entails.of_eq (pts_shSl (F := F) d L _ _)); iexact Hm7'
      iexact Hm9
    iempintro
  isplitl [H5' H6' Hbufs]
  · isplitl [H5']; · iexists _; iapply (Entails.of_eq (pts_i5V (F := F) d L _)); iexact H5'
    isplitl [H6']; · iexists _; iapply (Entails.of_eq (pts_r6V (F := F) d L _)); iexact H6'
    iexact Hbufs
  isplitl [Hg0 Hg1 Hg2 Hg3 Hg4 Hg5 Hg6 Hg7 Hw HsA HsB Hsems]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hw]; · iexact Hw
    isplitl [HsA]; · iexact HsA
    isplitl [HsB]; · iexact HsB
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  exact .inl hp

end Tile

end Cert.Proof.KernelIdeal

end
-- ==== Proof.KernelIdeal.Tile.lean ====
/-
  Every task of the lookup kernel meets the launch's obligation: tile 0's proof or the other tiles', by the tile's number.
-/
import proofs.«206951_g4793183502620_cont_8to1_c_898_7_alg».proof.Proof.KernelIdeal.TileZero
import proofs.«206951_g4793183502620_cont_8to1_c_898_7_alg».proof.Proof.KernelIdeal.TilePos

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

local notation "ixV" => (Memref.whole Cert.KernelIdeal.main_v0_scv : Memref Cert.KernelIdeal.sig Kind.scVector Space.hbm Cert.KernelIdeal.S32x8x64 EltTy.i32)
local notation "tbV" => (Memref.whole Cert.KernelIdeal.main_arg1_scv : Memref Cert.KernelIdeal.sig Kind.scVector Space.hbm Cert.KernelIdeal.S1001x128 EltTy.f32)
local notation "oV" => (Memref.whole Cert.KernelIdeal.main_v1_scv : Memref Cert.KernelIdeal.sig Kind.scVector Space.hbm Cert.KernelIdeal.S16384x128 EltTy.f32)
local notation "i5V" => (Memref.whole Cert.KernelIdeal.cc0_scratch0 : Memref Cert.KernelIdeal.sig Kind.scVector Space.vmem Cert.KernelIdeal.S8x64 EltTy.i32)
local notation "r6V" => (Memref.whole Cert.KernelIdeal.cc0_scratch1 : Memref Cert.KernelIdeal.sig Kind.scVector Space.vmem Cert.KernelIdeal.S512x128 EltTy.f32)
local notation "shV" => (Memref.whole Cert.KernelIdeal.cc0_scratch2 : Memref Cert.KernelIdeal.sig Kind.scVector Space.shared Cert.KernelIdeal.S1001x128 EltTy.f32)

variable [FloatOps F]

section Tile

variable (d : Dev nD) (L : grid0.Coords)

/-! ## The obligation -/

omit [FloatOps F] in
/-- The grid point of core `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__embed_gather (coordsV c s)
          ixV (Memref.isWhole_whole _) tbV (Memref.isWhole_whole _) oV (Memref.isWhole_whole _) i5V (Memref.isWhole_whole _) r6V (Memref.isWhole_whole _) shV (Memref.isWhole_whole _)
          cc0_scratch3 cc0_scratch4 cc0_scoped0 cc0_scoped1) ⟨⟩ c s := rfl

set_option maxRecDepth 16384 in
/-- Every task of the call meets the launch's obligation, given that every index names a table row. -/
theorem tileObl (hr : ∀ d, Cert.Spec.InRange (m (aLoc d))) (hF : (K (F := F)).Facts) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  by_cases h0 : i.val = 0
  · rw [show (P m).go 0 d c i = iprop(ixPts m d (wid (Fin.cast nCore_zero c) (Fin.cast nSub_zero i))
          ∗ (bigSep Finset.univ fun r : Fin 8 => oPts d (chunk (wid (Fin.cast nCore_zero c) (Fin.cast nSub_zero i)) r) (m (oLoc d)))
          ∗ tbTok m d c.val ∗ ∃ f, shLoc d ((K (F := F)).core 0 c) ↦{fullShare} f) from by
        show goRes m d _ _ = _; unfold goRes; rw [if_pos (show (Fin.cast nSub_zero i).val = 0 from h0)] <;> rfl,
      show (P m).td 0 d c i = iprop(ixPts m d (wid (Fin.cast nCore_zero c) (Fin.cast nSub_zero i))
          ∗ (bigSep Finset.univ fun r : Fin 8 => oPts d (chunk (wid (Fin.cast nCore_zero c) (Fin.cast nSub_zero i)) r) (G m d))
          ∗ shTok m d ((K (F := F)).core 0 c) i.val ∗ tbTok m d c.val ∗ shRest m d ((K (F := F)).core 0 c)) from by
        show tdRes m d _ _ = _; unfold tdRes; rw [if_pos (show (Fin.cast nSub_zero i).val = 0 from h0)] <;> rfl]
    exact tile_body_zero m d (coordsV ⟨_, hci.1⟩ ⟨_, hci.2⟩) (hr d) h0 hF O W hO hOlev
  · rw [show (P m).go 0 d c i = iprop(ixPts m d (wid (Fin.cast nCore_zero c) (Fin.cast nSub_zero i))
          ∗ (bigSep Finset.univ fun r : Fin 8 => oPts d (chunk (wid (Fin.cast nCore_zero c) (Fin.cast nSub_zero i)) r) (m (oLoc d)))
          ∗ iprop(emp)) from by
        show goRes m d _ _ = _; unfold goRes; rw [if_neg (show ¬ (Fin.cast nSub_zero i).val = 0 from h0)] <;> rfl,
      show (P m).td 0 d c i = iprop(ixPts m d (wid (Fin.cast nCore_zero c) (Fin.cast nSub_zero i))
          ∗ (bigSep Finset.univ fun r : Fin 8 => oPts d (chunk (wid (Fin.cast nCore_zero c) (Fin.cast nSub_zero i)) r) (G m d))
          ∗ shTok m d ((K (F := F)).core 0 c) i.val ∗ iprop(emp)) from by
        show tdRes m d _ _ = _; unfold tdRes; rw [if_neg (show ¬ (Fin.cast nSub_zero i).val = 0 from h0)] <;> rfl]
    exact tile_body_pos m d (coordsV ⟨_, hci.1⟩ ⟨_, hci.2⟩) (hr d) h0 hF O W hO hOlev

end Tile

end Cert.Proof.KernelIdeal

end
-- ==== Proof.Kernel.Common.lean ====
/-
  The lookup kernel as the launch theorem for vector-subcore programs sees it, and what its handshakes carry.
  Thirty-two tasks (two SparseCores of sixteen tiles): task `w = 2·tile + core` fetches row `w` of the index
  array (eight lists of sixty-four indices), tile 0 of each SparseCore copies the whole table into the SparseCore's
  shared memory, all sixteen tiles meet at the subcore barrier, then each gathers, list by list, the table rows
  its indices name out of the shared copy and writes them to rows `512·w + 64·r …` of the result.
  The barrier carries the table: tile 0's arrival in tile `j`'s round hands over the `j`-th read share of the
  shared copy at the table's contents, so what a tile gathers from after the barrier it holds, at contents it knows.
-/
import proofs.«206951_g4793183502620_cont_8to1_c_898_7_alg».proof.Kernel
import proofs.«206951_g4793183502620_cont_8to1_c_898_7_alg».proof.Proof.Gen.Kernel
import proofs.«206951_g4793183502620_cont_8to1_c_898_7_alg».proof.Proof.Gen.Kernel.Skeleton
import proofs.«206951_g4793183502620_cont_8to1_c_898_7_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and their contents -/

variable (m : (ℓ : Loc nD τ sig) → Buf (Elt F) ℓ) (ρ : Dev nD → PrngReg)

/-- The index vector, the index array the reshape makes of it, the table, the result. -/
abbrev aLoc (d : Dev nD) : Loc nD τ sig := (SparseCore.T d).loc main_arg0
abbrev ixLoc (d : Dev nD) : Loc nD τ sig := (SparseCore.T d).loc main_v0
abbrev tbLoc (d : Dev nD) : Loc nD τ sig := (SparseCore.T d).loc main_arg1
abbrev oLoc (d : Dev nD) : Loc nD τ sig := (SparseCore.T d).loc main_v1

/-- SparseCore `c`'s shared copy of the table, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The index array's contents once @main has reshaped the index vector into it. -/
abbrev ixC (d : Dev nD) : Buf (Elt F) (ixLoc d) := fun i => shapeCast S32x8x64 (m (aLoc d)) shapeCasts_S16384_S32x8x64 i
/-- The table's contents, and the same as the shared copy's. -/
abbrev tbC (d : Dev nD) : Buf (Elt F) (tbLoc d) := m (tbLoc d)
abbrev shC (d : Dev nD) (c : Fin τ.nSC) : Buf (Elt F) (shLoc d c) := m (tbLoc d)
/-- What the result array holds in the end: the rows the indices name. -/
abbrev G (d : Dev nD) : Buf (Elt F) (oLoc d) := Cert.Spec.rows (m (aLoc d)) (m (tbLoc d))

/-! ## Tasks, lists and the pieces of the arrays they own -/

/-- Task number of tile `s` of SparseCore `c`. -/
def wid (c : Fin 2) (s : Fin 16) : Fin 32 := ⟨2 * s.val + c.val, by omega⟩
/-- The number, among the 256 blocks of 64 result rows, of list `r` of task `w`. -/
def chunk (w : Fin 32) (r : Fin 8) : Fin 256 := ⟨8 * w.val + r.val, by omega⟩

theorem hdiv32 : 32 ∣ S32x8x64.size 0 := ⟨1, rfl⟩
theorem hdiv256 : 256 ∣ S16384x128.size 0 := ⟨64, rfl⟩

local notation "ixV" => (Memref.whole Cert.Kernel.main_v0_scv : Memref Cert.Kernel.sig Kind.scVector Space.hbm Cert.Kernel.S32x8x64 EltTy.i32)
local notation "oV" => (Memref.whole Cert.Kernel.main_v1_scv : Memref Cert.Kernel.sig Kind.scVector Space.hbm Cert.Kernel.S16384x128 EltTy.f32)

/-- Row `w` of the index array: task `w`'s eight lists. -/
abbrev ixRect (w : Fin 32) : Rect S32x8x64 := Rect.part (s := S32x8x64) (a₀ := 0) hdiv32 w
abbrev ixSet (w : Fin 32) : Finset S32x8x64.Idx := ((ixV).view.slice (ixRect w)).set
/-- Block `k` of 64 rows of the result. -/
abbrev oRect (k : Fin 256) : Rect S16384x128 := Rect.part (s := S16384x128) (a₀ := 0) hdiv256 k
abbrev oSet (k : Fin 256) : Finset S16384x128.Idx := ((oV).view.slice (oRect k)).set

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `j`'s read share of the shared copy, at the table's contents. -/
abbrev shTok (d : Dev nD) (c : Fin τ.nSC) (j : ℕ) : sProp 𝕄 := shLoc d c ↦{shareTokN fullShare j} shC m d c
/-- What is left of the shared copy's full share once the sixteen read shares are split off. -/
abbrev shRest (d : Dev nD) (c : Fin τ.nSC) : sProp 𝕄 := shLoc d c ↦{shareDrop fullShare 16} shC m d c

/-- What a duty in tile `j`'s round hands over: tile 0's, tile `j`'s read share of the shared copy at the table's
    contents; the others', nothing. -/
def bPay (g : GSem nD τ sig) (n : ℕ) : sProp 𝕄 :=
  match g with
  | ((d, .scVector c j), _) => if n = 0 then shTok m d c j.val else iprop(emp)
  | _ => iprop(emp)

/-- The barrier cells' schedule: one round on each, of one unit duty per tile of the SparseCore (named by its number),
    tile 0's handing over the round's owner's read share. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore and that each has reached round 0, its
    own position at the origin of round 0, its duty token in every tile's round 0, and the credit for the sixteen units
    of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- Task `w`'s lists of indices, read-only in effect (held whole, given back unchanged). -/
abbrev ixPts (d : Dev nD) (w : Fin 32) : sProp 𝕄 := ixLoc d ↦[ixSet w]{fullShare} ixC m d
/-- Block `k` of the result, at contents `f`. -/
abbrev oPts (d : Dev nD) (k : Fin 256) (f : Buf (Elt F) (oLoc d)) : sProp 𝕄 := oLoc d ↦[oSet k]{fullShare} f
/-- SparseCore `c`'s read share of the table in HBM. -/
abbrev tbTok (d : Dev nD) (c : ℕ) : sProp 𝕄 := tbLoc d ↦{shareTokN fullShare c} tbC m d

/-- What task `(c, i)` is handed: its lists, its eight blocks of the result as the launch left them; tile 0 also the
    SparseCore's read share of the table and the shared memory whole. -/
def goRes (d : Dev nD) (c : Fin 2) (i : Fin 16) : sProp 𝕄 :=
  iprop(ixPts m d (wid c i) ∗ (bigSep Finset.univ fun r : Fin 8 => oPts d (chunk (wid c i) r) (m (oLoc d)))
    ∗ (if i.val = 0 then iprop(tbTok m d c.val ∗ ∃ f, shLoc d (c.castLE (le_of_eq nSC_eq.symm)) ↦{fullShare} f) else iprop(emp)))
/-- What it hands back: its lists, its blocks at the rows the indices name, its read share of the shared copy; tile 0
    also the table's read share and what it kept of the shared copy. -/
def tdRes (d : Dev nD) (c : Fin 2) (i : Fin 16) : sProp 𝕄 :=
  iprop(ixPts m d (wid c i) ∗ (bigSep Finset.univ fun r : Fin 8 => oPts d (chunk (wid c i) r) (G m d))
    ∗ shTok m d (c.castLE (le_of_eq nSC_eq.symm)) i.val
    ∗ (if i.val = 0 then iprop(tbTok m d c.val ∗ shRest m d (c.castLE (le_of_eq nSC_eq.symm))) else iprop(emp)))
/-- A SparseCore's operands: its sixteen tasks' lists and blocks, and its read share of the table. -/
def stRes (d : Dev nD) (c : Fin 2) : sProp 𝕄 :=
  iprop((bigSep Finset.univ fun i : Fin 16 => iprop(ixPts m d (wid c i) ∗ bigSep Finset.univ fun r : Fin 8 => oPts d (chunk (wid c i) r) (m (oLoc d))))
    ∗ tbTok m d c.val)
/-- Its results: the same, the blocks at the rows the indices name. -/
def dnRes (d : Dev nD) (c : Fin 2) : sProp 𝕄 :=
  iprop((bigSep Finset.univ fun i : Fin 16 => iprop(ixPts m d (wid c i) ∗ bigSep Finset.univ fun r : Fin 8 => oPts d (chunk (wid c i) r) (G m d)))
    ∗ tbTok m d c.val)

/-- The one call: each SparseCore takes its tasks' pieces and a read share of the table, each task its pieces, and
    they come back with the result's blocks written; each task's proof consumes its barrier kit; each tile owes its
    arrivals at the barrier. -/
def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

end Cert.Proof.Kernel

end
-- ==== Proof.Kernel.LaunchSplit.lean ====
/-
  The lookup kernel's launch, first part: what the handshakes carry can be stored, and how a SparseCore's operands
  split among its sixteen tasks and their results are gathered (the shared copy of the table rejoined from its read shares).
-/
import proofs.«206951_g4793183502620_cont_8to1_c_898_7_alg».proof.Proof.Kernel.Common

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry can be stored -/

theorem stRes_storable (d : Dev nD) (c : Fin 2) : BI.Storable (upEmb : UEmb _ 𝕄) (stRes m d c) := by
  unfold stRes; infer_instance
theorem dnRes_storable (d : Dev nD) (c : Fin 2) : BI.Storable (upEmb : UEmb _ 𝕄) (dnRes m d c) := by
  unfold dnRes; infer_instance
theorem goRes_storable (d : Dev nD) (c : Fin 2) (i : Fin 16) : BI.Storable (upEmb : UEmb _ 𝕄) (goRes m d c i) := by
  unfold goRes; split <;> infer_instance
theorem tdRes_storable (d : Dev nD) (c : Fin 2) (i : Fin 16) : BI.Storable (upEmb : UEmb _ 𝕄) (tdRes m d c i) := by
  unfold tdRes; split <;> infer_instance

instance P_storable : (P (F := F) m).IsStorable where
  st q d c := match q with
    | 0 => stRes_storable m d (Fin.cast nCore_zero c)
  dn q d c := match q with
    | 0 => dnRes_storable m d (Fin.cast nCore_zero c)
  go q d c i := match q with
    | 0 => goRes_storable m d (Fin.cast nCore_zero c) (Fin.cast nSub_zero i)
  td q d c i := match q with
    | 0 => tdRes_storable m d (Fin.cast nCore_zero c) (Fin.cast nSub_zero i)

/-! ## A SparseCore's operands split among its sixteen tasks, and their results gathered -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- What only the first of sixteen carries is carried once. -/
theorem bigSep_first (X : sProp 𝕄) :
    (bigSep Finset.univ fun i : Fin 16 => if i.val = 0 then X else iprop(emp)) = X := by
  have h : (bigSep ((Finset.univ : Finset (Fin 16)).erase 0) fun i : Fin 16 => if i.val = 0 then X else iprop(emp))
      = bigSep ((Finset.univ : Finset (Fin 16)).erase 0) fun _ => (iprop(emp) : sProp 𝕄) :=
    bigSep_congr fun i hi => if_neg fun h => Finset.ne_of_mem_erase hi (Fin.ext h)
  rw [SparseCore.bigSep_erase' (Finset.mem_univ (0 : Fin 16)), if_pos (show ((0 : Fin 16) : ℕ) = 0 from rfl), h, bigSep_emp']
  exact equiv_iff.mp Idealize.SL.BI.sep_emp

omit [FloatOps F] in
/-- The shared copy is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- SparseCore `c`: its operands and the shared memory to the tasks (tile 0 takes the table's read share and the shared
    memory whole); back from them, the sixteen read shares of the shared copy and what tile 0 kept rejoin to the
    whole. -/
theorem split_core (d : Dev nD) (c : Fin 2) :
    iprop(stRes m d c ∗ ownBufs (S d (c.castLE (le_of_eq nSC_eq.symm)))) ⊢ |={Set.univ}=> iprop(
      (bigSep Finset.univ fun i : Fin 16 => goRes m d c i)
      ∗ ((bigSep Finset.univ fun i : Fin 16 => tdRes m d c i)
          -∗ iprop(dnRes m d c ∗ ownBufs (S d (c.castLE (le_of_eq nSC_eq.symm)))))) := by
  unfold stRes goRes tdRes dnRes
  rw [ownBufs_S]
  repeat rw [bigSep_sep']
  rw [bigSep_first, bigSep_first]
  iintro ⟨⟨⟨HA, HB⟩, Htb⟩, Hsh, Hrest⟩; imodintro
  isplitl [HA HB Htb Hsh]
  · isplitl [HA]; · iexact HA
    isplitl [HB]; · iexact HB
    isplitl [Htb]; · iexact Htb
    iexact Hsh
  iintro ⟨HA, HB, HT, Htb, Hr⟩
  isplitl [HA HB Htb]
  · isplitl [HA HB]
    · isplitl [HA]; · iexact HA
      iexact HB
    iexact Htb
  isplitl [HT Hr]
  · iexists (shC m d (c.castLE (le_of_eq nSC_eq.symm)))
    iapply (Transfers.pointsTo_toks_join fullShare 16)
    isplitl [Hr]; · iexact Hr
    iexact HT
  iexact Hrest

theorem vecSplit : (K (F := F)).VecSplit (P m) 0 := by
  intro d c
  show iprop(stRes m d (Fin.cast nCore_zero c) ∗ ownBufs (S d (coreOf c))) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ iprop(dnRes m d (Fin.cast nCore_zero c) ∗ ownBufs (S d (coreOf c)))))
  rw [bigSep_tasks (F := F) (fun i => goRes m d (Fin.cast nCore_zero c) i), bigSep_tasks (F := F) (fun i => tdRes m d (Fin.cast nCore_zero c) i)]
  exact split_core m d (Fin.cast nCore_zero c)

end Cert.Proof.Kernel

end
-- ==== Proof.Kernel.LaunchElem.lean ====
/-
  The lookup kernel's launch, second part: the launch element of the ghost state. The barrier cells' rounds are funded,
  their invariants allocated for every tile at once from the free semaphores the launch hands over, and each tile is
  dealt its kit: every cell's invariant of its SparseCore, its duty token in each tile's round, its own position and
  the credit for the sixteen units of its own cell.
-/
import proofs.«206951_g4793183502620_cont_8to1_c_898_7_alg».proof.Proof.Kernel.Common

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

end Cert.Proof.Kernel

end
-- ==== Proof.Kernel.LaunchMain.lean ====
/-
  The lookup kernel's launch, third part: @main on the TensorCore. The reshape of the index vector into the index
  array; the index array split into the thirty-two tasks' rows, the result into the 256 blocks of sixty-four rows the
  tasks write, and two read shares of the table split off, one per SparseCore; the call; the pieces rejoined, every
  block of the result at the rows the indices name.
-/
import proofs.«206951_g4793183502620_cont_8to1_c_898_7_alg».proof.Proof.Kernel.Common

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

open Idealize.ShloMosaic.StableHlo (held held_split held_sdiff_result wp_hlo_within)

variable [FloatOps F]

/-! ## Tasks and blocks renumbered -/

/-- Tile `s` of SparseCore `c` runs task `2 s + c`: every task is run once. -/
def widE : Fin 2 × Fin 16 ≃ Fin 32 where
  toFun p := wid p.1 p.2
  invFun w := (⟨w.val % 2, Nat.mod_lt _ (by decide)⟩, ⟨w.val / 2, by omega⟩)
  left_inv := by
    rintro ⟨c, s⟩
    refine Prod.ext (Fin.ext ?_) (Fin.ext ?_) <;> simp only [wid] <;> omega
  right_inv := by
    intro w; refine Fin.ext ?_; simp only [wid]; omega

/-- List `r` of task `w` is block `8 w + r` of the result: every block is written once. -/
def chunkE : Fin 32 × Fin 8 ≃ Fin 256 where
  toFun p := chunk p.1 p.2
  invFun k := (⟨k.val / 8, by omega⟩, ⟨k.val % 8, Nat.mod_lt _ (by decide)⟩)
  left_inv := by
    rintro ⟨w, r⟩
    refine Prod.ext (Fin.ext ?_) (Fin.ext ?_) <;> simp only [chunk] <;> omega
  right_inv := by
    intro k; refine Fin.ext ?_; simp only [chunk]; omega

omit [FloatOps F] in
theorem bigSep_wid (Φ : Fin 32 → sProp 𝕄) :
    (bigSep Finset.univ fun c : Fin 2 => bigSep Finset.univ fun i : Fin 16 => Φ (wid c i)) = bigSep Finset.univ Φ := by
  rw [bigSep_univ_equiv widE Φ, bigSep_univ_prod]; rfl
omit [FloatOps F] in
theorem bigSep_chunk (Φ : Fin 256 → sProp 𝕄) :
    (bigSep Finset.univ fun w : Fin 32 => bigSep Finset.univ fun r : Fin 8 => Φ (chunk w r)) = bigSep Finset.univ Φ := by
  rw [bigSep_univ_equiv chunkE Φ, bigSep_univ_prod]; rfl
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The index array is its thirty-two rows, the result its 256 blocks -/

omit [FloatOps F] in
theorem ixSet_eq (w : Fin 32) : ixSet w = (ixRect w).set := by
  show ((View.whole (main_v0_scv : Ref sig .scVector)).slice (ixRect w)).set = _
  rw [View.set_slice]; exact Finset.map_refl
omit [FloatOps F] in
theorem ix_disjoint : ∀ i ∈ (Finset.univ : Finset (Fin 32)), ∀ j ∈ (Finset.univ : Finset (Fin 32)), i ≠ j → Disjoint (ixSet i) (ixSet j) :=
  fun i _ j _ h => by rw [ixSet_eq, ixSet_eq]; exact Rect.part_disjoint hdiv32 h
omit [FloatOps F] in
theorem ix_cover : (Finset.univ : Finset (Fin 32)).biUnion ixSet = Finset.univ :=
  (Finset.biUnion_congr rfl fun i _ => ixSet_eq i).trans (Rect.biUnion_part hdiv32)

omit [FloatOps F] in
theorem oSet_eq (k : Fin 256) : oSet k = (oRect k).set := by
  show ((View.whole (main_v1_scv : Ref sig .scVector)).slice (oRect k)).set = _
  rw [View.set_slice]; exact Finset.map_refl
omit [FloatOps F] in
theorem o_disjoint : ∀ i ∈ (Finset.univ : Finset (Fin 256)), ∀ j ∈ (Finset.univ : Finset (Fin 256)), i ≠ j → Disjoint (oSet i) (oSet j) :=
  fun i _ j _ h => by rw [oSet_eq, oSet_eq]; exact Rect.part_disjoint hdiv256 h
omit [FloatOps F] in
theorem o_cover : (Finset.univ : Finset (Fin 256)).biUnion oSet = Finset.univ :=
  (Finset.biUnion_congr rfl fun i _ => oSet_eq i).trans (Rect.biUnion_part hdiv256)

omit [FloatOps F] in
theorem ixPts_rows (d : Dev nD) (f : Buf (Elt F) (ixLoc d)) :
    (ixLoc d ↦{fullShare} f : sProp 𝕄) = bigSep Finset.univ fun w : Fin 32 => ixLoc d ↦[ixSet w]{fullShare} f := by
  rw [← pointsTo_biUnion Finset.univ (ℓ := ixLoc d) ixSet ix_disjoint, ix_cover]; try rfl
omit [FloatOps F] in
theorem oPts_blocks (d : Dev nD) (f : Buf (Elt F) (oLoc d)) :
    (oLoc d ↦{fullShare} f : sProp 𝕄) = bigSep Finset.univ fun k : Fin 256 => oLoc d ↦[oSet k]{fullShare} f := by
  rw [← pointsTo_biUnion Finset.univ (ℓ := oLoc d) oSet o_disjoint, o_cover]; try rfl

/-! ## What the call takes for the two SparseCores, and what it hands back -/

/-- The pieces of both SparseCores' thirty-two tasks are the index array and an array of the result's type whole,
    and the two read shares of the table. -/
theorem cores_eq (d : Dev nD) (f : Buf (Elt F) (oLoc d)) :
    (bigSep Finset.univ fun c : Fin 2 =>
        iprop((bigSep Finset.univ fun i : Fin 16 => iprop(ixPts m d (wid c i) ∗ bigSep Finset.univ fun r : Fin 8 => oPts d (chunk (wid c i) r) f))
          ∗ tbTok m d c.val))
      = iprop(((ixLoc d ↦{fullShare} ixC m d) ∗ oLoc d ↦{fullShare} f) ∗ bigSep Finset.univ fun c : Fin 2 => tbTok m d c.val) := by
  rw [bigSep_sep', bigSep_wid (F := F) (fun w => iprop(ixPts m d w ∗ bigSep Finset.univ fun r : Fin 8 => oPts d (chunk w r) f)), bigSep_sep',
    bigSep_chunk (F := F) (fun k => oPts d k f), ← ixPts_rows, ← oPts_blocks]

theorem st0_eq (d : Dev nD) :
    (bigSep Finset.univ fun c : Fin ((K (F := F)).nCore 0) => (P m).st 0 d c)
      = iprop(((ixLoc d ↦{fullShare} ixC m d) ∗ oLoc d ↦{fullShare} m (oLoc d)) ∗ bigSep Finset.univ fun c : Fin 2 => tbTok m d c.val) := by
  show (bigSep Finset.univ fun c : Fin ((K (F := F)).nCore 0) => stRes m d (Fin.cast nCore_zero c)) = _
  rw [bigSep_cores (F := F) (fun c => stRes m d c)]
  unfold stRes
  exact cores_eq m d _
theorem dn0_eq (d : Dev nD) :
    (bigSep Finset.univ fun c : Fin ((K (F := F)).nCore 0) => (P m).dn 0 d c)
      = iprop(((ixLoc d ↦{fullShare} ixC m d) ∗ oLoc d ↦{fullShare} G m d) ∗ bigSep Finset.univ fun c : Fin 2 => tbTok m d c.val) := by
  show (bigSep Finset.univ fun c : Fin ((K (F := F)).nCore 0) => dnRes m d (Fin.cast nCore_zero c)) = _
  rw [bigSep_cores (F := F) (fun c => dnRes m d c)]
  unfold dnRes
  exact cores_eq m d _

/-! ## @main on the TensorCore -/

abbrev a' : DevRef τ sig := Proc.devRef .tc (main_arg0 : Ref sig .tc)
abbrev tb' : DevRef τ sig := Proc.devRef .tc (main_arg1 : Ref sig .tc)
abbrev ix' : DevRef τ sig := Proc.devRef .tc (main_v0 : Ref sig .tc)
abbrev o' : DevRef τ sig := Proc.devRef .tc (main_v1 : Ref sig .tc)
/-- @main's one host operation: the index vector reshaped into the index array. -/
abbrev opR : HloOp τ sig (Elt F) := StableHlo.reshape main_arg0 main_v0 rfl shapeCasts_S16384_S32x8x64

/-- The TensorCore's arrays, all unscoped: the index vector, the table, the index array, the result. -/
abbrev S4 : Finset (DevRef τ sig) := {a', tb', ix', o'}

omit [FloatOps F] in
theorem held_S4 (d : Dev nD) (W : Valuation τ sig (Elt F)) :
    (held (T d) S4 W : sProp 𝕄)
      = iprop((aLoc d ↦{fullShare} W a') ∗ (tbLoc d ↦{fullShare} W tb') ∗ (ixLoc d ↦{fullShare} W ix') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (tbLoc d ↦{fullShare} W main_arg1) ∗ (ixLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hR : (opR (F := F)).bufs ⊆ S4 := show ({a', ix'} : Finset (DevRef τ sig)) ⊆ S4 by decide

/-- After the reshape: the index array at the index vector's elements in row-major order, the others as launched. -/
theorem held_after (d : Dev nD) :
    (held (T d) S4 ((opR (F := F)).result (V0 m d)) : sProp 𝕄)
      = iprop((aLoc d ↦{fullShare} m (aLoc d)) ∗ (tbLoc d ↦{fullShare} m (tbLoc d)) ∗ (ixLoc d ↦{fullShare} ixC m d) ∗ oLoc d ↦{fullShare} m (oLoc d)) := by
  rw [held_S4,
    (opR (F := F)).result_of_not_mem (V0 m d) (b := a') (show a' ∉ ({ix'} : Finset (DevRef τ sig)) by decide),
    (opR (F := F)).result_of_not_mem (V0 m d) (b := tb') (show tb' ∉ ({ix'} : Finset (DevRef τ sig)) by decide),
    (opR (F := F)).result_of_not_mem (V0 m d) (b := o') (show o' ∉ ({ix'} : Finset (DevRef τ sig)) by decide),
    show (opR (F := F)).result (V0 m d) ix' = ixC m d from StableHlo.reshape_result main_arg0 main_v0 rfl shapeCasts_S16384_S32x8x64 ⟨by decide, rfl⟩ ⟨by decide, rfl⟩ (V0 m d)]
  rfl

/-- What @main leaves the claim: the index vector and the table at their launch contents, the result at the rows the
    indices name. -/
abbrev FIN (d : Dev nD) : sProp 𝕄 := iprop((aLoc d ↦{fullShare} m (aLoc d)) ∗ (tbLoc d ↦{fullShare} m (tbLoc d)) ∗ oLoc d ↦{fullShare} G m d)

/-- @main on device `d`'s TensorCore: the reshape over the four arrays held whole; the index array and the result split
    into the tasks' pieces and two read shares of the table split off for the call; afterwards the pieces rejoined. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape, over the four arrays
  iapply (wp_hlo_within 𝒱 (SparseCore.T d) none Set.univ (op := opR) (S := S4) hR (V := V0 m d)) $$ [Hb Hheld]
  · isplitl [Hb]; · iexact Hb
    iexact Hheld
  iintro ⟨Hb, Hheld⟩
  ihave Hh := (Entails.of_eq (held_after (F := F) m d)) $$ Hheld
  icases Hh with ⟨Ha, Htb, Hix, Ho⟩
  rw [wp_ret]; imodintro
  -- the table's two read shares
  ihave Htb' := (Transfers.pointsTo_toks_split fullShare 2) $$ Htb
  icases Htb' with ⟨Htb0, Htoks⟩
  -- the call
  iapply ((K (F := F)).wp_run (D (F := F)) 𝒱 (EH := EH) (P := P m) κ d 0) $$ [Hst Hix Ho Htoks Ha Htb0 Hb]
  isplitr; · iexact Hctx
  isplitl [Hst]; · iexact Hst
  isplitl [Hix Ho Htoks]
  · rw [st0_eq]
    isplitl [Hix Ho]
    · isplitl [Hix]; · iexact Hix
      iexact Ho
    iexact Htoks
  iintro ⟨Hst, Hdn⟩
  ihave Hdn' := (Entails.of_eq (dn0_eq m d)) $$ Hdn
  icases Hdn' with ⟨⟨-, Ho⟩, Htoks⟩
  imodintro
  isplitl [Hst]; · iexact Hst
  isplitl [Ha]; · iexact Ha
  isplitl [Htb0 Htoks]
  · iapply (Transfers.pointsTo_toks_join fullShare 2)
    isplitl [Htb0]; · iexact Htb0
    iexact Htoks
  iexact Ho

def fq (d : Dev nD) (s' : Phys nD τ sig (Elt F)) : Prop :=
  s'.mem.mem (oLoc d) = G m d ∧ s'.mem.mem (aLoc d) = m (aLoc d) ∧ s'.mem.mem (tbLoc d) = m (tbLoc d)

theorem hfin (d : Dev nD) (s' : Phys nD τ sig (Elt F)) : iprop(FIN m d ∗ SI s') ⊢ (⌜fq m d s'⌝ : sProp 𝕄) := by
  iintro ⟨⟨Ha, Htb, Ho⟩, HSI⟩
  icombine HSI Ho gives %h1
  icombine HSI Ha gives %h2
  icombine HSI Htb gives %h3
  ipureintro
  exact ⟨funext fun i => h1 i (Finset.mem_univ i), funext fun i => h2 i (Finset.mem_univ i), funext fun i => h3 i (Finset.mem_univ i)⟩

end Cert.Proof.Kernel

end
-- ==== Proof.Kernel.Launch.lean ====
/-
  The lookup kernel's launch, assembled: from the one tile's task, proved at a symbolic place, the run of the whole
  program — the TensorCore's @main, the two sequencers and the thirty-two tiles.
-/
import proofs.«206951_g4793183502620_cont_8to1_c_898_7_alg».proof.Proof.Kernel.LaunchSplit
import proofs.«206951_g4793183502620_cont_8to1_c_898_7_alg».proof.Proof.Kernel.LaunchElem
import proofs.«206951_g4793183502620_cont_8to1_c_898_7_alg».proof.Proof.Kernel.LaunchMain

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The program's run -/

def QC : PUnit × MemSt nD τ sig (Elt F) → Prop := fun r =>
  ∀ c : Dev nD, r.2.mem (oLoc c) = G m c ∧ r.2.mem (aLoc c) = m (aLoc c) ∧ r.2.mem (tbLoc c) = m (tbLoc c)

/-- Every weakly fair execution of the device's threads from the launch memory terminates, the result at the rows the
    indices name, the index vector and the table unchanged — given the one tile's task at a symbolic place. -/
theorem run_main [∀ e, Nonempty (Elt F e)] (hobl : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => vecSplit m)
    m ρ main (fun _ => iprop(emp)) (FIN m) (u₀ (F := F)) (hu₀ m) (hmain m ρ) (fq m) (hfin m) (QC m) (fun _ h => h)

end Cert.Proof.Kernel

end
-- ==== Proof.Kernel.TileSets.lean ====
/-
  One task of the lookup kernel at a symbolic tile of a symbolic SparseCore: the pieces of the arrays it addresses are
  the pieces the launch deals it, its semaphores and scratch buffers one by one, and what its arrivals at the barrier
  hand over and collect.
-/
import proofs.«206951_g4793183502620_cont_8to1_c_898_7_alg».proof.Proof.Kernel.Common
import Idealize.ShloMosaic.Lib.Batch

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

local notation "ixV" => (Memref.whole Cert.Kernel.main_v0_scv : Memref Cert.Kernel.sig Kind.scVector Space.hbm Cert.Kernel.S32x8x64 EltTy.i32)
local notation "tbV" => (Memref.whole Cert.Kernel.main_arg1_scv : Memref Cert.Kernel.sig Kind.scVector Space.hbm Cert.Kernel.S1001x128 EltTy.f32)
local notation "oV" => (Memref.whole Cert.Kernel.main_v1_scv : Memref Cert.Kernel.sig Kind.scVector Space.hbm Cert.Kernel.S16384x128 EltTy.f32)
local notation "i5V" => (Memref.whole Cert.Kernel.cc0_scratch0 : Memref Cert.Kernel.sig Kind.scVector Space.vmem Cert.Kernel.S8x64 EltTy.i32)
local notation "r6V" => (Memref.whole Cert.Kernel.cc0_scratch1 : Memref Cert.Kernel.sig Kind.scVector Space.vmem Cert.Kernel.S512x128 EltTy.f32)
local notation "shV" => (Memref.whole Cert.Kernel.cc0_scratch2 : Memref Cert.Kernel.sig Kind.scVector Space.shared Cert.Kernel.S1001x128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
omit [FloatOps F] in
theorem bound_zero : grid0.bound 0 = 2 := rfl
abbrev cL (L : grid0.Coords) : Fin 2 := Fin.cast bound_zero (L 0)
abbrev jL (L : grid0.Coords) : Fin 16 := Fin.cast bound_one (L 1)

/-- The task's row of the index array, squeezed, as the task addresses it. -/
abbrev ixRowK (L : grid0.Coords) : Memref sig .scVector .hbm S8x64 .i32 :=
  ((ixV).slice (Rect.unit (s := S32x8x64) (k0_off1 L) S1x8x64.size (k0_off1_inb L)) (fun _ => rfl)).squeeze S8x64 squeezes_S1x8x64_S8x64
/-- The shared copy, as the gathers address it (the whole of it, through a slice). -/
abbrev shSl : Memref sig .scVector .shared S1001x128 .f32 :=
  (shV).slice (Rect.unit (s := S1001x128) ![0, 0] S1001x128.size inb_S1001x128_S1001x128_0_0) (fun _ => rfl)
abbrev rCh0 : Memref sig .scVector .vmem S64x128 .f32 := (r6V).slice (Rect.unit (s := S512x128) ![0, 0] S64x128.size inb_S512x128_S64x128_0_0) (fun _ => rfl)
abbrev iRow0 : Memref sig .scVector .vmem S64 .i32 := ((i5V).slice (Rect.unit (s := S8x64) ![0, 0] S1x64.size inb_S8x64_S1x64_0_0) (fun _ => rfl)).squeeze S64 squeezes_S1x64_S64
abbrev gSem0 : DmaSems sig S_ := SemArray.squeeze (SemArray.slice cc0_scratch3 (Rect.unit (s := S8) ![0] S1.size inb_S8_S1_0)) S_ squeezes_S1_S_
abbrev oCh0 (L : grid0.Coords) : Memref sig .scVector .hbm S64x128 .f32 := (oV).slice (Rect.unit (s := S16384x128) (k0_off2 L 0#32) S64x128.size (k0_off2_inb L 0)) (fun _ => rfl)
abbrev rCh1 : Memref sig .scVector .vmem S64x128 .f32 := (r6V).slice (Rect.unit (s := S512x128) ![64, 0] S64x128.size inb_S512x128_S64x128_64_0) (fun _ => rfl)
abbrev iRow1 : Memref sig .scVector .vmem S64 .i32 := ((i5V).slice (Rect.unit (s := S8x64) ![1, 0] S1x64.size inb_S8x64_S1x64_1_0) (fun _ => rfl)).squeeze S64 squeezes_S1x64_S64
abbrev gSem1 : DmaSems sig S_ := SemArray.squeeze (SemArray.slice cc0_scratch3 (Rect.unit (s := S8) ![1] S1.size inb_S8_S1_1)) S_ squeezes_S1_S_
abbrev oCh1 (L : grid0.Coords) : Memref sig .scVector .hbm S64x128 .f32 := (oV).slice (Rect.unit (s := S16384x128) (k0_off2 L 64#32) S64x128.size (k0_off2_inb L 1)) (fun _ => rfl)
abbrev rCh2 : Memref sig .scVector .vmem S64x128 .f32 := (r6V).slice (Rect.unit (s := S512x128) ![128, 0] S64x128.size inb_S512x128_S64x128_128_0) (fun _ => rfl)
abbrev iRow2 : Memref sig .scVector .vmem S64 .i32 := ((i5V).slice (Rect.unit (s := S8x64) ![2, 0] S1x64.size inb_S8x64_S1x64_2_0) (fun _ => rfl)).squeeze S64 squeezes_S1x64_S64
abbrev gSem2 : DmaSems sig S_ := SemArray.squeeze (SemArray.slice cc0_scratch3 (Rect.unit (s := S8) ![2] S1.size inb_S8_S1_2)) S_ squeezes_S1_S_
abbrev oCh2 (L : grid0.Coords) : Memref sig .scVector .hbm S64x128 .f32 := (oV).slice (Rect.unit (s := S16384x128) (k0_off2 L 128#32) S64x128.size (k0_off2_inb L 2)) (fun _ => rfl)
abbrev rCh3 : Memref sig .scVector .vmem S64x128 .f32 := (r6V).slice (Rect.unit (s := S512x128) ![192, 0] S64x128.size inb_S512x128_S64x128_192_0) (fun _ => rfl)
abbrev iRow3 : Memref sig .scVector .vmem S64 .i32 := ((i5V).slice (Rect.unit (s := S8x64) ![3, 0] S1x64.size inb_S8x64_S1x64_3_0) (fun _ => rfl)).squeeze S64 squeezes_S1x64_S64
abbrev gSem3 : DmaSems sig S_ := SemArray.squeeze (SemArray.slice cc0_scratch3 (Rect.unit (s := S8) ![3] S1.size inb_S8_S1_3)) S_ squeezes_S1_S_
abbrev oCh3 (L : grid0.Coords) : Memref sig .scVector .hbm S64x128 .f32 := (oV).slice (Rect.unit (s := S16384x128) (k0_off2 L 192#32) S64x128.size (k0_off2_inb L 3)) (fun _ => rfl)
abbrev rCh4 : Memref sig .scVector .vmem S64x128 .f32 := (r6V).slice (Rect.unit (s := S512x128) ![256, 0] S64x128.size inb_S512x128_S64x128_256_0) (fun _ => rfl)
abbrev iRow4 : Memref sig .scVector .vmem S64 .i32 := ((i5V).slice (Rect.unit (s := S8x64) ![4, 0] S1x64.size inb_S8x64_S1x64_4_0) (fun _ => rfl)).squeeze S64 squeezes_S1x64_S64
abbrev gSem4 : DmaSems sig S_ := SemArray.squeeze (SemArray.slice cc0_scratch3 (Rect.unit (s := S8) ![4] S1.size inb_S8_S1_4)) S_ squeezes_S1_S_
abbrev oCh4 (L : grid0.Coords) : Memref sig .scVector .hbm S64x128 .f32 := (oV).slice (Rect.unit (s := S16384x128) (k0_off2 L 256#32) S64x128.size (k0_off2_inb L 4)) (fun _ => rfl)
abbrev rCh5 : Memref sig .scVector .vmem S64x128 .f32 := (r6V).slice (Rect.unit (s := S512x128) ![320, 0] S64x128.size inb_S512x128_S64x128_320_0) (fun _ => rfl)
abbrev iRow5 : Memref sig .scVector .vmem S64 .i32 := ((i5V).slice (Rect.unit (s := S8x64) ![5, 0] S1x64.size inb_S8x64_S1x64_5_0) (fun _ => rfl)).squeeze S64 squeezes_S1x64_S64
abbrev gSem5 : DmaSems sig S_ := SemArray.squeeze (SemArray.slice cc0_scratch3 (Rect.unit (s := S8) ![5] S1.size inb_S8_S1_5)) S_ squeezes_S1_S_
abbrev oCh5 (L : grid0.Coords) : Memref sig .scVector .hbm S64x128 .f32 := (oV).slice (Rect.unit (s := S16384x128) (k0_off2 L 320#32) S64x128.size (k0_off2_inb L 5)) (fun _ => rfl)
abbrev rCh6 : Memref sig .scVector .vmem S64x128 .f32 := (r6V).slice (Rect.unit (s := S512x128) ![384, 0] S64x128.size inb_S512x128_S64x128_384_0) (fun _ => rfl)
abbrev iRow6 : Memref sig .scVector .vmem S64 .i32 := ((i5V).slice (Rect.unit (s := S8x64) ![6, 0] S1x64.size inb_S8x64_S1x64_6_0) (fun _ => rfl)).squeeze S64 squeezes_S1x64_S64
abbrev gSem6 : DmaSems sig S_ := SemArray.squeeze (SemArray.slice cc0_scratch3 (Rect.unit (s := S8) ![6] S1.size inb_S8_S1_6)) S_ squeezes_S1_S_
abbrev oCh6 (L : grid0.Coords) : Memref sig .scVector .hbm S64x128 .f32 := (oV).slice (Rect.unit (s := S16384x128) (k0_off2 L 384#32) S64x128.size (k0_off2_inb L 6)) (fun _ => rfl)
abbrev rCh7 : Memref sig .scVector .vmem S64x128 .f32 := (r6V).slice (Rect.unit (s := S512x128) ![448, 0] S64x128.size inb_S512x128_S64x128_448_0) (fun _ => rfl)
abbrev iRow7 : Memref sig .scVector .vmem S64 .i32 := ((i5V).slice (Rect.unit (s := S8x64) ![7, 0] S1x64.size inb_S8x64_S1x64_7_0) (fun _ => rfl)).squeeze S64 squeezes_S1x64_S64
abbrev gSem7 : DmaSems sig S_ := SemArray.squeeze (SemArray.slice cc0_scratch3 (Rect.unit (s := S8) ![7] S1.size inb_S8_S1_7)) S_ squeezes_S1_S_
abbrev oCh7 (L : grid0.Coords) : Memref sig .scVector .hbm S64x128 .f32 := (oV).slice (Rect.unit (s := S16384x128) (k0_off2 L 448#32) S64x128.size (k0_off2_inb L 7)) (fun _ => rfl)

/-! ## The pieces a task addresses are the pieces the launch deals -/

omit [FloatOps F] in
theorem ixRect_eq : Rect.unit (s := S32x8x64) (k0_off1 L) S1x8x64.size (k0_off1_inb L) = ixRect (wid (cL L) (jL L)) := by
  unfold ixRect Rect.part Rect.block
  congr 1 <;> funext a
  · rw [k0_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_ixRowK : (ixRowK L).view.set = ixSet (wid (cL L) (jL L)) := by
  show (((ixV).view.slice (Rect.unit (s := S32x8x64) (k0_off1 L) S1x8x64.size (k0_off1_inb L))).reshape S8x64 squeezes_S1x8x64_S8x64.numel_eq).set
    = ((ixV).view.slice (ixRect (wid (cL L) (jL L)))).set
  rw [View.set_reshape]
  exact ixRect_eq L ▸ rfl

omit [FloatOps F] in
theorem pts_ixRowK (f : Buf (Elt F) (ixLoc d)) :
    ((ixRowK L).view.loc (V d (cV L) (jV L)) ↦[(ixRowK L).view.set]{fullShare} f : sProp 𝕄) = ixLoc d ↦[ixSet (wid (cL L) (jL L))]{fullShare} f := by
  rw [set_ixRowK]

/-- Block `r` of the task's result rows, as the task addresses it, for a variable `r`. -/
abbrev oChK (L : grid0.Coords) (r : Fin 8) : Memref sig .scVector .hbm S64x128 .f32 :=
  (oV).slice (Rect.unit (s := S16384x128) (k0_off2 L (BitVec.ofNat 32 (64 * r.val))) S64x128.size (k0_off2_inb L r)) (fun _ => rfl)

omit [FloatOps F] in
theorem oRect_eq (r : Fin 8) :
    Rect.unit (s := S16384x128) (k0_off2 L (BitVec.ofNat 32 (64 * r.val))) S64x128.size (k0_off2_inb L r) = oRect (chunk (wid (cL L) (jL L)) r) := by
  unfold oRect Rect.part Rect.block
  congr 1 <;> funext a
  · rw [k0_off2_eq]
    match a with
    | 0 => simp [Shape.partIx, Shape.partSize, wid, chunk]; omega
    | 1 => simp [Shape.partIx, Shape.partSize]
  · match a with
    | 0 => simp [Shape.partSize]
    | 1 => simp [Shape.partSize]

omit [FloatOps F] in
theorem set_oChK (r : Fin 8) : (oChK L r).view.set = oSet (chunk (wid (cL L) (jL L)) r) := by
  show ((oV).view.slice (Rect.unit (s := S16384x128) (k0_off2 L (BitVec.ofNat 32 (64 * r.val))) S64x128.size (k0_off2_inb L r))).set
    = ((oV).view.slice (oRect (chunk (wid (cL L) (jL L)) r))).set
  rw [oRect_eq]

omit [FloatOps F] in
theorem pts_oChK (r : Fin 8) (f : Buf (Elt F) (oLoc d)) :
    ((oChK L r).view.loc (V d (cV L) (jV L)) ↦[(oChK L r).view.set]{fullShare} f : sProp 𝕄) = oLoc d ↦[oSet (chunk (wid (cL L) (jL L)) r)]{fullShare} f := by
  rw [set_oChK]
omit [FloatOps F] in
theorem oCh0_eq : oCh0 L = oChK L 0 := rfl
omit [FloatOps F] in
theorem oCh1_eq : oCh1 L = oChK L 1 := rfl
omit [FloatOps F] in
theorem oCh2_eq : oCh2 L = oChK L 2 := rfl
omit [FloatOps F] in
theorem oCh3_eq : oCh3 L = oChK L 3 := rfl
omit [FloatOps F] in
theorem oCh4_eq : oCh4 L = oChK L 4 := rfl
omit [FloatOps F] in
theorem oCh5_eq : oCh5 L = oChK L 5 := rfl
omit [FloatOps F] in
theorem oCh6_eq : oCh6 L = oChK L 6 := rfl
omit [FloatOps F] in
theorem oCh7_eq : oCh7 L = oChK L 7 := rfl

/-! ## The tile's own semaphores and buffers, one by one -/

omit [FloatOps F] in
theorem ownCells_V (c : Fin τ.nSC) (j : Fin τ.nSub) :
    (ownCells (V d c j) : Finset (GSem nD τ sig)) = (Finset.univ : Finset (Fin 11)).image fun k => ((V d c j, SemLoc.dma k) : GSem nD τ sig) := by
  ext ⟨t, sm⟩
  simp only [mem_ownCells, Finset.mem_image, Finset.mem_univ, true_and]
  constructor
  · rintro ⟨rfl, h⟩
    cases sm with
    | reg r => exact absurd h ((by decide : ∀ r : Fin 5, ¬ ((SemLoc.reg r : SemLoc sig).isScoped .scVector = true)) r)
    | dma k => exact ⟨k, rfl⟩
  · rintro ⟨k, e⟩
    obtain ⟨rfl, rfl⟩ := Prod.mk.inj e
    exact ⟨rfl, (by decide : ∀ k : Fin 11, (SemLoc.dma k : SemLoc sig).isScoped .scVector = true) k⟩

omit [FloatOps F] in
theorem ownSems0_V :
    (ownSems0 (V d (cV L) (jV L)) : sProp 𝕄)
      = iprop(semVal (V d (cV L) (jV L), .dma gSem0.sem) 0
          ∗ semVal (V d (cV L) (jV L), .dma gSem1.sem) 0
          ∗ semVal (V d (cV L) (jV L), .dma gSem2.sem) 0
          ∗ semVal (V d (cV L) (jV L), .dma gSem3.sem) 0
          ∗ semVal (V d (cV L) (jV L), .dma gSem4.sem) 0
          ∗ semVal (V d (cV L) (jV L), .dma gSem5.sem) 0
          ∗ semVal (V d (cV L) (jV L), .dma gSem6.sem) 0
          ∗ semVal (V d (cV L) (jV L), .dma gSem7.sem) 0
          ∗ semVal (V d (cV L) (jV L), .dma cc0_scratch4.sem) 0
          ∗ semVal (V d (cV L) (jV L), .dma cc0_scoped0.sem) 0
          ∗ semVal (V d (cV L) (jV L), .dma cc0_scoped1.sem) 0
          ∗ bigSep Finset.univ fun k : Fin 0 => semVal (V d (cV L) (jV L), SemLoc.dma (k.succ.succ.succ.succ.succ.succ.succ.succ.succ.succ.succ : Fin 11)) 0) := by
  unfold SparseCore.Cfg.ownSems0
  rw [ownCells_V, SparseCore.bigSep_image_of_injOn (fun a _ b _ e => SemLoc.dma.inj (Prod.mk.inj e).2)]
  rw [bigSep_univ_succ, bigSep_univ_succ, bigSep_univ_succ, bigSep_univ_succ, bigSep_univ_succ, bigSep_univ_succ,
    bigSep_univ_succ, bigSep_univ_succ, bigSep_univ_succ, bigSep_univ_succ, bigSep_univ_succ]
  rfl

omit [FloatOps F] in
/-- The two scratch buffers are the tile's own: each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase ((Proc.scVector (cV L) (jV L)).devRef cc0_scratch1))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨by simp [Proc.devRef], SparseCore.Cfg.mem_ownRefs_of_owner (p := Proc.scVector (cV L) (jV L)) (b := (Proc.scVector (cV L) (jV L)).devRef cc0_scratch1) rfl⟩)]

omit [FloatOps F] in
theorem pts_i5V (f : Buf (Elt F) ((V d (cV L) (jV L)).loc cc0_scratch0)) :
    ((i5V).view.loc (V d (cV L) (jV L)) ↦{fullShare} f : sProp 𝕄) = (V d (cV L) (jV L)).loc cc0_scratch0 ↦{fullShare} f := rfl
omit [FloatOps F] in
theorem pts_r6V (f : Buf (Elt F) ((V d (cV L) (jV L)).loc cc0_scratch1)) :
    ((r6V).view.loc (V d (cV L) (jV L)) ↦{fullShare} f : sProp 𝕄) = (V d (cV L) (jV L)).loc cc0_scratch1 ↦{fullShare} f := rfl
omit [FloatOps F] in
theorem pts_tbV (q : PosShare TreeShare) (f : Buf (Elt F) (tbLoc d)) :
    ((tbV).view.loc (V d (cV L) (jV L)) ↦{q} f : sProp 𝕄) = tbLoc d ↦{q} f := rfl
omit [FloatOps F] in
theorem pts_shV (q : PosShare TreeShare) (f : Buf (Elt F) (shLoc d (cV L))) :
    ((shV).view.loc (V d (cV L) (jV L)) ↦{q} f : sProp 𝕄) = shLoc d (cV L) ↦{q} f := rfl

omit [FloatOps F] in
theorem set_shSl : (shSl).view.set = Finset.univ := by
  show ((shV).view.slice (Rect.unit (s := S1001x128) ![0, 0] S1001x128.size inb_S1001x128_S1001x128_0_0)).set = Finset.univ
  rw [View.set_slice_whole]
  ext i
  rw [Rect.mem_set_unit]
  simp only [Finset.mem_univ, iff_true]
  intro a
  match a with
  | 0 => refine ⟨Nat.zero_le _, ?_⟩; show (i 0).val < 1001; exact (i 0).isLt
  | 1 => refine ⟨Nat.zero_le _, ?_⟩; show (i 1).val < 128; exact (i 1).isLt

omit [FloatOps F] in
theorem pts_shSl (q : PosShare TreeShare) (f : Buf (Elt F) (shLoc d (cV L))) :
    ((shSl).view.loc (V d (cV L) (jV L)) ↦[(shSl).view.set]{q} f : sProp 𝕄) = shLoc d (cV L) ↦{q} f := by
  rw [set_shSl]; rfl

omit [FloatOps F] in
theorem pts_oCh0 (f : Buf (Elt F) (oLoc d)) :
    ((oCh0 L).view.loc (V d (cV L) (jV L)) ↦[(oCh0 L).view.set]{fullShare} f : sProp 𝕄) = oLoc d ↦[oSet (chunk (wid (cL L) (jL L)) 0)]{fullShare} f :=
  pts_oChK d L 0 f
omit [FloatOps F] in
theorem pts_oCh1 (f : Buf (Elt F) (oLoc d)) :
    ((oCh1 L).view.loc (V d (cV L) (jV L)) ↦[(oCh1 L).view.set]{fullShare} f : sProp 𝕄) = oLoc d ↦[oSet (chunk (wid (cL L) (jL L)) 1)]{fullShare} f :=
  pts_oChK d L 1 f
omit [FloatOps F] in
theorem pts_oCh2 (f : Buf (Elt F) (oLoc d)) :
    ((oCh2 L).view.loc (V d (cV L) (jV L)) ↦[(oCh2 L).view.set]{fullShare} f : sProp 𝕄) = oLoc d ↦[oSet (chunk (wid (cL L) (jL L)) 2)]{fullShare} f :=
  pts_oChK d L 2 f
omit [FloatOps F] in
theorem pts_oCh3 (f : Buf (Elt F) (oLoc d)) :
    ((oCh3 L).view.loc (V d (cV L) (jV L)) ↦[(oCh3 L).view.set]{fullShare} f : sProp 𝕄) = oLoc d ↦[oSet (chunk (wid (cL L) (jL L)) 3)]{fullShare} f :=
  pts_oChK d L 3 f
omit [FloatOps F] in
theorem pts_oCh4 (f : Buf (Elt F) (oLoc d)) :
    ((oCh4 L).view.loc (V d (cV L) (jV L)) ↦[(oCh4 L).view.set]{fullShare} f : sProp 𝕄) = oLoc d ↦[oSet (chunk (wid (cL L) (jL L)) 4)]{fullShare} f :=
  pts_oChK d L 4 f
omit [FloatOps F] in
theorem pts_oCh5 (f : Buf (Elt F) (oLoc d)) :
    ((oCh5 L).view.loc (V d (cV L) (jV L)) ↦[(oCh5 L).view.set]{fullShare} f : sProp 𝕄) = oLoc d ↦[oSet (chunk (wid (cL L) (jL L)) 5)]{fullShare} f :=
  pts_oChK d L 5 f
omit [FloatOps F] in
theorem pts_oCh6 (f : Buf (Elt F) (oLoc d)) :
    ((oCh6 L).view.loc (V d (cV L) (jV L)) ↦[(oCh6 L).view.set]{fullShare} f : sProp 𝕄) = oLoc d ↦[oSet (chunk (wid (cL L) (jL L)) 6)]{fullShare} f :=
  pts_oChK d L 6 f
omit [FloatOps F] in
theorem pts_oCh7 (f : Buf (Elt F) (oLoc d)) :
    ((oCh7 L).view.loc (V d (cV L) (jV L)) ↦[(oCh7 L).view.set]{fullShare} f : sProp 𝕄) = oLoc d ↦[oSet (chunk (wid (cL L) (jL L)) 7)]{fullShare} f :=
  pts_oChK d L 7 f

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7 ∗ bigSep Finset.univ fun k : Fin 0 => Φ k.succ.succ.succ.succ.succ.succ.succ.succ) := by
  rw [bigSep_univ_succ, bigSep_univ_succ, bigSep_univ_succ, bigSep_univ_succ, bigSep_univ_succ, bigSep_univ_succ, bigSep_univ_succ, bigSep_univ_succ]
  rfl

/-! ## What the barrier hands over -/

/-- Tile 0 cuts the shared copy's full share into the sixteen read shares, one per round, and keeps the rest. -/
theorem pays_zero (h0 : (L 1).val = 0) : (shLoc d (cV L) ↦{fullShare} shC m d (cV L) : sProp 𝕄)
    ⊢ iprop(shRest m d (cV L) ∗ bigSep Finset.univ fun j : Fin (grid0.bound 1) => (bRd (F := F) m).payload (bcell d (cV L) (j.castLE hsub0)) 0 (jV L).val) := by
  have hv : (jV L).val = 0 := h0
  refine (Transfers.pointsTo_toks (ℓ := shLoc d (cV L)) (f := shC m d (cV L)) fullShare 16).1.trans ?_
  refine sep_mono_right (bigSep_mono fun j _ => ?_)
  show _ ⊢ bPay m (bcell d (cV L) (j.castLE hsub0)) (jV L).val
  unfold bPay; dsimp only
  rw [if_pos hv]; exact .rfl

/-- Another tile hands over nothing. -/
theorem pays_pos (h0 : (L 1).val ≠ 0) : (iprop(emp) : sProp 𝕄)
    ⊢ bigSep Finset.univ fun j : Fin (grid0.bound 1) => (bRd (F := F) m).payload (bcell d (cV L) (j.castLE hsub0)) 0 (jV L).val := by
  have hv : (jV L).val ≠ 0 := h0
  rw [show (bigSep Finset.univ fun j : Fin (grid0.bound 1) => (bRd (F := F) m).payload (bcell d (cV L) (j.castLE hsub0)) 0 (jV L).val)
      = bigSep Finset.univ fun _ : Fin (grid0.bound 1) => (iprop(emp) : sProp 𝕄) from bigSep_congr fun j _ => if_neg hv, bigSep_emp']

/-- What a tile's own round collected holds its read share of the shared copy. -/
theorem pays_elim : (bigSep ((bRd (F := F) m).duties (bcell d (cV L) (jV L)) 0 \ ∅) fun n => (bRd (F := F) m).payload (bcell d (cV L) (jV L)) 0 n)
    ⊢ (shTok m d (cV L) (jV L).val : sProp 𝕄) := by
  rw [Finset.sdiff_empty, bRd_duties₀]
  refine (bigSep_elim (i := 0) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]

end Tile

end Cert.Proof.Kernel

end
-- ==== Proof.Kernel.TileFacts.lean ====
/-
  What a task's lists hold once its first copy has landed — its row of the index array, every entry a table row's
  number — and what the shared copy holds once tile 0 has filled it: the table.
-/
import proofs.«206951_g4793183502620_cont_8to1_c_898_7_alg».proof.Proof.Kernel.TileSets

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

local notation "ixV" => (Memref.whole Cert.Kernel.main_v0_scv : Memref Cert.Kernel.sig Kind.scVector Space.hbm Cert.Kernel.S32x8x64 EltTy.i32)
local notation "tbV" => (Memref.whole Cert.Kernel.main_arg1_scv : Memref Cert.Kernel.sig Kind.scVector Space.hbm Cert.Kernel.S1001x128 EltTy.f32)
local notation "oV" => (Memref.whole Cert.Kernel.main_v1_scv : Memref Cert.Kernel.sig Kind.scVector Space.hbm Cert.Kernel.S16384x128 EltTy.f32)
local notation "i5V" => (Memref.whole Cert.Kernel.cc0_scratch0 : Memref Cert.Kernel.sig Kind.scVector Space.vmem Cert.Kernel.S8x64 EltTy.i32)
local notation "r6V" => (Memref.whole Cert.Kernel.cc0_scratch1 : Memref Cert.Kernel.sig Kind.scVector Space.vmem Cert.Kernel.S512x128 EltTy.f32)
local notation "shV" => (Memref.whole Cert.Kernel.cc0_scratch2 : Memref Cert.Kernel.sig Kind.scVector Space.shared Cert.Kernel.S1001x128 EltTy.f32)

variable [FloatOps F]

section Tile

variable (d : Dev nD) (L : grid0.Coords)

/-! ## What the task's lists hold -/

/-- The task's eight lists as the first copy delivers them: its row of the index array. -/
abbrev idxPay : S8x64.Idx → Elt F .i32 := ReadAs.same.apply ((ixRowK L).view.read (Elt F) (ixC m d))

omit [FloatOps F] in
theorem idxPay_le (hr : Cert.Spec.InRange (m (aLoc d))) (y : S8x64.Idx) : (idxPay m d L y).toNat ≤ 999 := by
  have key : ∀ j : S16384.Idx, (m (aLoc d) j).toNat ≤ 999 := fun j => by rw [ValueIdx.eq_ix1 j]; exact hr _
  show (m (aLoc d) (Shape.reshapeEquiv shapeCasts_S16384_S32x8x64 ((ixRowK L).view.emb y))).toNat ≤ 999
  exact key _

omit [FloatOps F] in
theorem i5_written_le (hr : Cert.Spec.InRange (m (aLoc d))) (g : Buf (Elt F) ((i5V).view.loc (V d (cV L) (jV L)))) (i : S8x64.Idx) :
    ((View.write (Elt F) (i5V).view g (idxPay m d L) Finset.univ) i).toNat ≤ 999 := by
  have e : (i5V).view.emb i = i := rfl
  rw [← e, View.write_emb_of_mem _ _ (Finset.mem_univ i)]
  exact idxPay_le m d L hr i

omit [FloatOps F] in
theorem hin0 (hr : Cert.Spec.InRange (m (aLoc d))) (g : Buf (Elt F) ((i5V).view.loc (V d (cV L) (jV L)))) :
    ∀ x, ((iRow0).view.read (Elt F) (View.write (Elt F) (i5V).view g (idxPay m d L) Finset.univ) x).toNat < S1001x128.size gathers_S1001x128_S64x128.axis := by
  intro x
  show ((View.write (Elt F) (i5V).view g (idxPay m d L) Finset.univ) ((iRow0).view.emb x)).toNat < 1001
  exact Nat.lt_of_le_of_lt (i5_written_le m d L hr g _) (by decide)
omit [FloatOps F] in
theorem hin1 (hr : Cert.Spec.InRange (m (aLoc d))) (g : Buf (Elt F) ((i5V).view.loc (V d (cV L) (jV L)))) :
    ∀ x, ((iRow1).view.read (Elt F) (View.write (Elt F) (i5V).view g (idxPay m d L) Finset.univ) x).toNat < S1001x128.size gathers_S1001x128_S64x128.axis := by
  intro x
  show ((View.write (Elt F) (i5V).view g (idxPay m d L) Finset.univ) ((iRow1).view.emb x)).toNat < 1001
  exact Nat.lt_of_le_of_lt (i5_written_le m d L hr g _) (by decide)
omit [FloatOps F] in
theorem hin2 (hr : Cert.Spec.InRange (m (aLoc d))) (g : Buf (Elt F) ((i5V).view.loc (V d (cV L) (jV L)))) :
    ∀ x, ((iRow2).view.read (Elt F) (View.write (Elt F) (i5V).view g (idxPay m d L) Finset.univ) x).toNat < S1001x128.size gathers_S1001x128_S64x128.axis := by
  intro x
  show ((View.write (Elt F) (i5V).view g (idxPay m d L) Finset.univ) ((iRow2).view.emb x)).toNat < 1001
  exact Nat.lt_of_le_of_lt (i5_written_le m d L hr g _) (by decide)
omit [FloatOps F] in
theorem hin3 (hr : Cert.Spec.InRange (m (aLoc d))) (g : Buf (Elt F) ((i5V).view.loc (V d (cV L) (jV L)))) :
    ∀ x, ((iRow3).view.read (Elt F) (View.write (Elt F) (i5V).view g (idxPay m d L) Finset.univ) x).toNat < S1001x128.size gathers_S1001x128_S64x128.axis := by
  intro x
  show ((View.write (Elt F) (i5V).view g (idxPay m d L) Finset.univ) ((iRow3).view.emb x)).toNat < 1001
  exact Nat.lt_of_le_of_lt (i5_written_le m d L hr g _) (by decide)
omit [FloatOps F] in
theorem hin4 (hr : Cert.Spec.InRange (m (aLoc d))) (g : Buf (Elt F) ((i5V).view.loc (V d (cV L) (jV L)))) :
    ∀ x, ((iRow4).view.read (Elt F) (View.write (Elt F) (i5V).view g (idxPay m d L) Finset.univ) x).toNat < S1001x128.size gathers_S1001x128_S64x128.axis := by
  intro x
  show ((View.write (Elt F) (i5V).view g (idxPay m d L) Finset.univ) ((iRow4).view.emb x)).toNat < 1001
  exact Nat.lt_of_le_of_lt (i5_written_le m d L hr g _) (by decide)
omit [FloatOps F] in
theorem hin5 (hr : Cert.Spec.InRange (m (aLoc d))) (g : Buf (Elt F) ((i5V).view.loc (V d (cV L) (jV L)))) :
    ∀ x, ((iRow5).view.read (Elt F) (View.write (Elt F) (i5V).view g (idxPay m d L) Finset.univ) x).toNat < S1001x128.size gathers_S1001x128_S64x128.axis := by
  intro x
  show ((View.write (Elt F) (i5V).view g (idxPay m d L) Finset.univ) ((iRow5).view.emb x)).toNat < 1001
  exact Nat.lt_of_le_of_lt (i5_written_le m d L hr g _) (by decide)
omit [FloatOps F] in
theorem hin6 (hr : Cert.Spec.InRange (m (aLoc d))) (g : Buf (Elt F) ((i5V).view.loc (V d (cV L) (jV L)))) :
    ∀ x, ((iRow6).view.read (Elt F) (View.write (Elt F) (i5V).view g (idxPay m d L) Finset.univ) x).toNat < S1001x128.size gathers_S1001x128_S64x128.axis := by
  intro x
  show ((View.write (Elt F) (i5V).view g (idxPay m d L) Finset.univ) ((iRow6).view.emb x)).toNat < 1001
  exact Nat.lt_of_le_of_lt (i5_written_le m d L hr g _) (by decide)
omit [FloatOps F] in
theorem hin7 (hr : Cert.Spec.InRange (m (aLoc d))) (g : Buf (Elt F) ((i5V).view.loc (V d (cV L) (jV L)))) :
    ∀ x, ((iRow7).view.read (Elt F) (View.write (Elt F) (i5V).view g (idxPay m d L) Finset.univ) x).toNat < S1001x128.size gathers_S1001x128_S64x128.axis := by
  intro x
  show ((View.write (Elt F) (i5V).view g (idxPay m d L) Finset.univ) ((iRow7).view.emb x)).toNat < 1001
  exact Nat.lt_of_le_of_lt (i5_written_le m d L hr g _) (by decide)

omit [FloatOps F] in
/-- The shared copy, once tile 0 has copied the table into it, holds the table. -/
theorem shared_written (g : Buf (Elt F) (shLoc d (cV L))) :
    View.write (Elt F) (shV).view g (ReadAs.same.apply ((tbV).view.read (Elt F) (m (tbLoc d)))) Finset.univ = shC m d (cV L) := by
  funext i
  have e : (shV).view.emb i = i := rfl
  rw [← e, View.write_emb_of_mem _ _ (Finset.mem_univ i)]
  rfl

end Tile

end Cert.Proof.Kernel

end
-- ==== Proof.Kernel.TileValue.lean ====
/-
  The value a task writes. Task `w` holds row `w` of the index array in its list scratch: entry `(k, x)` is index number
  `512·w + 64·k + x` of the index vector. Gather `k` fills rows `64·k …` of the rows scratch with the table rows its
  list names, so row `z` of the rows scratch is the table row that index number `512·w + z` names: the function the
  result holds at row `512·w + z`. Block `j` of the rows scratch is copied to rows `512·w + 64·j …` of the result.
-/
import proofs.«206951_g4793183502620_cont_8to1_c_898_7_alg».proof.Proof.Kernel.TileFacts

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

local notation "ixV" => (Memref.whole Cert.Kernel.main_v0_scv : Memref Cert.Kernel.sig Kind.scVector Space.hbm Cert.Kernel.S32x8x64 EltTy.i32)
local notation "tbV" => (Memref.whole Cert.Kernel.main_arg1_scv : Memref Cert.Kernel.sig Kind.scVector Space.hbm Cert.Kernel.S1001x128 EltTy.f32)
local notation "oV" => (Memref.whole Cert.Kernel.main_v1_scv : Memref Cert.Kernel.sig Kind.scVector Space.hbm Cert.Kernel.S16384x128 EltTy.f32)
local notation "i5V" => (Memref.whole Cert.Kernel.cc0_scratch0 : Memref Cert.Kernel.sig Kind.scVector Space.vmem Cert.Kernel.S8x64 EltTy.i32)
local notation "r6V" => (Memref.whole Cert.Kernel.cc0_scratch1 : Memref Cert.Kernel.sig Kind.scVector Space.vmem Cert.Kernel.S512x128 EltTy.f32)
local notation "shV" => (Memref.whole Cert.Kernel.cc0_scratch2 : Memref Cert.Kernel.sig Kind.scVector Space.shared Cert.Kernel.S1001x128 EltTy.f32)

variable [FloatOps F]

section Tile

variable (d : Dev nD) (L : grid0.Coords)

open Idealize.ShloMosaic.ValueIdx

/-! ## The memrefs of list `k`, for a variable `k` -/

omit [FloatOps F] in
theorem inbI (k : Fin 8) : ∀ a, (![k.val, 0] : Fin 2 → Nat) a + S1x64.size a ≤ S8x64.size a := by
  intro a
  match a with
  | 0 => show k.val + 1 ≤ 8; omega
  | 1 => show 0 + 64 ≤ 64; omega
omit [FloatOps F] in
theorem inbR (k : Fin 8) : ∀ a, (![64 * k.val, 0] : Fin 2 → Nat) a + S64x128.size a ≤ S512x128.size a := by
  intro a
  match a with
  | 0 => show 64 * k.val + 64 ≤ 512; omega
  | 1 => show 0 + 128 ≤ 128; omega

/-- List `k` of the list scratch, squeezed, as gather `k` addresses it. -/
abbrev iRowK (k : Fin 8) : Memref sig .scVector .vmem S64 .i32 :=
  ((i5V).slice (Rect.unit (s := S8x64) ![k.val, 0] S1x64.size (inbI k)) (fun _ => rfl)).squeeze S64 squeezes_S1x64_S64
/-- Block `k` of the rows scratch. -/
abbrev rRectK (k : Fin 8) : Rect S512x128 := Rect.unit (s := S512x128) ![64 * k.val, 0] S64x128.size (inbR k)
abbrev rChK (k : Fin 8) : Memref sig .scVector .vmem S64x128 .f32 := (r6V).slice (rRectK k) (fun _ => rfl)

omit [FloatOps F] in
theorem iRow0_eq : iRow0 = iRowK 0 := rfl
omit [FloatOps F] in
theorem iRow3_eq : iRow3 = iRowK 3 := rfl
omit [FloatOps F] in
theorem rCh5_eq : rCh5 = rChK 5 := rfl

/-! ## What the lists hold, by index number -/

omit [FloatOps F] in
/-- Squeezing the leading unit axis: the index behind the coordinate `0`. -/
theorem squeeze_S8x64 (h : S8x64.numel = S1x8x64.numel) (y : S8x64.Idx) (a : Fin 3) :
    (Shape.reshapeEquiv h y a).val = match a with | 0 => 0 | 1 => (y 0).val | 2 => (y 1).val := by
  rw [Shape.reshapeEquiv_cons_one (n := 2) (d := ![8, 64]) h y]
  match a with
  | 0 => rfl
  | 1 => rfl
  | 2 => rfl

omit [FloatOps F] in
/-- Where entry `y` of the task's row sits in the index array: row `w`, list `y₀`, place `y₁`. -/
theorem ixRowK_emb (y : S8x64.Idx) (a : Fin 3) :
    (((ixRowK L).view.emb y : S32x8x64.Idx) a).val = match a with | 0 => (wid (cL L) (jL L)).val | 1 => (y 0).val | 2 => (y 1).val := by
  show ((Rect.unit (s := S32x8x64) (k0_off1 L) S1x8x64.size (k0_off1_inb L)).emb (Shape.reshapeEquiv squeezes_S1x8x64_S8x64.numel_eq y) a).val = _
  rw [Rect.emb_apply, squeeze_S8x64, Rect.off_unit, Rect.stride_unit, k0_off1_eq]
  match a with
  | 0 => simp [wid]
  | 1 => simp
  | 2 => simp

omit [FloatOps F] in
/-- Entry `y` of the task's lists is index number `512·w + 64·y₀ + y₁` of the index vector. -/
theorem idxPay_eq (y : S8x64.Idx) (p : Fin 16384) (hp : p.val = 512 * (wid (cL L) (jL L)).val + 64 * (y 0).val + (y 1).val) :
    idxPay m d L y = m (aLoc d) (ix1 p) := by
  show m (aLoc d) (Shape.reshapeEquiv shapeCasts_S16384_S32x8x64 ((ixRowK L).view.emb y)) = _
  congr 1
  apply Shape.reshapeEquiv_eq_of_rowMajor
  rw [Shape.rowMajor_val_one, Shape.rowMajor_val_three, ixRowK_emb, ixRowK_emb, ixRowK_emb]
  show p.val = ((wid (cL L) (jL L)).val * 8 + (y 0).val) * 64 + (y 1).val
  omega

omit [FloatOps F] in
/-- Squeezing the leading unit axis of a list. -/
theorem squeeze_S64 (h : S64.numel = S1x64.numel) (x : S64.Idx) (a : Fin 2) :
    (Shape.reshapeEquiv h x a).val = match a with | 0 => 0 | 1 => (x 0).val := by
  rw [Shape.reshapeEquiv_cons_one (n := 1) (d := ![64]) h x]
  match a with
  | 0 => rfl
  | 1 => rfl

omit [FloatOps F] in
/-- Where entry `x` of list `k` sits in the list scratch: row `k`, place `x`. -/
theorem iRowK_emb (k : Fin 8) (x : S64.Idx) (a : Fin 2) :
    (((iRowK k).view.emb x : S8x64.Idx) a).val = match a with | 0 => k.val | 1 => (x 0).val := by
  show ((Rect.unit (s := S8x64) ![k.val, 0] S1x64.size (inbI k)).emb (Shape.reshapeEquiv squeezes_S1x64_S64.numel_eq x) a).val = _
  rw [Rect.emb_apply, squeeze_S64, Rect.off_unit, Rect.stride_unit]
  match a with
  | 0 => simp
  | 1 => simp

omit [FloatOps F] in
/-- Entry `x` of list `k`, read from the list scratch once the task's row has landed in it: index number
    `512·w + 64·k + x` of the index vector. -/
theorem iRowK_read (k : Fin 8) (g5 : Buf (Elt F) ((i5V).view.loc (V d (cV L) (jV L)))) (x : S64.Idx)
    (p : Fin 16384) (hp : p.val = 512 * (wid (cL L) (jL L)).val + 64 * k.val + (x 0).val) :
    (iRowK k).view.read (Elt F) (View.write (Elt F) (i5V).view g5 (idxPay m d L) Finset.univ) x = m (aLoc d) (ix1 p) := by
  show (View.write (Elt F) (i5V).view g5 (idxPay m d L) Finset.univ) ((iRowK k).view.emb x) = _
  have e : (i5V).view.emb ((iRowK k).view.emb x) = (iRowK k).view.emb x := rfl
  rw [← e, View.write_emb_of_mem _ _ (Finset.mem_univ _)]
  refine idxPay_eq m d L _ p ?_
  rw [iRowK_emb, iRowK_emb]
  exact hp

omit [FloatOps F] in
/-- The index of a list at row-major position `j` has coordinate `j`. -/
theorem rowMajor_symm_S64 (j : Fin S64.numel) : ((S64.rowMajor.symm j) 0).val = j.val := by
  have h := Shape.rowMajor_val_one (S64.rowMajor.symm j)
  rw [Equiv.apply_symm_apply] at h
  exact h.symm

/-! ## What a gather writes -/

/-- Gather `k`'s payload, for a variable `k`. -/
abbrev gathK (k : Fin 8) (g5 : Buf (Elt F) ((i5V).view.loc (V d (cV L) (jV L))))
    (h : ∀ x, ((iRowK k).view.read (Elt F) (View.write (Elt F) (i5V).view g5 (idxPay m d L) Finset.univ) x).toNat < S1001x128.size gathers_S1001x128_S64x128.axis) :
    S64x128.Idx → Elt F .f32 :=
  SparseCore.gatherPayload gathers_S1001x128_S64x128 ((shSl).view.read (Elt F) (m (tbLoc d)))
    (SparseCore.rows ((iRowK k).view.read (Elt F) (View.write (Elt F) (i5V).view g5 (idxPay m d L) Finset.univ)) rfl h)

/-- Gather `k`'s payload at `x` is the result's value at row `512·w + 64·k + x₀`, lane `x₁`. -/
theorem gathK_eq (hr : Cert.Spec.InRange (m (aLoc d))) (k : Fin 8) (g5 : Buf (Elt F) ((i5V).view.loc (V d (cV L) (jV L))))
    (h : ∀ x, ((iRowK k).view.read (Elt F) (View.write (Elt F) (i5V).view g5 (idxPay m d L) Finset.univ) x).toNat < S1001x128.size gathers_S1001x128_S64x128.axis)
    (x : S64x128.Idx) (q : S16384x128.Idx) (hq0 : (q 0).val = 512 * (wid (cL L) (jL L)).val + 64 * k.val + (x 0).val) (hq1 : (q 1).val = (x 1).val) :
    gathK m d L k g5 h x = G m d q := by
  show m (tbLoc d) ((shSl).view.emb (gathers_S1001x128_S64x128.idx
      (SparseCore.rows ((iRowK k).view.read (Elt F) (View.write (Elt F) (i5V).view g5 (idxPay m d L) Finset.univ)) rfl h) x))
    = m (tbLoc d) (ix2 (Cert.Spec.rowOf (m (aLoc d)) ⟨(q 0).val, (q 0).isLt⟩) (⟨(q 1).val, (q 1).isLt⟩ : Fin 128))
  congr 1
  funext a
  apply Fin.ext
  match a with
  | 0 =>
    show 0 + 1 * (gathers_S1001x128_S64x128.idx (SparseCore.rows ((iRowK k).view.read (Elt F) (View.write (Elt F) (i5V).view g5 (idxPay m d L) Finset.univ)) rfl h) x (0 : Fin 2)).val
      = (Cert.Spec.rowOf (m (aLoc d)) ⟨(q 0).val, (q 0).isLt⟩).val
    have h0 : (gathers_S1001x128_S64x128.idx (SparseCore.rows ((iRowK k).view.read (Elt F) (View.write (Elt F) (i5V).view g5 (idxPay m d L) Finset.univ)) rfl h) x (0 : Fin 2)).val = (SparseCore.rows ((iRowK k).view.read (Elt F) (View.write (Elt F) (i5V).view g5 (idxPay m d L) Finset.univ)) rfl h (x 0)).val :=
      congrArg Fin.val (gathers_S1001x128_S64x128.idx_axis (SparseCore.rows ((iRowK k).view.read (Elt F) (View.write (Elt F) (i5V).view g5 (idxPay m d L) Finset.univ)) rfl h) x)
    rw [h0, Cert.Spec.rowOf_val hr, Nat.zero_add, Nat.one_mul]
    show ((iRowK k).view.read (Elt F) (View.write (Elt F) (i5V).view g5 (idxPay m d L) Finset.univ) (S64.rowMajor.symm (Fin.cast _ (x 0)))).toNat = _
    rw [iRowK_read m d L k g5 _ ⟨(q 0).val, (q 0).isLt⟩ (by rw [rowMajor_symm_S64]; exact hq0)]
  | 1 =>
    show 0 + 1 * (gathers_S1001x128_S64x128.idx (SparseCore.rows ((iRowK k).view.read (Elt F) (View.write (Elt F) (i5V).view g5 (idxPay m d L) Finset.univ)) rfl h) x (1 : Fin 2)).val = (q 1).val
    have h1 := gathers_S1001x128_S64x128.idx_of_ne (SparseCore.rows ((iRowK k).view.read (Elt F) (View.write (Elt F) (i5V).view g5 (idxPay m d L) Finset.univ)) rfl h) x (1 : Fin 2) (by decide)
    rw [h1, hq1, Nat.zero_add, Nat.one_mul]
    rfl

/-- Row `z` of the rows scratch once the eight gathers have landed: the result's row `512·w + z`. -/
def rowsG : S512x128.Idx → Elt F .f32 := fun z =>
  G m d (ix2 (⟨512 * (wid (cL L) (jL L)).val + (z 0).val, by have := idx2_lt0 z; have := (wid (cL L) (jL L)).isLt; omega⟩ : Fin 16384)
    (⟨(z 1).val, idx2_lt1 z⟩ : Fin 128))

/-- Gather `k`'s payload is that function on block `k` of the rows scratch. -/
theorem gathK_piece (hr : Cert.Spec.InRange (m (aLoc d))) (k : Fin 8) (g5 : Buf (Elt F) ((i5V).view.loc (V d (cV L) (jV L))))
    (h : ∀ x, ((iRowK k).view.read (Elt F) (View.write (Elt F) (i5V).view g5 (idxPay m d L) Finset.univ) x).toNat < S1001x128.size gathers_S1001x128_S64x128.axis)
    (x : S64x128.Idx) : gathK m d L k g5 h x = rowsG m d L ((rRectK k).emb x) := by
  unfold rowsG
  refine gathK_eq m d L hr k g5 h x _ ?_ ?_
  · show 512 * (wid (cL L) (jL L)).val + (64 * k.val + 1 * (x 0).val) = 512 * (wid (cL L) (jL L)).val + 64 * k.val + (x 0).val
    omega
  · show 0 + 1 * (x 1).val = (x 1).val
    omega

/-! ## The eight gathers, in the program's spelling -/

abbrev gath0 (g5 : Buf (Elt F) ((i5V).view.loc (V d (cV L) (jV L)))) (h : ∀ x, ((iRow0).view.read (Elt F) (View.write (Elt F) (i5V).view g5 (idxPay m d L) Finset.univ) x).toNat < S1001x128.size gathers_S1001x128_S64x128.axis) : S64x128.Idx → Elt F .f32 :=
  SparseCore.gatherPayload gathers_S1001x128_S64x128 ((shSl).view.read (Elt F) (m (tbLoc d)))
    (SparseCore.rows ((iRow0).view.read (Elt F) (View.write (Elt F) (i5V).view g5 (idxPay m d L) Finset.univ)) rfl h)
abbrev gath1 (g5 : Buf (Elt F) ((i5V).view.loc (V d (cV L) (jV L)))) (h : ∀ x, ((iRow1).view.read (Elt F) (View.write (Elt F) (i5V).view g5 (idxPay m d L) Finset.univ) x).toNat < S1001x128.size gathers_S1001x128_S64x128.axis) : S64x128.Idx → Elt F .f32 :=
  SparseCore.gatherPayload gathers_S1001x128_S64x128 ((shSl).view.read (Elt F) (m (tbLoc d)))
    (SparseCore.rows ((iRow1).view.read (Elt F) (View.write (Elt F) (i5V).view g5 (idxPay m d L) Finset.univ)) rfl h)
abbrev gath2 (g5 : Buf (Elt F) ((i5V).view.loc (V d (cV L) (jV L)))) (h : ∀ x, ((iRow2).view.read (Elt F) (View.write (Elt F) (i5V).view g5 (idxPay m d L) Finset.univ) x).toNat < S1001x128.size gathers_S1001x128_S64x128.axis) : S64x128.Idx → Elt F .f32 :=
  SparseCore.gatherPayload gathers_S1001x128_S64x128 ((shSl).view.read (Elt F) (m (tbLoc d)))
    (SparseCore.rows ((iRow2).view.read (Elt F) (View.write (Elt F) (i5V).view g5 (idxPay m d L) Finset.univ)) rfl h)
abbrev gath3 (g5 : Buf (Elt F) ((i5V).view.loc (V d (cV L) (jV L)))) (h : ∀ x, ((iRow3).view.read (Elt F) (View.write (Elt F) (i5V).view g5 (idxPay m d L) Finset.univ) x).toNat < S1001x128.size gathers_S1001x128_S64x128.axis) : S64x128.Idx → Elt F .f32 :=
  SparseCore.gatherPayload gathers_S1001x128_S64x128 ((shSl).view.read (Elt F) (m (tbLoc d)))
    (SparseCore.rows ((iRow3).view.read (Elt F) (View.write (Elt F) (i5V).view g5 (idxPay m d L) Finset.univ)) rfl h)
abbrev gath4 (g5 : Buf (Elt F) ((i5V).view.loc (V d (cV L) (jV L)))) (h : ∀ x, ((iRow4).view.read (Elt F) (View.write (Elt F) (i5V).view g5 (idxPay m d L) Finset.univ) x).toNat < S1001x128.size gathers_S1001x128_S64x128.axis) : S64x128.Idx → Elt F .f32 :=
  SparseCore.gatherPayload gathers_S1001x128_S64x128 ((shSl).view.read (Elt F) (m (tbLoc d)))
    (SparseCore.rows ((iRow4).view.read (Elt F) (View.write (Elt F) (i5V).view g5 (idxPay m d L) Finset.univ)) rfl h)
abbrev gath5 (g5 : Buf (Elt F) ((i5V).view.loc (V d (cV L) (jV L)))) (h : ∀ x, ((iRow5).view.read (Elt F) (View.write (Elt F) (i5V).view g5 (idxPay m d L) Finset.univ) x).toNat < S1001x128.size gathers_S1001x128_S64x128.axis) : S64x128.Idx → Elt F .f32 :=
  SparseCore.gatherPayload gathers_S1001x128_S64x128 ((shSl).view.read (Elt F) (m (tbLoc d)))
    (SparseCore.rows ((iRow5).view.read (Elt F) (View.write (Elt F) (i5V).view g5 (idxPay m d L) Finset.univ)) rfl h)
abbrev gath6 (g5 : Buf (Elt F) ((i5V).view.loc (V d (cV L) (jV L)))) (h : ∀ x, ((iRow6).view.read (Elt F) (View.write (Elt F) (i5V).view g5 (idxPay m d L) Finset.univ) x).toNat < S1001x128.size gathers_S1001x128_S64x128.axis) : S64x128.Idx → Elt F .f32 :=
  SparseCore.gatherPayload gathers_S1001x128_S64x128 ((shSl).view.read (Elt F) (m (tbLoc d)))
    (SparseCore.rows ((iRow6).view.read (Elt F) (View.write (Elt F) (i5V).view g5 (idxPay m d L) Finset.univ)) rfl h)
abbrev gath7 (g5 : Buf (Elt F) ((i5V).view.loc (V d (cV L) (jV L)))) (h : ∀ x, ((iRow7).view.read (Elt F) (View.write (Elt F) (i5V).view g5 (idxPay m d L) Finset.univ) x).toNat < S1001x128.size gathers_S1001x128_S64x128.axis) : S64x128.Idx → Elt F .f32 :=
  SparseCore.gatherPayload gathers_S1001x128_S64x128 ((shSl).view.read (Elt F) (m (tbLoc d)))
    (SparseCore.rows ((iRow7).view.read (Elt F) (View.write (Elt F) (i5V).view g5 (idxPay m d L) Finset.univ)) rfl h)

/-- What the run leaves in the rows scratch: the eight gathers' payloads, the last issued first. -/
abbrev gathList (g5 : Buf (Elt F) ((i5V).view.loc (V d (cV L) (jV L)))) (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis) : List (View.Piece (Elt F) S512x128 .f32) :=
  [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩]

/-- Every piece is the one function `rowsG` on its block. -/
theorem gathList_ok (hr : Cert.Spec.InRange (m (aLoc d))) (g5 : Buf (Elt F) ((i5V).view.loc (V d (cV L) (jV L)))) (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis) :
    ∀ p ∈ gathList m d L g5 h0 h1 h2 h3 h4 h5 h6 h7, ∀ x : p.1.shape.Idx, p.2 x = rowsG m d L (p.1.emb x) :=
  List.forall_mem_cons.mpr ⟨fun x => gathK_piece m d L hr 7 g5 h7 x,
  List.forall_mem_cons.mpr ⟨fun x => gathK_piece m d L hr 6 g5 h6 x,
  List.forall_mem_cons.mpr ⟨fun x => gathK_piece m d L hr 5 g5 h5 x,
  List.forall_mem_cons.mpr ⟨fun x => gathK_piece m d L hr 4 g5 h4 x,
  List.forall_mem_cons.mpr ⟨fun x => gathK_piece m d L hr 3 g5 h3 x,
  List.forall_mem_cons.mpr ⟨fun x => gathK_piece m d L hr 2 g5 h2 x,
  List.forall_mem_cons.mpr ⟨fun x => gathK_piece m d L hr 1 g5 h1 x,
  List.forall_mem_cons.mpr ⟨fun x => gathK_piece m d L hr 0 g5 h0 x,
  fun _ hp => absurd hp List.not_mem_nil⟩⟩⟩⟩⟩⟩⟩⟩

/-! ## What the copy out of block `j` carries -/

/-- Block `j` of the rows scratch, read after the gathers, is the result on rows `512·w + 64·j …`. -/
theorem pay_valueK (hr : Cert.Spec.InRange (m (aLoc d))) (g5 : Buf (Elt F) ((i5V).view.loc (V d (cV L) (jV L)))) (f6 : Buf (Elt F) ((r6V).view.loc (V d (cV L) (jV L)))) (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (j : Fin 8) (y : S64x128.Idx) (hmem : ∃ p ∈ gathList m d L g5 h0 h1 h2 h3 h4 h5 h6 h7, p.1 = rRectK j) :
    ReadAs.same.apply ((rChK j).view.read (Elt F) ((r6V).view.writes (Elt F) f6 (gathList m d L g5 h0 h1 h2 h3 h4 h5 h6 h7))) y
      = G m d ((oChK L j).view.emb y) := by
  obtain ⟨p, hp, e⟩ := hmem
  have hcov : ∃ p ∈ gathList m d L g5 h0 h1 h2 h3 h4 h5 h6 h7, (rRectK j).emb y ∈ p.1.set :=
    ⟨p, hp, by rw [e]; exact LoadRect.idx_mem (rRectK j).toLoadRect y⟩
  show (r6V).view.read (Elt F) ((r6V).view.writes (Elt F) f6 (gathList m d L g5 h0 h1 h2 h3 h4 h5 h6 h7)) ((rRectK j).emb y) = _
  rw [View.read_writes_apply_of_pieces (r6V).view f6 (rowsG m d L) _ (gathList_ok m d L hr g5 h0 h1 h2 h3 h4 h5 h6 h7) _ hcov]
  unfold rowsG
  congr 1
  funext a
  apply Fin.ext
  match a with
  | 0 =>
    show 512 * (wid (cL L) (jL L)).val + (64 * j.val + 1 * (y 0).val) = k0_off2 L (BitVec.ofNat 32 (64 * j.val)) 0 + 1 * (y 0).val
    rw [k0_off2_eq]
    show 512 * (2 * (L 1).val + (L 0).val) + (64 * j.val + 1 * (y 0).val) = 1024 * (L 1).val + 512 * (L 0).val + 64 * j.val + 1 * (y 0).val
    omega
  | 1 =>
    show 0 + 1 * (y 1).val = k0_off2 L (BitVec.ofNat 32 (64 * j.val)) 1 + 1 * (y 1).val
    rw [k0_off2_eq]
    rfl

theorem pay_value0 (hr : Cert.Spec.InRange (m (aLoc d))) (g5 : Buf (Elt F) ((i5V).view.loc (V d (cV L) (jV L)))) (f6 : Buf (Elt F) ((r6V).view.loc (V d (cV L) (jV L))))
    (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (y : S64x128.Idx) :
    ReadAs.same.apply ((rCh0).view.read (Elt F) ((r6V).view.writes (Elt F) f6
      [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩])) y
      = G m d ((oCh0 L).view.emb y) :=
  pay_valueK m d L hr g5 f6 h0 h1 h2 h3 h4 h5 h6 h7 0 y ⟨_, (List.mem_cons_of_mem _ (List.mem_cons_of_mem _ (List.mem_cons_of_mem _ (List.mem_cons_of_mem _ (List.mem_cons_of_mem _ (List.mem_cons_of_mem _ (List.mem_cons_of_mem _ List.mem_cons_self))))))), rfl⟩
theorem pay_value1 (hr : Cert.Spec.InRange (m (aLoc d))) (g5 : Buf (Elt F) ((i5V).view.loc (V d (cV L) (jV L)))) (f6 : Buf (Elt F) ((r6V).view.loc (V d (cV L) (jV L))))
    (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (y : S64x128.Idx) :
    ReadAs.same.apply ((rCh1).view.read (Elt F) ((r6V).view.writes (Elt F) f6
      [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩])) y
      = G m d ((oCh1 L).view.emb y) :=
  pay_valueK m d L hr g5 f6 h0 h1 h2 h3 h4 h5 h6 h7 1 y ⟨_, (List.mem_cons_of_mem _ (List.mem_cons_of_mem _ (List.mem_cons_of_mem _ (List.mem_cons_of_mem _ (List.mem_cons_of_mem _ (List.mem_cons_of_mem _ List.mem_cons_self)))))), rfl⟩
theorem pay_value2 (hr : Cert.Spec.InRange (m (aLoc d))) (g5 : Buf (Elt F) ((i5V).view.loc (V d (cV L) (jV L)))) (f6 : Buf (Elt F) ((r6V).view.loc (V d (cV L) (jV L))))
    (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (y : S64x128.Idx) :
    ReadAs.same.apply ((rCh2).view.read (Elt F) ((r6V).view.writes (Elt F) f6
      [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩])) y
      = G m d ((oCh2 L).view.emb y) :=
  pay_valueK m d L hr g5 f6 h0 h1 h2 h3 h4 h5 h6 h7 2 y ⟨_, (List.mem_cons_of_mem _ (List.mem_cons_of_mem _ (List.mem_cons_of_mem _ (List.mem_cons_of_mem _ (List.mem_cons_of_mem _ List.mem_cons_self))))), rfl⟩
theorem pay_value3 (hr : Cert.Spec.InRange (m (aLoc d))) (g5 : Buf (Elt F) ((i5V).view.loc (V d (cV L) (jV L)))) (f6 : Buf (Elt F) ((r6V).view.loc (V d (cV L) (jV L))))
    (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (y : S64x128.Idx) :
    ReadAs.same.apply ((rCh3).view.read (Elt F) ((r6V).view.writes (Elt F) f6
      [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩])) y
      = G m d ((oCh3 L).view.emb y) :=
  pay_valueK m d L hr g5 f6 h0 h1 h2 h3 h4 h5 h6 h7 3 y ⟨_, (List.mem_cons_of_mem _ (List.mem_cons_of_mem _ (List.mem_cons_of_mem _ (List.mem_cons_of_mem _ List.mem_cons_self)))), rfl⟩
theorem pay_value4 (hr : Cert.Spec.InRange (m (aLoc d))) (g5 : Buf (Elt F) ((i5V).view.loc (V d (cV L) (jV L)))) (f6 : Buf (Elt F) ((r6V).view.loc (V d (cV L) (jV L))))
    (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (y : S64x128.Idx) :
    ReadAs.same.apply ((rCh4).view.read (Elt F) ((r6V).view.writes (Elt F) f6
      [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩])) y
      = G m d ((oCh4 L).view.emb y) :=
  pay_valueK m d L hr g5 f6 h0 h1 h2 h3 h4 h5 h6 h7 4 y ⟨_, (List.mem_cons_of_mem _ (List.mem_cons_of_mem _ (List.mem_cons_of_mem _ List.mem_cons_self))), rfl⟩
theorem pay_value5 (hr : Cert.Spec.InRange (m (aLoc d))) (g5 : Buf (Elt F) ((i5V).view.loc (V d (cV L) (jV L)))) (f6 : Buf (Elt F) ((r6V).view.loc (V d (cV L) (jV L))))
    (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (y : S64x128.Idx) :
    ReadAs.same.apply ((rCh5).view.read (Elt F) ((r6V).view.writes (Elt F) f6
      [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩])) y
      = G m d ((oCh5 L).view.emb y) :=
  pay_valueK m d L hr g5 f6 h0 h1 h2 h3 h4 h5 h6 h7 5 y ⟨_, (List.mem_cons_of_mem _ (List.mem_cons_of_mem _ List.mem_cons_self)), rfl⟩
theorem pay_value6 (hr : Cert.Spec.InRange (m (aLoc d))) (g5 : Buf (Elt F) ((i5V).view.loc (V d (cV L) (jV L)))) (f6 : Buf (Elt F) ((r6V).view.loc (V d (cV L) (jV L))))
    (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (y : S64x128.Idx) :
    ReadAs.same.apply ((rCh6).view.read (Elt F) ((r6V).view.writes (Elt F) f6
      [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩])) y
      = G m d ((oCh6 L).view.emb y) :=
  pay_valueK m d L hr g5 f6 h0 h1 h2 h3 h4 h5 h6 h7 6 y ⟨_, (List.mem_cons_of_mem _ List.mem_cons_self), rfl⟩
theorem pay_value7 (hr : Cert.Spec.InRange (m (aLoc d))) (g5 : Buf (Elt F) ((i5V).view.loc (V d (cV L) (jV L)))) (f6 : Buf (Elt F) ((r6V).view.loc (V d (cV L) (jV L))))
    (h0 : ∀ x, ((iRow0).view.read (Elt F) (View.write (Elt F) (i5V).view g5 (idxPay m d L) Finset.univ) x).toNat < S1001x128.size gathers_S1001x128_S64x128.axis) (h1 : ∀ x, ((iRow1).view.read (Elt F) (View.write (Elt F) (i5V).view g5 (idxPay m d L) Finset.univ) x).toNat < S1001x128.size gathers_S1001x128_S64x128.axis) (h2 : ∀ x, ((iRow2).view.read (Elt F) (View.write (Elt F) (i5V).view g5 (idxPay m d L) Finset.univ) x).toNat < S1001x128.size gathers_S1001x128_S64x128.axis) (h3 : ∀ x, ((iRow3).view.read (Elt F) (View.write (Elt F) (i5V).view g5 (idxPay m d L) Finset.univ) x).toNat < S1001x128.size gathers_S1001x128_S64x128.axis) (h4 : ∀ x, ((iRow4).view.read (Elt F) (View.write (Elt F) (i5V).view g5 (idxPay m d L) Finset.univ) x).toNat < S1001x128.size gathers_S1001x128_S64x128.axis) (h5 : ∀ x, ((iRow5).view.read (Elt F) (View.write (Elt F) (i5V).view g5 (idxPay m d L) Finset.univ) x).toNat < S1001x128.size gathers_S1001x128_S64x128.axis) (h6 : ∀ x, ((iRow6).view.read (Elt F) (View.write (Elt F) (i5V).view g5 (idxPay m d L) Finset.univ) x).toNat < S1001x128.size gathers_S1001x128_S64x128.axis) (h7 : ∀ x, ((iRow7).view.read (Elt F) (View.write (Elt F) (i5V).view g5 (idxPay m d L) Finset.univ) x).toNat < S1001x128.size gathers_S1001x128_S64x128.axis)
    (y : S64x128.Idx) :
    ReadAs.same.apply ((rCh7).view.read (Elt F) ((r6V).view.writes (Elt F) f6
      [⟨Rect.unit (s := S512x128) ![448, 0] S64x128.size inb_S512x128_S64x128_448_0, gath7 m d L g5 h7⟩,
        ⟨Rect.unit (s := S512x128) ![384, 0] S64x128.size inb_S512x128_S64x128_384_0, gath6 m d L g5 h6⟩,
        ⟨Rect.unit (s := S512x128) ![320, 0] S64x128.size inb_S512x128_S64x128_320_0, gath5 m d L g5 h5⟩,
        ⟨Rect.unit (s := S512x128) ![256, 0] S64x128.size inb_S512x128_S64x128_256_0, gath4 m d L g5 h4⟩,
        ⟨Rect.unit (s := S512x128) ![192, 0] S64x128.size inb_S512x128_S64x128_192_0, gath3 m d L g5 h3⟩,
        ⟨Rect.unit (s := S512x128) ![128, 0] S64x128.size inb_S512x128_S64x128_128_0, gath2 m d L g5 h2⟩,
        ⟨Rect.unit (s := S512x128) ![64, 0] S64x128.size inb_S512x128_S64x128_64_0, gath1 m d L g5 h1⟩,
        ⟨Rect.unit (s := S512x128) ![0, 0] S64x128.size inb_S512x128_S64x128_0_0, gath0 m d L g5 h0⟩])) y
      = G m d ((oCh7 L).view.emb y) :=
  pay_valueK m d L hr g5 f6 h0 h1 h2 h3 h4 h5 h6 h7 7 y ⟨_, List.mem_cons_self, rfl⟩

/-! ## The result's blocks once written -/

omit [FloatOps F] in
/-- The whole rectangle places an index at itself. -/
theorem whole_emb_S64x128 (y : S64x128.Idx) : (Rect.whole S64x128).emb y = y := by
  funext a
  apply Fin.ext
  rw [Rect.emb_apply]
  show 0 + 1 * (y a).val = (y a).val
  omega

omit [FloatOps F] in
/-- Block `r` of the task's result rows, written whole with a payload that is the result there, holds the result. -/
theorem out_ptsK (r : Fin 8) (pay : S64x128.Idx → Elt F .f32) (hpay : ∀ y, pay y = G m d ((oChK L r).view.emb y)) :
    ((oChK L r).view.loc (V d (cV L) (jV L)) ↦[(oChK L r).view.set]{fullShare} (oChK L r).view.writes (Elt F) (m (oLoc d)) [⟨Rect.whole S64x128, pay⟩] : sProp 𝕄)
      = oLoc d ↦[oSet (chunk (wid (cL L) (jL L)) r)]{fullShare} G m d := by
  rw [← pts_oChK d L r (G m d)]
  refine pointsTo_congr fun i hi => ?_
  obtain ⟨y, -, rfl⟩ := Finset.mem_map.mp hi
  have h := View.read_writes_cons_emb (oChK L r).view (m (oLoc d)) (Rect.whole S64x128) pay [] y
  rw [whole_emb_S64x128, View.read_apply] at h
  rw [← hpay y, ← h]
  rfl

omit [FloatOps F] in
theorem out_pts0 (pay : S64x128.Idx → Elt F .f32) (hpay : ∀ y, pay y = G m d ((oCh0 L).view.emb y)) :
    ((oCh0 L).view.loc (V d (cV L) (jV L)) ↦[(oCh0 L).view.set]{fullShare} (oCh0 L).view.writes (Elt F) (m (oLoc d)) [⟨Rect.whole S64x128, pay⟩] : sProp 𝕄)
      = oLoc d ↦[oSet (chunk (wid (cL L) (jL L)) 0)]{fullShare} G m d :=
  out_ptsK m d L 0 pay hpay
omit [FloatOps F] in
theorem out_pts1 (pay : S64x128.Idx → Elt F .f32) (hpay : ∀ y, pay y = G m d ((oCh1 L).view.emb y)) :
    ((oCh1 L).view.loc (V d (cV L) (jV L)) ↦[(oCh1 L).view.set]{fullShare} (oCh1 L).view.writes (Elt F) (m (oLoc d)) [⟨Rect.whole S64x128, pay⟩] : sProp 𝕄)
      = oLoc d ↦[oSet (chunk (wid (cL L) (jL L)) 1)]{fullShare} G m d :=
  out_ptsK m d L 1 pay hpay
omit [FloatOps F] in
theorem out_pts2 (pay : S64x128.Idx → Elt F .f32) (hpay : ∀ y, pay y = G m d ((oCh2 L).view.emb y)) :
    ((oCh2 L).view.loc (V d (cV L) (jV L)) ↦[(oCh2 L).view.set]{fullShare} (oCh2 L).view.writes (Elt F) (m (oLoc d)) [⟨Rect.whole S64x128, pay⟩] : sProp 𝕄)
      = oLoc d ↦[oSet (chunk (wid (cL L) (jL L)) 2)]{fullShare} G m d :=
  out_ptsK m d L 2 pay hpay
omit [FloatOps F] in
theorem out_pts3 (pay : S64x128.Idx → Elt F .f32) (hpay : ∀ y, pay y = G m d ((oCh3 L).view.emb y)) :
    ((oCh3 L).view.loc (V d (cV L) (jV L)) ↦[(oCh3 L).view.set]{fullShare} (oCh3 L).view.writes (Elt F) (m (oLoc d)) [⟨Rect.whole S64x128, pay⟩] : sProp 𝕄)
      = oLoc d ↦[oSet (chunk (wid (cL L) (jL L)) 3)]{fullShare} G m d :=
  out_ptsK m d L 3 pay hpay
omit [FloatOps F] in
theorem out_pts4 (pay : S64x128.Idx → Elt F .f32) (hpay : ∀ y, pay y = G m d ((oCh4 L).view.emb y)) :
    ((oCh4 L).view.loc (V d (cV L) (jV L)) ↦[(oCh4 L).view.set]{fullShare} (oCh4 L).view.writes (Elt F) (m (oLoc d)) [⟨Rect.whole S64x128, pay⟩] : sProp 𝕄)
      = oLoc d ↦[oSet (chunk (wid (cL L) (jL L)) 4)]{fullShare} G m d :=
  out_ptsK m d L 4 pay hpay
omit [FloatOps F] in
theorem out_pts5 (pay : S64x128.Idx → Elt F .f32) (hpay : ∀ y, pay y = G m d ((oCh5 L).view.emb y)) :
    ((oCh5 L).view.loc (V d (cV L) (jV L)) ↦[(oCh5 L).view.set]{fullShare} (oCh5 L).view.writes (Elt F) (m (oLoc d)) [⟨Rect.whole S64x128, pay⟩] : sProp 𝕄)
      = oLoc d ↦[oSet (chunk (wid (cL L) (jL L)) 5)]{fullShare} G m d :=
  out_ptsK m d L 5 pay hpay
omit [FloatOps F] in
theorem out_pts6 (pay : S64x128.Idx → Elt F .f32) (hpay : ∀ y, pay y = G m d ((oCh6 L).view.emb y)) :
    ((oCh6 L).view.loc (V d (cV L) (jV L)) ↦[(oCh6 L).view.set]{fullShare} (oCh6 L).view.writes (Elt F) (m (oLoc d)) [⟨Rect.whole S64x128, pay⟩] : sProp 𝕄)
      = oLoc d ↦[oSet (chunk (wid (cL L) (jL L)) 6)]{fullShare} G m d :=
  out_ptsK m d L 6 pay hpay
omit [FloatOps F] in
theorem out_pts7 (pay : S64x128.Idx → Elt F .f32) (hpay : ∀ y, pay y = G m d ((oCh7 L).view.emb y)) :
    ((oCh7 L).view.loc (V d (cV L) (jV L)) ↦[(oCh7 L).view.set]{fullShare} (oCh7 L).view.writes (Elt F) (m (oLoc d)) [⟨Rect.whole S64x128, pay⟩] : sProp 𝕄)
      = oLoc d ↦[oSet (chunk (wid (cL L) (jL L)) 7)]{fullShare} G m d :=
  out_ptsK m d L 7 pay hpay

end Tile

end Cert.Proof.Kernel

end
-- ==== Proof.Kernel.TileZero.lean ====
/-
  The lookup task on tile 0 of a SparseCore, proved once at a symbolic SparseCore: the tile that also stages the table
  in the shared memory and deals the read shares at the barrier.
-/
import proofs.«206951_g4793183502620_cont_8to1_c_898_7_alg».proof.Proof.Kernel.TileValue

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

local notation "ixV" => (Memref.whole Cert.Kernel.main_v0_scv : Memref Cert.Kernel.sig Kind.scVector Space.hbm Cert.Kernel.S32x8x64 EltTy.i32)
local notation "tbV" => (Memref.whole Cert.Kernel.main_arg1_scv : Memref Cert.Kernel.sig Kind.scVector Space.hbm Cert.Kernel.S1001x128 EltTy.f32)
local notation "oV" => (Memref.whole Cert.Kernel.main_v1_scv : Memref Cert.Kernel.sig Kind.scVector Space.hbm Cert.Kernel.S16384x128 EltTy.f32)
local notation "i5V" => (Memref.whole Cert.Kernel.cc0_scratch0 : Memref Cert.Kernel.sig Kind.scVector Space.vmem Cert.Kernel.S8x64 EltTy.i32)
local notation "r6V" => (Memref.whole Cert.Kernel.cc0_scratch1 : Memref Cert.Kernel.sig Kind.scVector Space.vmem Cert.Kernel.S512x128 EltTy.f32)
local notation "shV" => (Memref.whole Cert.Kernel.cc0_scratch2 : Memref Cert.Kernel.sig Kind.scVector Space.shared Cert.Kernel.S1001x128 EltTy.f32)

variable [FloatOps F]

section Tile

variable (d : Dev nD) (L : grid0.Coords)

set_option maxRecDepth 100000 in
set_option maxHeartbeats 16000000 in
/-- The task on tile 0 of a SparseCore: its lists fetched, the table copied into the shared memory and cut into the sixteen read shares,
    the barrier (a read share handed to each tile's round, its own read share collected), the eight gathers out of the shared copy, each
    block of gathered rows written to its place in the result once its gather has landed, and the eight writes drained. -/
theorem tile_body_zero (hr : Cert.Spec.InRange (m (aLoc d))) (h0 : (L 1).val = 0) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (ixPts m d (wid (cL L) (jL L)) ∗ (bigSep Finset.univ fun r : Fin 8 => oPts d (chunk (wid (cL L) (jL L)) r) (m (oLoc d)))
            ∗ tbTok m d (cL L).val ∗ ∃ f, shLoc d (cV L) ↦{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__embed_gather L ixV (Memref.isWhole_whole _) tbV (Memref.isWhole_whole _) oV (Memref.isWhole_whole _) i5V (Memref.isWhole_whole _) r6V (Memref.isWhole_whole _) shV (Memref.isWhole_whole _) cc0_scratch3 cc0_scratch4 cc0_scoped0 cc0_scoped1)
          fun _ => iprop((ixPts m d (wid (cL L) (jL L)) ∗ (bigSep Finset.univ fun r : Fin 8 => oPts d (chunk (wid (cL L) (jL L)) r) (G m d))
              ∗ shTok m d (cV L) (jV L).val ∗ tbTok m d (cL L).val ∗ shRest m d (cV L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc0__embed_gather_eq_skeleton]; unfold cc0__embed_gather_skel
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  rw [(K (F := F)).scopedBufs_V hF d (cV L) (jV L), SparseCore.Cfg.scopedSems0_V (Val := Elt F) d (cV L) (jV L), ownSems0_V, ownBufs_V,
    bigSep_fin8 (fun r => oPts d (chunk (wid (cL L) (jL L)) r) (m (oLoc d))), bigSep_fin8 (fun r => oPts d (chunk (wid (cL L) (jL L)) r) (G m d))]
  unfold bkit
  iintro ⟨#Hlv, ⟨⟨%κ, #Hinv⟩, Htoks, #Hrch, Hat, Hcred⟩, ⟨Hix, ⟨Ho0, Ho1, Ho2, Ho3, Ho4, Ho5, Ho6, Ho7, Ho8⟩, Htb, %fsh, Hsh⟩, ⟨⟨%f5, H5⟩, ⟨%f6, H6⟩, Hbufs⟩,
    ⟨Hg0, Hg1, Hg2, Hg3, Hg4, Hg5, Hg6, Hg7, Hw, HsA, HsB, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := (V d (cV L) (jV L))) hO') $$ Hlv
  ihave Hmw2 := (show levAts (K (F := F)).L (K (F := F)).lev ⊢ Transfers.MayWaits (V d (cV L) (jV L)) (default : HIx 1) O from
    (K (F := F)).mayWaits_none (thr := (V d (cV L) (jV L))) hO) $$ Hlv
  ihave Hix' := (Entails.of_eq (pts_ixRowK (F := F) d L _).symm) $$ Hix
  ihave Ho0' := (Entails.of_eq (pts_oCh0 (F := F) d L _).symm) $$ Ho0
  ihave Ho1' := (Entails.of_eq (pts_oCh1 (F := F) d L _).symm) $$ Ho1
  ihave Ho2' := (Entails.of_eq (pts_oCh2 (F := F) d L _).symm) $$ Ho2
  ihave Ho3' := (Entails.of_eq (pts_oCh3 (F := F) d L _).symm) $$ Ho3
  ihave Ho4' := (Entails.of_eq (pts_oCh4 (F := F) d L _).symm) $$ Ho4
  ihave Ho5' := (Entails.of_eq (pts_oCh5 (F := F) d L _).symm) $$ Ho5
  ihave Ho6' := (Entails.of_eq (pts_oCh6 (F := F) d L _).symm) $$ Ho6
  ihave Ho7' := (Entails.of_eq (pts_oCh7 (F := F) d L _).symm) $$ Ho7
  ihave H5' := (Entails.of_eq (pts_i5V (F := F) d L _).symm) $$ H5
  ihave H6' := (Entails.of_eq (pts_r6V (F := F) d L _).symm) $$ H6
  ihave Htb' := (Entails.of_eq (pts_tbV (F := F) d L _ _).symm) $$ Htb
  ihave Hsh' := (Entails.of_eq (pts_shV (F := F) d L _ _).symm) $$ Hsh
  have hc : Scalar.cmpi .ne (Scalar.extui (Scalar.cmpi .eq (BitVec.ofNat 32 (L 1).val) 0#32)) 0#32 = 1#1 := by rw [h0]; decide
  -- the lists fetched, the table copied
  sl_exec
  -- the shared copy now holds the table; cut in sixteen read shares, one per round, the rest kept
  ihave Hsh2 := (Entails.of_eq (show ((shV).view.loc (V d (cV L) (jV L)) ↦{fullShare} View.write (Elt F) (shV).view fsh (tile_body_zero.sl.dma0_1 m d) Finset.univ : sProp 𝕄)
      = shLoc d (cV L) ↦{fullShare} shC m d (cV L) from by
        rw [show tile_body_zero.sl.dma0_1 m d = ReadAs.same.apply ((tbV).view.read (Elt F) (m (tbLoc d))) from rfl, shared_written]; rfl)) $$ Hsh'
  ihave Hcut := (pays_zero (F := F) m d L h0) $$ Hsh2
  icases Hcut with ⟨Hrest, Hpays⟩
  -- the barrier
  rw [Prog.bind_assoc]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := (V d (cV L) (jV L))) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmine := (pays_elim (F := F) m d L) $$ Hgot
  -- the tile's read share of the shared copy, cut in eight for the eight gathers
  ihave Hcut8 := ((Transfers.pointsTo_toks (ℓ := shLoc d (cV L)) (f := shC m d (cV L)) (shareTokN fullShare (jV L).val) 8).1) $$ Hmine
  icases Hcut8 with ⟨Hmrest, Hm8⟩
  ihave Hm8' := (Entails.of_eq (bigSep_fin8 (F := F) (fun i : Fin 8 => (shLoc d (cV L) ↦{Transfers.shareTok (shareTokN fullShare (jV L).val) 8 i} shC m d (cV L) : sProp 𝕄)))) $$ Hm8
  icases Hm8' with ⟨Hm0, Hm1, Hm2, Hm3, Hm4, Hm5, Hm6, Hm7, Hm9⟩
  ihave Hm0' := (Entails.of_eq (pts_shSl (F := F) d L _ _).symm) $$ Hm0
  ihave Hm1' := (Entails.of_eq (pts_shSl (F := F) d L _ _).symm) $$ Hm1
  ihave Hm2' := (Entails.of_eq (pts_shSl (F := F) d L _ _).symm) $$ Hm2
  ihave Hm3' := (Entails.of_eq (pts_shSl (F := F) d L _ _).symm) $$ Hm3
  ihave Hm4' := (Entails.of_eq (pts_shSl (F := F) d L _ _).symm) $$ Hm4
  ihave Hm5' := (Entails.of_eq (pts_shSl (F := F) d L _ _).symm) $$ Hm5
  ihave Hm6' := (Entails.of_eq (pts_shSl (F := F) d L _ _).symm) $$ Hm6
  ihave Hm7' := (Entails.of_eq (pts_shSl (F := F) d L _ _).symm) $$ Hm7
  have hi0 := hin0 m d L hr f5
  have hi1 := hin1 m d L hr f5
  have hi2 := hin2 m d L hr f5
  have hi3 := hin3 m d L hr f5
  have hi4 := hin4 m d L hr f5
  have hi5 := hin5 m d L hr f5
  have hi6 := hin6 m d L hr f5
  have hi7 := hin7 m d L hr f5
  have _plan : Transfers.BatchOf (V d (cV L) (jV L)) (SemLoc.dma cc0_scratch4.sem) 8 := trivial
  -- the gathers, their waits, the writes and their drain
  sl_exec
  sl_step
  isplitl [Hix' Ho0' Ho1' Ho2' Ho3' Ho4' Ho5' Ho6' Ho7' Ho8 Hm0' Hm1' Hm2' Hm3' Hm4' Hm5' Hm6' Hm7' Hmrest Hm9 Htb' Hrest]
  · isplitl [Hix']; · iapply (Entails.of_eq (pts_ixRowK (F := F) d L _)); iexact Hix'
    isplitl [Ho0' Ho1' Ho2' Ho3' Ho4' Ho5' Ho6' Ho7' Ho8]
    · isplitl [Ho0']; · iapply (Entails.of_eq (out_pts0 (F := F) m d L _ (fun y => pay_value0 m d L hr f5 f6 hi0 hi1 hi2 hi3 hi4 hi5 hi6 hi7 y))); iexact Ho0'
      isplitl [Ho1']; · iapply (Entails.of_eq (out_pts1 (F := F) m d L _ (fun y => pay_value1 m d L hr f5 f6 hi0 hi1 hi2 hi3 hi4 hi5 hi6 hi7 y))); iexact Ho1'
      isplitl [Ho2']; · iapply (Entails.of_eq (out_pts2 (F := F) m d L _ (fun y => pay_value2 m d L hr f5 f6 hi0 hi1 hi2 hi3 hi4 hi5 hi6 hi7 y))); iexact Ho2'
      isplitl [Ho3']; · iapply (Entails.of_eq (out_pts3 (F := F) m d L _ (fun y => pay_value3 m d L hr f5 f6 hi0 hi1 hi2 hi3 hi4 hi5 hi6 hi7 y))); iexact Ho3'
      isplitl [Ho4']; · iapply (Entails.of_eq (out_pts4 (F := F) m d L _ (fun y => pay_value4 m d L hr f5 f6 hi0 hi1 hi2 hi3 hi4 hi5 hi6 hi7 y))); iexact Ho4'
      isplitl [Ho5']; · iapply (Entails.of_eq (out_pts5 (F := F) m d L _ (fun y => pay_value5 m d L hr f5 f6 hi0 hi1 hi2 hi3 hi4 hi5 hi6 hi7 y))); iexact Ho5'
      isplitl [Ho6']; · iapply (Entails.of_eq (out_pts6 (F := F) m d L _ (fun y => pay_value6 m d L hr f5 f6 hi0 hi1 hi2 hi3 hi4 hi5 hi6 hi7 y))); iexact Ho6'
      isplitl [Ho7']; · iapply (Entails.of_eq (out_pts7 (F := F) m d L _ (fun y => pay_value7 m d L hr f5 f6 hi0 hi1 hi2 hi3 hi4 hi5 hi6 hi7 y))); iexact Ho7'
      iapply (Entails.of_eq (bigSep_congr fun k _ => k.elim0)); iexact Ho8
    isplitl [Hm0' Hm1' Hm2' Hm3' Hm4' Hm5' Hm6' Hm7' Hmrest Hm9]
    · iapply ((Transfers.pointsTo_toks (ℓ := shLoc d (cV L)) (f := shC m d (cV L)) (shareTokN fullShare (jV L).val) 8).2)
      isplitl [Hmrest]; · iexact Hmrest
      iapply (Entails.of_eq (bigSep_fin8 (F := F) (fun i : Fin 8 => (shLoc d (cV L) ↦{Transfers.shareTok (shareTokN fullShare (jV L).val) 8 i} shC m d (cV L) : sProp 𝕄))).symm)
      isplitl [Hm0']; · iapply (Entails.of_eq (pts_shSl (F := F) d L _ _)); iexact Hm0'
      isplitl [Hm1']; · iapply (Entails.of_eq (pts_shSl (F := F) d L _ _)); iexact Hm1'
      isplitl [Hm2']; · iapply (Entails.of_eq (pts_shSl (F := F) d L _ _)); iexact Hm2'
      isplitl [Hm3']; · iapply (Entails.of_eq (pts_shSl (F := F) d L _ _)); iexact Hm3'
      isplitl [Hm4']; · iapply (Entails.of_eq (pts_shSl (F := F) d L _ _)); iexact Hm4'
      isplitl [Hm5']; · iapply (Entails.of_eq (pts_shSl (F := F) d L _ _)); iexact Hm5'
      isplitl [Hm6']; · iapply (Entails.of_eq (pts_shSl (F := F) d L _ _)); iexact Hm6'
      isplitl [Hm7']; · iapply (Entails.of_eq (pts_shSl (F := F) d L _ _)); iexact Hm7'
      iexact Hm9
    isplitl [Htb']; · iapply (Entails.of_eq (pts_tbV (F := F) d L _ _)); iexact Htb'
    iexact Hrest
  isplitl [H5' H6' Hbufs]
  · isplitl [H5']; · iexists _; iapply (Entails.of_eq (pts_i5V (F := F) d L _)); iexact H5'
    isplitl [H6']; · iexists _; iapply (Entails.of_eq (pts_r6V (F := F) d L _)); iexact H6'
    iexact Hbufs
  isplitl [Hg0 Hg1 Hg2 Hg3 Hg4 Hg5 Hg6 Hg7 Hw HsA HsB Hsems]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hw]; · iexact Hw
    isplitl [HsA]; · iexact HsA
    isplitl [HsB]; · iexact HsB
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  rcases Finset.mem_insert.mp hp with hp | hp; · exact .inr (.inl (hp ▸ rfl))
  exact .inl hp

end Tile

end Cert.Proof.Kernel

end
-- ==== Proof.Kernel.TilePos.lean ====
/-
  The lookup task on a tile other than tile 0, proved once at a symbolic tile of a symbolic SparseCore: it hands over
  nothing at the barrier and collects its read share of the staged table there.
-/
import proofs.«206951_g4793183502620_cont_8to1_c_898_7_alg».proof.Proof.Kernel.TileValue

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

local notation "ixV" => (Memref.whole Cert.Kernel.main_v0_scv : Memref Cert.Kernel.sig Kind.scVector Space.hbm Cert.Kernel.S32x8x64 EltTy.i32)
local notation "tbV" => (Memref.whole Cert.Kernel.main_arg1_scv : Memref Cert.Kernel.sig Kind.scVector Space.hbm Cert.Kernel.S1001x128 EltTy.f32)
local notation "oV" => (Memref.whole Cert.Kernel.main_v1_scv : Memref Cert.Kernel.sig Kind.scVector Space.hbm Cert.Kernel.S16384x128 EltTy.f32)
local notation "i5V" => (Memref.whole Cert.Kernel.cc0_scratch0 : Memref Cert.Kernel.sig Kind.scVector Space.vmem Cert.Kernel.S8x64 EltTy.i32)
local notation "r6V" => (Memref.whole Cert.Kernel.cc0_scratch1 : Memref Cert.Kernel.sig Kind.scVector Space.vmem Cert.Kernel.S512x128 EltTy.f32)
local notation "shV" => (Memref.whole Cert.Kernel.cc0_scratch2 : Memref Cert.Kernel.sig Kind.scVector Space.shared Cert.Kernel.S1001x128 EltTy.f32)

variable [FloatOps F]

section Tile

variable (d : Dev nD) (L : grid0.Coords)

set_option maxRecDepth 100000 in
set_option maxHeartbeats 16000000 in
/-- The task on a tile other than 0 of a SparseCore: its lists fetched,
    the barrier (nothing handed over, its own read share collected), the eight gathers out of the shared copy, each
    block of gathered rows written to its place in the result once its gather has landed, and the eight writes drained. -/
theorem tile_body_pos (hr : Cert.Spec.InRange (m (aLoc d))) (h0 : (L 1).val ≠ 0) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (ixPts m d (wid (cL L) (jL L)) ∗ (bigSep Finset.univ fun r : Fin 8 => oPts d (chunk (wid (cL L) (jL L)) r) (m (oLoc d)))
            ∗ iprop(emp))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__embed_gather L ixV (Memref.isWhole_whole _) tbV (Memref.isWhole_whole _) oV (Memref.isWhole_whole _) i5V (Memref.isWhole_whole _) r6V (Memref.isWhole_whole _) shV (Memref.isWhole_whole _) cc0_scratch3 cc0_scratch4 cc0_scoped0 cc0_scoped1)
          fun _ => iprop((ixPts m d (wid (cL L) (jL L)) ∗ (bigSep Finset.univ fun r : Fin 8 => oPts d (chunk (wid (cL L) (jL L)) r) (G m d))
              ∗ shTok m d (cV L) (jV L).val ∗ iprop(emp))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc0__embed_gather_eq_skeleton]; unfold cc0__embed_gather_skel
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  rw [(K (F := F)).scopedBufs_V hF d (cV L) (jV L), SparseCore.Cfg.scopedSems0_V (Val := Elt F) d (cV L) (jV L), ownSems0_V, ownBufs_V,
    bigSep_fin8 (fun r => oPts d (chunk (wid (cL L) (jL L)) r) (m (oLoc d))), bigSep_fin8 (fun r => oPts d (chunk (wid (cL L) (jL L)) r) (G m d))]
  unfold bkit
  iintro ⟨#Hlv, ⟨⟨%κ, #Hinv⟩, Htoks, #Hrch, Hat, Hcred⟩, ⟨Hix, ⟨Ho0, Ho1, Ho2, Ho3, Ho4, Ho5, Ho6, Ho7, Ho8⟩, Hemp⟩, ⟨⟨%f5, H5⟩, ⟨%f6, H6⟩, Hbufs⟩,
    ⟨Hg0, Hg1, Hg2, Hg3, Hg4, Hg5, Hg6, Hg7, Hw, HsA, HsB, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := (V d (cV L) (jV L))) hO') $$ Hlv
  ihave Hmw2 := (show levAts (K (F := F)).L (K (F := F)).lev ⊢ Transfers.MayWaits (V d (cV L) (jV L)) (default : HIx 1) O from
    (K (F := F)).mayWaits_none (thr := (V d (cV L) (jV L))) hO) $$ Hlv
  ihave Hix' := (Entails.of_eq (pts_ixRowK (F := F) d L _).symm) $$ Hix
  ihave Ho0' := (Entails.of_eq (pts_oCh0 (F := F) d L _).symm) $$ Ho0
  ihave Ho1' := (Entails.of_eq (pts_oCh1 (F := F) d L _).symm) $$ Ho1
  ihave Ho2' := (Entails.of_eq (pts_oCh2 (F := F) d L _).symm) $$ Ho2
  ihave Ho3' := (Entails.of_eq (pts_oCh3 (F := F) d L _).symm) $$ Ho3
  ihave Ho4' := (Entails.of_eq (pts_oCh4 (F := F) d L _).symm) $$ Ho4
  ihave Ho5' := (Entails.of_eq (pts_oCh5 (F := F) d L _).symm) $$ Ho5
  ihave Ho6' := (Entails.of_eq (pts_oCh6 (F := F) d L _).symm) $$ Ho6
  ihave Ho7' := (Entails.of_eq (pts_oCh7 (F := F) d L _).symm) $$ Ho7
  ihave H5' := (Entails.of_eq (pts_i5V (F := F) d L _).symm) $$ H5
  ihave H6' := (Entails.of_eq (pts_r6V (F := F) d L _).symm) $$ H6
  have hc : ¬ (Scalar.cmpi .ne (Scalar.extui (Scalar.cmpi .eq (BitVec.ofNat 32 (L 1).val) 0#32)) 0#32 = 1#1) :=
    (by decide : ∀ v : Fin (grid0.bound 1), v.val ≠ 0 → ¬ (Scalar.cmpi .ne (Scalar.extui (Scalar.cmpi .eq (BitVec.ofNat 32 v.val) 0#32)) 0#32 = 1#1)) (L 1) h0
  -- the lists fetched
  sl_exec
  -- this tile hands over nothing
  ihave Hpays := (pays_pos (F := F) m d L h0) $$ Hemp
  -- the barrier
  rw [Prog.bind_assoc]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := (V d (cV L) (jV L))) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmine := (pays_elim (F := F) m d L) $$ Hgot
  -- the tile's read share of the shared copy, cut in eight for the eight gathers
  ihave Hcut8 := ((Transfers.pointsTo_toks (ℓ := shLoc d (cV L)) (f := shC m d (cV L)) (shareTokN fullShare (jV L).val) 8).1) $$ Hmine
  icases Hcut8 with ⟨Hmrest, Hm8⟩
  ihave Hm8' := (Entails.of_eq (bigSep_fin8 (F := F) (fun i : Fin 8 => (shLoc d (cV L) ↦{Transfers.shareTok (shareTokN fullShare (jV L).val) 8 i} shC m d (cV L) : sProp 𝕄)))) $$ Hm8
  icases Hm8' with ⟨Hm0, Hm1, Hm2, Hm3, Hm4, Hm5, Hm6, Hm7, Hm9⟩
  ihave Hm0' := (Entails.of_eq (pts_shSl (F := F) d L _ _).symm) $$ Hm0
  ihave Hm1' := (Entails.of_eq (pts_shSl (F := F) d L _ _).symm) $$ Hm1
  ihave Hm2' := (Entails.of_eq (pts_shSl (F := F) d L _ _).symm) $$ Hm2
  ihave Hm3' := (Entails.of_eq (pts_shSl (F := F) d L _ _).symm) $$ Hm3
  ihave Hm4' := (Entails.of_eq (pts_shSl (F := F) d L _ _).symm) $$ Hm4
  ihave Hm5' := (Entails.of_eq (pts_shSl (F := F) d L _ _).symm) $$ Hm5
  ihave Hm6' := (Entails.of_eq (pts_shSl (F := F) d L _ _).symm) $$ Hm6
  ihave Hm7' := (Entails.of_eq (pts_shSl (F := F) d L _ _).symm) $$ Hm7
  have hi0 := hin0 m d L hr f5
  have hi1 := hin1 m d L hr f5
  have hi2 := hin2 m d L hr f5
  have hi3 := hin3 m d L hr f5
  have hi4 := hin4 m d L hr f5
  have hi5 := hin5 m d L hr f5
  have hi6 := hin6 m d L hr f5
  have hi7 := hin7 m d L hr f5
  have _plan : Transfers.BatchOf (V d (cV L) (jV L)) (SemLoc.dma cc0_scratch4.sem) 8 := trivial
  -- the gathers, their waits, the writes and their drain
  sl_exec
  sl_step
  isplitl [Hix' Ho0' Ho1' Ho2' Ho3' Ho4' Ho5' Ho6' Ho7' Ho8 Hm0' Hm1' Hm2' Hm3' Hm4' Hm5' Hm6' Hm7' Hmrest Hm9]
  · isplitl [Hix']; · iapply (Entails.of_eq (pts_ixRowK (F := F) d L _)); iexact Hix'
    isplitl [Ho0' Ho1' Ho2' Ho3' Ho4' Ho5' Ho6' Ho7' Ho8]
    · isplitl [Ho0']; · iapply (Entails.of_eq (out_pts0 (F := F) m d L _ (fun y => pay_value0 m d L hr f5 f6 hi0 hi1 hi2 hi3 hi4 hi5 hi6 hi7 y))); iexact Ho0'
      isplitl [Ho1']; · iapply (Entails.of_eq (out_pts1 (F := F) m d L _ (fun y => pay_value1 m d L hr f5 f6 hi0 hi1 hi2 hi3 hi4 hi5 hi6 hi7 y))); iexact Ho1'
      isplitl [Ho2']; · iapply (Entails.of_eq (out_pts2 (F := F) m d L _ (fun y => pay_value2 m d L hr f5 f6 hi0 hi1 hi2 hi3 hi4 hi5 hi6 hi7 y))); iexact Ho2'
      isplitl [Ho3']; · iapply (Entails.of_eq (out_pts3 (F := F) m d L _ (fun y => pay_value3 m d L hr f5 f6 hi0 hi1 hi2 hi3 hi4 hi5 hi6 hi7 y))); iexact Ho3'
      isplitl [Ho4']; · iapply (Entails.of_eq (out_pts4 (F := F) m d L _ (fun y => pay_value4 m d L hr f5 f6 hi0 hi1 hi2 hi3 hi4 hi5 hi6 hi7 y))); iexact Ho4'
      isplitl [Ho5']; · iapply (Entails.of_eq (out_pts5 (F := F) m d L _ (fun y => pay_value5 m d L hr f5 f6 hi0 hi1 hi2 hi3 hi4 hi5 hi6 hi7 y))); iexact Ho5'
      isplitl [Ho6']; · iapply (Entails.of_eq (out_pts6 (F := F) m d L _ (fun y => pay_value6 m d L hr f5 f6 hi0 hi1 hi2 hi3 hi4 hi5 hi6 hi7 y))); iexact Ho6'
      isplitl [Ho7']; · iapply (Entails.of_eq (out_pts7 (F := F) m d L _ (fun y => pay_value7 m d L hr f5 f6 hi0 hi1 hi2 hi3 hi4 hi5 hi6 hi7 y))); iexact Ho7'
      iapply (Entails.of_eq (bigSep_congr fun k _ => k.elim0)); iexact Ho8
    isplitl [Hm0' Hm1' Hm2' Hm3' Hm4' Hm5' Hm6' Hm7' Hmrest Hm9]
    · iapply ((Transfers.pointsTo_toks (ℓ := shLoc d (cV L)) (f := shC m d (cV L)) (shareTokN fullShare (jV L).val) 8).2)
      isplitl [Hmrest]; · iexact Hmrest
      iapply (Entails.of_eq (bigSep_fin8 (F := F) (fun i : Fin 8 => (shLoc d (cV L) ↦{Transfers.shareTok (shareTokN fullShare (jV L).val) 8 i} shC m d (cV L) : sProp 𝕄))).symm)
      isplitl [Hm0']; · iapply (Entails.of_eq (pts_shSl (F := F) d L _ _)); iexact Hm0'
      isplitl [Hm1']; · iapply (Entails.of_eq (pts_shSl (F := F) d L _ _)); iexact Hm1'
      isplitl [Hm2']; · iapply (Entails.of_eq (pts_shSl (F := F) d L _ _)); iexact Hm2'
      isplitl [Hm3']; · iapply (Entails.of_eq (pts_shSl (F := F) d L _ _)); iexact Hm3'
      isplitl [Hm4']; · iapply (Entails.of_eq (pts_shSl (F := F) d L _ _)); iexact Hm4'
      isplitl [Hm5']; · iapply (Entails.of_eq (pts_shSl (F := F) d L _ _)); iexact Hm5'
      isplitl [Hm6']; · iapply (Entails.of_eq (pts_shSl (F := F) d L _ _)); iexact Hm6'
      isplitl [Hm7']; · iapply (Entails.of_eq (pts_shSl (F := F) d L _ _)); iexact Hm7'
      iexact Hm9
    iempintro
  isplitl [H5' H6' Hbufs]
  · isplitl [H5']; · iexists _; iapply (Entails.of_eq (pts_i5V (F := F) d L _)); iexact H5'
    isplitl [H6']; · iexists _; iapply (Entails.of_eq (pts_r6V (F := F) d L _)); iexact H6'
    iexact Hbufs
  isplitl [Hg0 Hg1 Hg2 Hg3 Hg4 Hg5 Hg6 Hg7 Hw HsA HsB Hsems]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hw]; · iexact Hw
    isplitl [HsA]; · iexact HsA
    isplitl [HsB]; · iexact HsB
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  exact .inl hp

end Tile

end Cert.Proof.Kernel

end
-- ==== Proof.Kernel.Tile.lean ====
/-
  Every task of the lookup kernel meets the launch's obligation: tile 0's proof or the other tiles', by the tile's number.
-/
import proofs.«206951_g4793183502620_cont_8to1_c_898_7_alg».proof.Proof.Kernel.TileZero
import proofs.«206951_g4793183502620_cont_8to1_c_898_7_alg».proof.Proof.Kernel.TilePos

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 1) (Elt F) ℕ UU ℕ

variable (m : (ℓ : Loc nD τ sig) → Buf (Elt F) ℓ) (ρ : Dev nD → PrngReg)

local notation "ixV" => (Memref.whole Cert.Kernel.main_v0_scv : Memref Cert.Kernel.sig Kind.scVector Space.hbm Cert.Kernel.S32x8x64 EltTy.i32)
local notation "tbV" => (Memref.whole Cert.Kernel.main_arg1_scv : Memref Cert.Kernel.sig Kind.scVector Space.hbm Cert.Kernel.S1001x128 EltTy.f32)
local notation "oV" => (Memref.whole Cert.Kernel.main_v1_scv : Memref Cert.Kernel.sig Kind.scVector Space.hbm Cert.Kernel.S16384x128 EltTy.f32)
local notation "i5V" => (Memref.whole Cert.Kernel.cc0_scratch0 : Memref Cert.Kernel.sig Kind.scVector Space.vmem Cert.Kernel.S8x64 EltTy.i32)
local notation "r6V" => (Memref.whole Cert.Kernel.cc0_scratch1 : Memref Cert.Kernel.sig Kind.scVector Space.vmem Cert.Kernel.S512x128 EltTy.f32)
local notation "shV" => (Memref.whole Cert.Kernel.cc0_scratch2 : Memref Cert.Kernel.sig Kind.scVector Space.shared Cert.Kernel.S1001x128 EltTy.f32)

variable [FloatOps F]

section Tile

variable (d : Dev nD) (L : grid0.Coords)

/-! ## The obligation -/

omit [FloatOps F] in
/-- The grid point of core `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__embed_gather (coordsV c s)
          ixV (Memref.isWhole_whole _) tbV (Memref.isWhole_whole _) oV (Memref.isWhole_whole _) i5V (Memref.isWhole_whole _) r6V (Memref.isWhole_whole _) shV (Memref.isWhole_whole _)
          cc0_scratch3 cc0_scratch4 cc0_scoped0 cc0_scoped1) ⟨⟩ c s := rfl

set_option maxRecDepth 16384 in
/-- Every task of the call meets the launch's obligation, given that every index names a table row. -/
theorem tileObl (hr : ∀ d, Cert.Spec.InRange (m (aLoc d))) (hF : (K (F := F)).Facts) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  by_cases h0 : i.val = 0
  · rw [show (P m).go 0 d c i = iprop(ixPts m d (wid (Fin.cast nCore_zero c) (Fin.cast nSub_zero i))
          ∗ (bigSep Finset.univ fun r : Fin 8 => oPts d (chunk (wid (Fin.cast nCore_zero c) (Fin.cast nSub_zero i)) r) (m (oLoc d)))
          ∗ tbTok m d c.val ∗ ∃ f, shLoc d ((K (F := F)).core 0 c) ↦{fullShare} f) from by
        show goRes m d _ _ = _; unfold goRes; rw [if_pos (show (Fin.cast nSub_zero i).val = 0 from h0)] <;> rfl,
      show (P m).td 0 d c i = iprop(ixPts m d (wid (Fin.cast nCore_zero c) (Fin.cast nSub_zero i))
          ∗ (bigSep Finset.univ fun r : Fin 8 => oPts d (chunk (wid (Fin.cast nCore_zero c) (Fin.cast nSub_zero i)) r) (G m d))
          ∗ shTok m d ((K (F := F)).core 0 c) i.val ∗ tbTok m d c.val ∗ shRest m d ((K (F := F)).core 0 c)) from by
        show tdRes m d _ _ = _; unfold tdRes; rw [if_pos (show (Fin.cast nSub_zero i).val = 0 from h0)] <;> rfl]
    exact tile_body_zero m d (coordsV ⟨_, hci.1⟩ ⟨_, hci.2⟩) (hr d) h0 hF O W hO hOlev
  · rw [show (P m).go 0 d c i = iprop(ixPts m d (wid (Fin.cast nCore_zero c) (Fin.cast nSub_zero i))
          ∗ (bigSep Finset.univ fun r : Fin 8 => oPts d (chunk (wid (Fin.cast nCore_zero c) (Fin.cast nSub_zero i)) r) (m (oLoc d)))
          ∗ iprop(emp)) from by
        show goRes m d _ _ = _; unfold goRes; rw [if_neg (show ¬ (Fin.cast nSub_zero i).val = 0 from h0)] <;> rfl,
      show (P m).td 0 d c i = iprop(ixPts m d (wid (Fin.cast nCore_zero c) (Fin.cast nSub_zero i))
          ∗ (bigSep Finset.univ fun r : Fin 8 => oPts d (chunk (wid (Fin.cast nCore_zero c) (Fin.cast nSub_zero i)) r) (G m d))
          ∗ shTok m d ((K (F := F)).core 0 c) i.val ∗ iprop(emp)) from by
        show tdRes m d _ _ = _; unfold tdRes; rw [if_neg (show ¬ (Fin.cast nSub_zero i).val = 0 from h0)] <;> rfl]
    exact tile_body_pos m d (coordsV ⟨_, hci.1⟩ ⟨_, hci.2⟩) (hr d) h0 hF O W hO hOlev

end Tile

end Cert.Proof.Kernel

end
-- ==== Proof.lean ====
/-
  The certificate's claims, assembled. An embedding lookup: row `p` of the result is the table's row whose
  number is the `p`-th index (the specification `Cert.Spec.rows`). The reference computes it with one gather
  behind a wrap-around and an in-bounds mask that are both inactive when every index lies in `[0, 999]`
  (the precondition's range). The kernel computes it on thirty-two vector subcores: each fetches its 512
  indices, tile 0 of each SparseCore stages the table in the SparseCore's shared memory, the tiles meet
  at the subcore barrier — which hands each tile a read share of the staged table —, and each tile gathers
  its rows out of the staged copy, sixty-four at a time, and writes them to its rows of the result. Pure data
  movement: the same proof serves the word-level program and its idealization, and the two idealized programs
  end with the same array, the specification's, element by element. Nothing was rewritten by the
  idealization, so `preserves` has nothing to state.
-/
import proofs.«206951_g4793183502620_cont_8to1_c_898_7_alg».proof.Defs
import proofs.«206951_g4793183502620_cont_8to1_c_898_7_alg».proof.Proof.Gen.Kernel
import proofs.«206951_g4793183502620_cont_8to1_c_898_7_alg».proof.Proof.Gen.KernelIdeal
import proofs.«206951_g4793183502620_cont_8to1_c_898_7_alg».proof.Proof.Gen.ReferenceIdeal
import proofs.«206951_g4793183502620_cont_8to1_c_898_7_alg».proof.Proof.Gen.Pre_input_domain
import proofs.«206951_g4793183502620_cont_8to1_c_898_7_alg».proof.Proof.PreRange
import proofs.«206951_g4793183502620_cont_8to1_c_898_7_alg».proof.Proof.RefSide
import proofs.«206951_g4793183502620_cont_8to1_c_898_7_alg».proof.Proof.KernelIdeal.Launch
import proofs.«206951_g4793183502620_cont_8to1_c_898_7_alg».proof.Proof.KernelIdeal.Tile
import proofs.«206951_g4793183502620_cont_8to1_c_898_7_alg».proof.Proof.Kernel.Launch
import proofs.«206951_g4793183502620_cont_8to1_c_898_7_alg».proof.Proof.Kernel.Tile
import Idealize.ShloMosaic.Adequacy
import Idealize.ShloMosaic.Init

noncomputable section

namespace Cert.Proof

open Idealize.ShloMosaic Idealize.SL.Sem

/-- The word-level program runs to its end with its arguments unchanged: its run, the result's value dropped. -/
theorem frame_k : Cert.frame_Kernel (hKernel := Cert.Kernel.Gen.facts) (hPre_input_domain := Cert.Pre_input_domain.Gen.facts) := fun m g hpre =>
  (θ_run (Cert.Kernel.defs (F := Bits)) _ _).mono (fun _ h c => (h c).2)
    (Cert.Proof.Kernel.run_main (F := Bits) m g
      (Cert.Proof.Kernel.tileObl m (fun d => Cert.PreRange.inRange_of_pre _ _ (hpre d)) Cert.Proof.Kernel.facts))

/-- The idealized kernel's run: the result at the specification's rows, the arguments unchanged. -/
theorem run_ki (m : (ℓ : Loc Cert.KernelIdeal.nD Cert.KernelIdeal.τ Cert.KernelIdeal.sig) → Buf (Elt Ideal) ℓ) (g : Dev Cert.KernelIdeal.nD → PrngReg)
    (hpre : Cert.Pre_KernelIdeal (hPre_input_domain := Cert.Pre_input_domain.Gen.facts) m) :
    θ_run (Cert.KernelIdeal.defs (F := Ideal)) (Cert.KernelIdeal.threads (F := Ideal)) ⟨m, fun _ => 0, g⟩ (Cert.Proof.KernelIdeal.QC m) :=
  Cert.Proof.KernelIdeal.run_main (F := Ideal) m g
    (Cert.Proof.KernelIdeal.tileObl m (fun d => Cert.PreRange.inRange_of_pre _ _ (hpre d)) Cert.Proof.KernelIdeal.facts)

theorem frame_ki : Cert.frame_KernelIdeal (hKernelIdeal := Cert.KernelIdeal.Gen.facts) (hPre_input_domain := Cert.Pre_input_domain.Gen.facts) := fun m g hpre =>
  (θ_run (Cert.KernelIdeal.defs (F := Ideal)) _ _).mono (fun _ h c => (h c).2) (run_ki m g hpre)

/-- The reference runs to its end with its arguments unchanged: its run, the result's value dropped. -/
theorem frame_ri : Cert.frame_ReferenceIdeal (hReferenceIdeal := Cert.ReferenceIdeal.Gen.facts) (hPre_input_domain := Cert.Pre_input_domain.Gen.facts) := fun m g hpre =>
  (θ_run (Cert.ReferenceIdeal.defs (F := Ideal)) _ _).mono (fun _ h c => (h c).2) (Cert.RefSide.run_rows m g hpre)

/-- From memories that agree on the index vector and the table, both idealized programs end with the
    specification's rows of those two arrays. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m g m' g' hpre hagree
  have hpre' : Cert.Pre_ReferenceIdeal (hPre_input_domain := Cert.Pre_input_domain.Gen.facts) m' := fun c => by
    rw [(hagree c).1, (hagree c).2]; exact hpre c
  refine ⟨fun c => Cert.Proof.KernelIdeal.G m c, run_ki m g hpre, ?_⟩
  refine (θ_run (Cert.ReferenceIdeal.defs (F := Ideal)) _ _).mono (fun _ h c => ⟨(h c).1.trans ?_, (h c).2⟩) (Cert.RefSide.run_rows m' g' hpre')
  rw [(hagree c).1, (hagree c).2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
